-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x64 : Shape := ⟨2, ![400000, 64]⟩
abbrev S8x128x64 : Shape := ⟨3, ![8, 128, 64]⟩
abbrev S64 : Shape := ⟨1, ![64]⟩
abbrev S128x64 : Shape := ⟨2, ![128, 64]⟩
abbrev S8x100000 : Shape := ⟨2, ![8, 100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S8x128x64 : S_.BroadcastsInDim S8x128x64 (![] : Fin 0 → Fin S8x128x64.rank)
  reducesTo_S8x128x64_S_d0_1_2 : S8x128x64.ReducesTo [0, 1, 2] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg4 : FVec F S64 .f32) (main_arg5 : FVec F S128x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  main_v28

def fn {F : FTy → Type} [FloatOps F] (main_arg0 : FVec F S100000x128 .f32) (main_arg1 : FVec F S400000x64 .f32) (main_arg2 : FVec F S8x128x64 .f32) (main_arg3 : FVec F S64 .f32) (main_arg4 : FVec F S64 .f32) (main_arg5 : FVec F S128x64 .f32) (main_arg6 : IVec S8x100000 32) (main_arg7 : IVec S8x100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S8x128x64 .f32 := Host.absf main_arg2
  let main_cst_2 : FVec F S_ .f32 := constant S_ .f32 0x7F800000#32
  let main_v10 : FVec F S8x128x64 .f32 := broadcastInDim S8x128x64 ![] bcast_S_S8x128x64 main_cst_2
  let main_v11 : IVec S8x128x64 1 := cmpf .olt main_v9 main_v10
  let main_c_3 : IVec S_ 1 := constantI S_ 1 1#1
  let main_v12 : IVec S_ 1 := (fun x v => Host.reduce IntOp.andi x v reducesTo_S8x128x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x128 : Shape := ⟨2, ![100000, 128]⟩
abbrev S400000x64 : Shape := ⟨2, ![400000, 64]⟩
abbrev S8x128x64 : Shape := ⟨3, ![8, 128, 64]⟩
abbrev S64 : Shape := ⟨1, ![64]⟩
abbrev S128x64 : Shape := ⟨2, ![128, 64]⟩
abbrev S8x100000 : Shape := ⟨2, ![8, 100000]⟩
abbrev S128x8x64 : Shape := ⟨3, ![128, 8, 64]⟩
abbrev S128x512 : Shape := ⟨2, ![128, 512]⟩
abbrev S100000x512 : Shape := ⟨2, ![100000, 512]⟩
abbrev S5000x128 : Shape := ⟨2, ![5000, 128]⟩
abbrev S5000x512 : Shape := ⟨2, ![5000, 512]⟩
abbrev S100000x8x64 : Shape := ⟨3, ![100000, 8, 64]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S100000x2 : Shape := ⟨2, ![100000, 2]⟩
abbrev S100000x64 : Shape := ⟨2, ![100000, 64]⟩
abbrev S1x100000x64 : Shape := ⟨3, ![1, 100000, 64]⟩
abbrev S8x100000x64 : Shape := ⟨3, ![8, 100000, 64]⟩
abbrev S800000 : Shape := ⟨1, ![800000]⟩
abbrev S800000x64 : Shape := ⟨2, ![800000, 64]⟩
abbrev S800000x1 : Shape := ⟨2, ![800000, 1]⟩
abbrev S1x64 : Shape := ⟨2, ![1, 64]⟩
abbrev S20000x64 : Shape := ⟨2, ![20000, 64]⟩
abbrev S64x64 : Shape := ⟨2, ![64, 64]⟩
abbrev S10000x64 : Shape := ⟨2, ![10000, 64]⟩

abbrev nBuf : Space → Nat
  | .hbm => 184
  | .vmem => 19
  | .smem => 0
  | _ => 0

abbrev hbmTy0_0 (i : Nat) : BufTy := match i % 128 with
  | 0 => ⟨S100000x128, .f32⟩
  | 1 => ⟨S400000x64, .f32⟩
  | 2 => ⟨S8x128x64, .f32⟩
  | 3 => ⟨S64, .f32⟩
  | 4 => ⟨S64, .f32⟩
  | 5 => ⟨S128x64, .f32⟩
  | 6 => ⟨S8x100000, .i32⟩
  | 7 => ⟨S8x100000, .i32⟩
  | 8 => ⟨S128x8x64, .f32⟩
  | 9 => ⟨S128x512, .f32⟩
  | 10 => ⟨S100000x512, .f32⟩
  | 11 => ⟨S100000x8x64, .f32⟩
  | 12 => ⟨S1x100000, .i32⟩
  | 13 => ⟨S100000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S_, .i32⟩
  | 22 => ⟨S100000, .i32⟩
  | 23 => ⟨S100000, .i32⟩
  | 24 => ⟨S100000x1, .i32⟩
  | 25 => ⟨S100000x1, .i32⟩
  | 26 => ⟨S100000x2, .i32⟩
  | 27 => ⟨S100000x64, .f32⟩
  | 28 => ⟨S1x100000, .i32⟩
  | 29 => ⟨S100000, .i32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S_, .i32⟩
  | 38 => ⟨S100000, .i32⟩
  | 39 => ⟨S100000, .i32⟩
  | 40 => ⟨S100000x1, .i32⟩
  | 41 => ⟨S100000x1, .i32⟩
  | 42 => ⟨S100000x2, .i32⟩
  | 43 => ⟨S100000x64, .f32⟩
  | 44 => ⟨S1x100000, .i32⟩
  | 45 => ⟨S100000, .i32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S_, .i32⟩
  | 54 => ⟨S100000, .i32⟩
  | 55 => ⟨S100000, .i32⟩
  | 56 => ⟨S100000x1, .i32⟩
  | 57 => ⟨S100000x1, .i32⟩
  | 58 => ⟨S100000x2, .i32⟩
  | 59 => ⟨S100000x64, .f32⟩
  | 60 => ⟨S1x100000, .i32⟩
  | 61 => ⟨S100000, .i32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S_, .i32⟩
  | 70 => ⟨S100000, .i32⟩
  | 71 => ⟨S100000, .i32⟩
  | 72 => ⟨S100000x1, .i32⟩
  | 73 => ⟨S100000x1, .i32⟩
  | 74 => ⟨S100000x2, .i32⟩
  | 75 => ⟨S100000x64, .f32⟩
  | 76 => ⟨S1x100000, .i32⟩
  | 77 => ⟨S100000, .i32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S_, .i32⟩
  | 86 => ⟨S100000, .i32⟩
  | 87 => ⟨S100000, .i32⟩
  | 88 => ⟨S100000x1, .i32⟩
  | 89 => ⟨S100000x1, .i32⟩
  | 90 => ⟨S100000x2, .i32⟩
  | 91 => ⟨S100000x64, .f32⟩
  | 92 => ⟨S1x100000, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S_, .i32⟩
  | 102 => ⟨S100000, .i32⟩
  | 103 => ⟨S100000, .i32⟩
  | 104 => ⟨S100000x1, .i32⟩
  | 105 => ⟨S100000x1, .i32⟩
  | 106 => ⟨S100000x2, .i32⟩
  | 107 => ⟨S100000x64, .f32⟩
  | 108 => ⟨S1x100000, .i32⟩
  | 109 => ⟨S100000, .i32⟩
  | 110 => ⟨S_, .i32⟩
  | 111 => ⟨S100000, .i32⟩
  | 112 => ⟨S100000, .i1⟩
  | 113 => ⟨S_, .i32⟩
  | 114 => ⟨S100000, .i32⟩
  | 115 => ⟨S100000, .i32⟩
  | 116 => ⟨S100000, .i32⟩
  | 117 => ⟨S_, .i32⟩
  | 118 => ⟨S100000, .i32⟩
  | 119 => ⟨S100000, .i32⟩
  | 120 => ⟨S100000x1, .i32⟩
  | 121 => ⟨S100000x1, .i32⟩
  | 122 => ⟨S100000x2, .i32⟩
  | 123 => ⟨S100000x64, .f32⟩
  | 124 => ⟨S1x100000, .i32⟩
  | 125 => ⟨S100000, .i32⟩
  | 126 => ⟨S_, .i32⟩
  | 127 => ⟨S100000, .i32⟩
  | _ => ⟨S100000x128, .f32⟩

abbrev hbmTy0_1 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S_, .i32⟩
  | 6 => ⟨S100000, .i32⟩
  | 7 => ⟨S100000, .i32⟩
  | 8 => ⟨S100000x1, .i32⟩
  | 9 => ⟨S100000x1, .i32⟩
  | 10 => ⟨S100000x2, .i32⟩
  | 11 => ⟨S100000x64, .f32⟩
  | 12 => ⟨S1x100000x64, .f32⟩
  | 13 => ⟨S1x100000x64, .f32⟩
  | 14 => ⟨S1x100000x64, .f32⟩
  | 15 => ⟨S1x100000x64, .f32⟩
  | 16 => ⟨S1x100000x64, .f32⟩
  | 17 => ⟨S1x100000x64, .f32⟩
  | 18 => ⟨S1x100000x64, .f32⟩
  | 19 => ⟨S1x100000x64, .f32⟩
  | 20 => ⟨S8x100000x64, .f32⟩
  | 21 => ⟨S_, .f32⟩
  | 22 => ⟨S400000x64, .f32⟩
  | 23 => ⟨S800000, .i32⟩
  | 24 => ⟨S800000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S400000x64, .f32⟩
  | 34 => ⟨S1x64, .f32⟩
  | 35 => ⟨S1x64, .f32⟩
  | 36 => ⟨S_, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S1x64, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S1x64, .f32⟩
  | 49 => ⟨S1x64, .f32⟩
  | 50 => ⟨S1x64, .f32⟩
  | 51 => ⟨S1x64, .f32⟩
  | 52 => ⟨S1x64, .f32⟩
  | 53 => ⟨S64x64, .f32⟩
  | 54 => ⟨S64x64, .f32⟩
  | 55 => ⟨S400000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x512, .f32⟩
  | .local _ .vmem, ⟨3, _⟩ => ⟨S5000x512, .f32⟩
  | .local _ .vmem, ⟨4, _⟩ => ⟨S5000x512, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S1x64, .f32⟩
  | .local _ .vmem, ⟨15, _⟩ => ⟨S64x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_c_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_v71 : Ref sig .tc := ⟨.hbm, 95, rfl⟩
abbrev main_v72 : Ref sig .tc := ⟨.hbm, 96, rfl⟩
abbrev main_c_15 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_16 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_17 : Ref sig .tc := ⟨.hbm, 110, rfl⟩
abbrev main_v84 : Ref sig .tc := ⟨.hbm, 111, rfl⟩
abbrev main_v85 : Ref sig .tc := ⟨.hbm, 112, rfl⟩
abbrev main_c_18 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_19 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_20 : Ref sig .tc := ⟨.hbm, 126, rfl⟩
abbrev main_v97 : Ref sig .tc := ⟨.hbm, 127, rfl⟩
abbrev main_v98 : Ref sig .tc := ⟨.hbm, 128, rfl⟩
abbrev main_c_21 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_22 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_23 : Ref sig .tc := ⟨.hbm, 153, rfl⟩
abbrev main_v120 : Ref sig .tc := ⟨.hbm, 154, rfl⟩
abbrev main_v121 : Ref sig .tc := ⟨.hbm, 155, rfl⟩
abbrev main_c_24 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127_0 : Ref sig .tc := ⟨.hbm, 162, rfl⟩
abbrev main_v127_1 : Ref sig .tc := ⟨.hbm, 163, rfl⟩
abbrev main_cst_25 : Ref sig .tc := ⟨.hbm, 164, rfl⟩
abbrev main_v128 : Ref sig .tc := ⟨.hbm, 165, rfl⟩
abbrev main_v129 : Ref sig .tc := ⟨.hbm, 166, rfl⟩
abbrev main_cst_26 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_27 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S8x128x64_S128x8x64_1_0_2 : S8x128x64.Transposes [1, 0, 2] S128x8x64
  shapeCasts_S128x8x64_S128x512 : S128x8x64.ShapeCasts S128x512
  inb_S5000x128_S5000x128_0_0 : ∀ a, (![0, 0] : Fin 2 → Nat) a + S5000x128.size a ≤ S5000x128.size a
  h_S5000x128 : 0 < S5000x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S5000x512_S5000x512_0_0 : ∀ a, (![0, 0] : Fin 2 → Nat) a + S5000x512.size a ≤ S5000x512.size a
  h_S5000x512 : 0 < S5000x512.numel
  shapeCasts_S100000x512_S100000x8x64 : S100000x512.ShapeCasts S100000x8x64
  slices_S8x100000_S1x100000_0_0 : S8x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  slices_S8x100000_S1x100000_1_0 : S8x100000.Slices ![1, 0] S1x100000
  slices_S8x100000_S1x100000_2_0 : S8x100000.Slices ![2, 0] S1x100000
  slices_S8x100000_S1x100000_3_0 : S8x100000.Slices ![3, 0] S1x100000
  slices_S8x100000_S1x100000_4_0 : S8x100000.Slices ![4, 0] S1x100000
  slices_S8x100000_S1x100000_5_0 : S8x100000.Slices ![5, 0] S1x100000
  slices_S8x100000_S1x100000_6_0 : S8x100000.Slices ![6, 0] S1x100000
  slices_S8x100000_S1x100000_7_0 : S8x100000.Slices ![7, 0] S1x100000
  bcast_S100000x64_S1x100000x64_1_2 : S100000x64.BroadcastsInDim S1x100000x64 (![1, 2] : Fin 2 → Fin S1x100000x64.rank)
  concatenates_S1x100000x64_S1x100000x64_S1x100000x64_S1x100000x64_S1x100000x64_S1x100000x64_S1x100000x64_S1x100000x64_S8x100000x64_d0 : Shape.Concatenates [S1x100000x64, S1x100000x64, S1x100000x64, S1x100000x64, S1x100000x64, S1x100000x64, S1x100000x64, S1x100000x64] S8x100000x64 0
  bcast_S_S400000x64 : S_.BroadcastsInDim S400000x64 (![] : Fin 0 → Fin S400000x64.rank)
  shapeCasts_S8x100000_S800000 : S8x100000.ShapeCasts S800000
  shapeCasts_S8x100000x64_S800000x64 : S8x100000x64.ShapeCasts S800000x64
  bcast_S_S800000 : S_.BroadcastsInDim S800000 (![] : Fin 0 → Fin S800000.rank)
  bcast_S800000_S800000x1_0 : S800000.BroadcastsInDim S800000x1 (![0] : Fin 1 → Fin S800000x1.rank)
  inb_S1x64_S1x64_0_0 : ∀ a, (![0, 0] : Fin 2 → Nat) a + S1x64.size a ≤ S1x64.size a
  h_S1x64 : 0 < S1x64.numel
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  shapeCasts_S1x64_S1x64 : S1x64.ShapeCasts S1x64
  reduces_S20000x64_S64 : S20000x64.Reduces [0] S64
  shapeCasts_S64_S1x64 : S64.ShapeCasts S1x64
  bcast_S_S1x64 : S_.BroadcastsInDim S1x64 (![] : Fin 0 → Fin S1x64.rank)
  slices_S128x64_S64x64_0_0 : S128x64.Slices ![0, 0] S64x64
  slices_S128x64_S64x64_64_0 : S128x64.Slices ![64, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S5000x128_S128x512_S5000x512_1_0_0_1_n_n_wf : DotDims.WF S5000x128 S128x512 S5000x512 [1] [0] [0] [1] [] []
  gather_S100000x8x64_S100000x2_S100000x64_1_01_n_n_01_1_1164_wf : GatherDims.WF S100000x8x64 S100000x2 S100000x64 [1] [0, 1] [] [0, 1] [] 1 ![1, 1, 64]
  scatter_S400000x64_S800000x1_S800000x64_1_0_0_1_wf : ScatterDims.WF S400000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x512.size a ≤ S100000x512.size a
  hwx0_2 : ∀ i : grid0.Coords, EltTy.bits .f32 = 32 ∨ (Rect.block (s := S100000x512) S5000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S400000x64.size a
  hwx1_0 : ∀ i : grid1.Coords, EltTy.bits .f32 = 32 ∨ (Rect.block (s := S400000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S400000x64.size a
  hwx2_0 : ∀ i : grid2.Coords, EltTy.bits .f32 = 32 ∨ (Rect.block (s := S400000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S400000x64.size a
  hwx2_1 : ∀ i : grid2.Coords, EltTy.bits .f32 = 32 ∨ (Rect.block (s := S400000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S400000x64.size a
  hwx2_6 : ∀ i : grid2.Coords, EltTy.bits .f32 = 32 ∨ (Rect.block (s := S400000x64) S10000x64.size (cc2_transform_6 i) (hinb2_6 i)).WholeWords (EltTy.packing .f32)

variable [Facts₀]

def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf
def gather_S100000x8x64_S100000x2_S100000x64_1_01_n_n_01_1_1164 : GatherDims S100000x8x64 S100000x2 S100000x64 where
  offsetDims := [1]
  collapsedSliceDims := [0, 1]
  operandBatchingDims := []
  startIndicesBatchingDims := []
  startIndexMap := [0, 1]
  indexVectorDim := 1
  sliceSizes := ![1, 1, 64]
  wf := gather_S100000x8x64_S100000x2_S100000x64_1_01_n_n_01_1_1164_wf
def scatter_S400000x64_S800000x1_S800000x64_1_0_0_1 : ScatterDims S400000x64 S800000x1 S800000x64 where
  updateWindowDims := [1]
  insertedWindowDims := [0]
  scatterDimsToOperandDims := [0]
  indexVectorDim := 1
  wf := scatter_S400000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v126) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v127_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v127_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v126) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v138) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v141) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v142) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v143) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v144) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S400000x64 : Shape := ⟨2, ![400000, 64]⟩
abbrev S8x128x64 : Shape := ⟨3, ![8, 128, 64]⟩
abbrev S64 : Shape := ⟨1, ![64]⟩
abbrev S128x64 : Shape := ⟨2, ![128, 64]⟩
abbrev S8x100000 : Shape := ⟨2, ![8, 100000]⟩
abbrev S_ : Shape := ⟨0, ![]⟩
abbrev S8x100000x1 : Shape := ⟨3, ![8, 100000, 1]⟩
abbrev S8x100000x128 : Shape := ⟨3, ![8, 100000, 128]⟩
abbrev S8x100000x64 : Shape := ⟨3, ![8, 100000, 64]⟩
abbrev S800000 : Shape := ⟨1, ![800000]⟩
abbrev S800000x64 : Shape := ⟨2, ![800000, 64]⟩
abbrev S800000x1 : Shape := ⟨2, ![800000, 1]⟩
abbrev S1x64 : Shape := ⟨2, ![1, 64]⟩
abbrev S400000x128 : Shape := ⟨2, ![400000, 128]⟩

abbrev nBuf : Space → Nat
  | .hbm => 66
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x64, .f32⟩
  | .hbm, ⟨2, _⟩ => ⟨S8x128x64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S8x100000, .i32⟩
  | .hbm, ⟨7, _⟩ => ⟨S8x100000, .i32⟩
  | .hbm, ⟨8, _⟩ => ⟨S_, .i32⟩
  | .hbm, ⟨9, _⟩ => ⟨S8x100000, .i32⟩
  | .hbm, ⟨10, _⟩ => ⟨S8x100000, .i1⟩
  | .hbm, ⟨11, _⟩ => ⟨S_, .i32⟩
  | .hbm, ⟨12, _⟩ => ⟨S8x100000, .i32⟩
  | .hbm, ⟨13, _⟩ => ⟨S8x100000, .i32⟩
  | .hbm, ⟨14, _⟩ => ⟨S8x100000, .i32⟩
  | .hbm, ⟨15, _⟩ => ⟨S8x100000x1, .i32⟩
  | .hbm, ⟨16, _⟩ => ⟨S8x100000x128, .f32⟩
  | .hbm, ⟨17, _⟩ => ⟨S8x100000x64, .f32⟩
  | .hbm, ⟨18, _⟩ => ⟨S_, .f32⟩
  | .hbm, ⟨19, _⟩ => ⟨S400000x64, .f32⟩
  | .hbm, ⟨20, _⟩ => ⟨S800000, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S400000x64, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S1x64, .f32⟩
  | .hbm, ⟨37, _⟩ => ⟨S400000x64, .f32⟩
  | .hbm, ⟨38, _⟩ => ⟨S400000x64, .f32⟩
  | .hbm, ⟨39, _⟩ => ⟨S400000x64, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S400000x64, .f32⟩
  | .hbm, ⟨47, _⟩ => ⟨S400000x64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S400000x64, .f32⟩
  | .hbm, ⟨54, _⟩ => ⟨S400000x64, .f32⟩
  | .hbm, ⟨55, _⟩ => ⟨S1x64, .f32⟩
  | .hbm, ⟨56, _⟩ => ⟨S400000x64, .f32⟩
  | .hbm, ⟨57, _⟩ => ⟨S400000x64, .f32⟩
  | .hbm, ⟨58, _⟩ => ⟨S1x64, .f32⟩
  | .hbm, ⟨59, _⟩ => ⟨S400000x64, .f32⟩
  | .hbm, ⟨60, _⟩ => ⟨S400000x64, .f32⟩
  | .hbm, ⟨61, _⟩ => ⟨S_, .f32⟩
  | .hbm, ⟨62, _⟩ => ⟨S400000x64, .f32⟩
  | .hbm, ⟨63, _⟩ => ⟨S400000x64, .f32⟩
  | .hbm, ⟨64, _⟩ => ⟨S400000x128, .f32⟩
  | .hbm, ⟨65, _⟩ => ⟨S400000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  bcast_S_S8x100000 : S_.BroadcastsInDim S8x100000 (![] : Fin 0 → Fin S8x100000.rank)
  bcast_S8x100000_S8x100000x1_0_1 : S8x100000.BroadcastsInDim S8x100000x1 (![0, 1] : Fin 2 → Fin S8x100000x1.rank)
  bcast_S_S400000x64 : S_.BroadcastsInDim S400000x64 (![] : Fin 0 → Fin S400000x64.rank)
  shapeCasts_S8x100000_S800000 : S8x100000.ShapeCasts S800000
  shapeCasts_S8x100000x64_S800000x64 : S8x100000x64.ShapeCasts S800000x64
  bcast_S_S800000 : S_.BroadcastsInDim S800000 (![] : Fin 0 → Fin S800000.rank)
  bcast_S800000_S800000x1_0 : S800000.BroadcastsInDim S800000x1 (![0] : Fin 1 → Fin S800000x1.rank)
  reducesTo_S400000x64_S64_d0 : S400000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  concatenates_S400000x64_S400000x64_S400000x128_d1 : Shape.Concatenates [S400000x64, S400000x64] S400000x128 1
  gather_S100000x128_S8x100000x1_S8x100000x128_2_0_n_n_0_2_1128_wf : GatherDims.WF S100000x128 S8x100000x1 S8x100000x128 [2] [0] [] [0] [] 2 ![1, 128]
  dot_S8x100000x128_S8x128x64_S8x100000x64_2_1_1_2_0_0_wf : DotDims.WF S8x100000x128 S8x128x64 S8x100000x64 [2] [1] [1] [2] [0] [0]
  scatter_S400000x64_S800000x1_S800000x64_1_0_0_1_wf : ScatterDims.WF S400000x64 S800000x1 S800000x64 [1] [0] [0] 1
  dot_S400000x128_S128x64_S400000x64_1_0_0_1_n_n_wf : DotDims.WF S400000x128 S128x64 S400000x64 [1] [0] [0] [1] [] []

variable [Facts₀]

def gather_S100000x128_S8x100000x1_S8x100000x128_2_0_n_n_0_2_1128 : GatherDims S100000x128 S8x100000x1 S8x100000x128 where
  offsetDims := [2]
  collapsedSliceDims := [0]
  operandBatchingDims := []
  startIndicesBatchingDims := []
  startIndexMap := [0]
  indexVectorDim := 2
  sliceSizes := ![1, 128]
  wf := gather_S100000x128_S8x100000x1_S8x100000x128_2_0_n_n_0_2_1128_wf
def dot_S8x100000x128_S8x128x64_S8x100000x64_2_1_1_2_0_0 : DotDims S8x100000x128 S8x128x64 S8x100000x64 where
  lhsContracting := [2]
  rhsContracting := [1]
  lhsNonContracting := [1]
  rhsNonContracting := [2]
  lhsBatch := [0]
  rhsBatch := [0]
  wf := dot_S8x100000x128_S8x128x64_S8x100000x64_2_1_1_2_0_0_wf
def scatter_S400000x64_S800000x1_S800000x64_1_0_0_1 : ScatterDims S400000x64 S800000x1 S800000x64 where
  updateWindowDims := [1]
  insertedWindowDims := [0]
  scatterDimsToOperandDims := [0]
  indexVectorDim := 1
  wf := scatter_S400000x64_S800000x1_S800000x64_1_0_0_1_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf

class Facts : Prop extends Facts₀ where

variable [Facts]
-- ==== Proof.KB.Region0.lean ====
/-
  The first pallas_call: one row block of the dense product per grid point.
  At point t the body reads the block of 5000 rows of the left operand and the whole right operand
  (128 by 512), multiplies them into a zero accumulator and stores the 5000 by 512 product over its
  output block. Stated at a parameter V, the contents of the core's buffers when the call is entered:
  what each window's staging buffer holds after the body (an input its block, the output the product
  of the two input blocks), the body's triple, and the obligation the launch theorem asks for at
  every grid point. Everything is generic in the float instance.
-/
import proofs.«119201_j83674552861285_2_alg».proof.Proof.Gen.Kernel.Launch
import proofs.«119201_j83674552861285_2_alg».proof.Proof.Gen.Kernel.Skeleton
import proofs.«119201_j83674552861285_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body loads and stores through. -/
abbrev rL0 : Rect S5000x128 := Rect.unit (s := S5000x128) ![0, 0] S5000x128.size inb_S5000x128_S5000x128_0_0
abbrev rR0 : Rect S128x512 := Rect.unit (s := S128x512) ![0, 0] S128x512.size inb_S128x512_S128x512_0_0
abbrev rO0 : Rect S5000x512 := Rect.unit (s := S5000x512) ![0, 0] S5000x512.size inb_S5000x512_S5000x512_0_0

/-- The output window's staging buffer after the body: its one store, the product of the two loaded blocks. -/
def out0_2 (x0 : Vec F S5000x128 .f32) (x1 : Vec F S128x512 .f32) : Vec F S5000x512 .f32 :=
  View.canon [⟨rO0, k0_pay1 (View.ld x0 rL0) (View.ld x1 rR0)⟩]

/-- The one store covers the whole buffer. -/
theorem cover0_2 (p0 : Vec F S5000x512 .f32) (y : S5000x512.Idx) :
    ∃ pc ∈ ([⟨rO0, p0⟩] : List (View.Piece (Elt F) S5000x512 .f32)), y ∈ pc.1.set :=
  View.cover_of_tiled [⟨rO0, p0⟩] S5000x512.size (by rfl) y

set_option maxHeartbeats 1000000 in
/-- The body on whole staging memrefs, the two inputs at known contents and the output at anything, runs to the
    continuation with the inputs as they were and the output holding the product. -/
theorem sound_kernel0 (c : Dev nD) (E : Set ℕ) (i : grid0.Coords) (arg1 : Memref sig .tc .vmem S5000x128 .f32) (harg1 : arg1.IsWhole)
    (arg2 : Memref sig .tc .vmem S128x512 .f32) (harg2 : arg2.IsWhole) (arg3 : Memref sig .tc .vmem S5000x512 .f32) (harg3 : arg3.IsWhole)
    (x0 : Vec F S5000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first call on core `c`: the arrays as the call finds them; after the body at point `t`
    each input's buffer at its block, the output's at the product of the two blocks; the scoped rest and the
    generator register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KB.Region1.lean ====
/-
  The second pallas_call: the column sums of y and of y*y, accumulated over twenty row blocks.
  The two output windows (1 by 64 each) keep one block index over the whole grid, so their staging
  buffers stay resident and are written back once, after the last point. At the first point the body
  stores zeros into both and then adds the block's column sums; at every later point it finds what the
  point before left and adds the block's column sums to it. What the two buffers hold after point t is
  therefore defined by recursion on t, from the stores each of the two cases of the body makes. Stated at
  a parameter V, the contents of the core's buffers when the call is entered. Generic in the float
  instance.
-/
import proofs.«119201_j83674552861285_2_alg».proof.Proof.Gen.Kernel.Launch
import proofs.«119201_j83674552861285_2_alg».proof.Proof.Gen.Kernel.Skeleton
import proofs.«119201_j83674552861285_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The branch condition of the body: the first grid coordinate is zero. It holds at the first point only. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val % 20 = 0 :=
  (by decide +kernel : ∀ t : Fin grid1.N, cond1 (grid1.coords t) ↔ t.val % 20 = 0)

/-- One staging buffer of each output window, through which its contents are stated (the choice does not matter). -/
abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
/-- Each window's current staging memref at point `t`, as the pipeline passes it, and its wholeness. -/
abbrev ms1_0 (t : Fin cfg1.N) : Memref sig .tc .vmem S20000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)

set_option maxHeartbeats 2000000 in
/-- The stores the body makes into each output's staging memref at the FIRST point (the branch taken), last first,
    with the proof that on whole staging memrefs — the input at its contents, the outputs at anything — the body runs
    to the continuation holding the input as it was and each output's buffer with those stores written. -/
noncomputable def kernelRun1_A (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) :
    (L1 : List (View.Piece (Elt F) S1x64 .f32)) ×' (L2 : List (View.Piece (Elt F) S1x64 .f32)) ×'
      (∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__bn_stats_kernel i arg1 harg1 arg2 harg2 arg3 harg3) K) := by
  refine ⟨?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 2000000 in
/-- The same at a LATER point (the branch not taken): the two outputs at their running contents `xo1`, `xo2`. -/
noncomputable def kernelRun1_B (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32)
    (xo1 xo2 : Vec F S1x64 .f32) :
    (L1 : List (View.Piece (Elt F) S1x64 .f32)) ×' (L2 : List (View.Piece (Elt F) S1x64 .f32)) ×'
      (∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__bn_stats_kernel i arg1 harg1 arg2 harg2 arg3 harg3) K) := by
  refine ⟨?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

/-- In either case the stores into each output tile its block, so they cover it. -/
theorem cover1_A_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) (y : S1x64.Idx) :
    ∃ pc ∈ (kernelRun1_A c i arg1 harg1 arg2 harg2 arg3 harg3 hc0 x0).1, y ∈ pc.1.set :=
  View.cover_of_tiledL (kernelRun1_A c i arg1 harg1 arg2 harg2 arg3 harg3 hc0 x0).1 S1x64.size (by sl_kernel_rfl) y
theorem cover1_A_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) (y : S1x64.Idx) :
    ∃ pc ∈ (kernelRun1_A c i arg1 harg1 arg2 harg2 arg3 harg3 hc0 x0).2.1, y ∈ pc.1.set :=
  View.cover_of_tiledL (kernelRun1_A c i arg1 harg1 arg2 harg2 arg3 harg3 hc0 x0).2.1 S1x64.size (by sl_kernel_rfl) y
theorem cover1_B_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32) (xo1 xo2 : Vec F S1x64 .f32) (y : S1x64.Idx) :
    ∃ pc ∈ (kernelRun1_B c i arg1 harg1 arg2 harg2 arg3 harg3 hc0 x0 xo1 xo2).1, y ∈ pc.1.set :=
  View.cover_of_tiledL (kernelRun1_B c i arg1 harg1 arg2 harg2 arg3 harg3 hc0 x0 xo1 xo2).1 S1x64.size (by sl_kernel_rfl) y
theorem cover1_B_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32) (xo1 xo2 : Vec F S1x64 .f32) (y : S1x64.Idx) :
    ∃ pc ∈ (kernelRun1_B c i arg1 harg1 arg2 harg2 arg3 harg3 hc0 x0 xo1 xo2).2.1, y ∈ pc.1.set :=
  View.cover_of_tiledL (kernelRun1_B c i arg1 harg1 arg2 harg2 arg3 harg3 hc0 x0 xo1 xo2).2.1 S1x64.size (by sl_kernel_rfl) y

/-- What each case leaves in each output's staging buffer: its stores read back. -/
def out1_A_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) : Vec F S1x64 .f32 :=
  VO1_1.read (Elt F) (VO1_1.writes (Elt F) VO1_1.junk (kernelRun1_A c i arg1 harg1 arg2 harg2 arg3 harg3 hc0 x0).1)
def out1_A_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) : Vec F S1x64 .f32 :=
  VO1_2.read (Elt F) (VO1_2.writes (Elt F) VO1_2.junk (kernelRun1_A c i arg1 harg1 arg2 harg2 arg3 harg3 hc0 x0).2.1)
def out1_B_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32) (xo1 xo2 : Vec F S1x64 .f32) : Vec F S1x64 .f32 :=
  VO1_1.read (Elt F) (VO1_1.writes (Elt F) VO1_1.junk (kernelRun1_B c i arg1 harg1 arg2 harg2 arg3 harg3 hc0 x0 xo1 xo2).1)
def out1_B_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32) (xo1 xo2 : Vec F S1x64 .f32) : Vec F S1x64 .f32 :=
  VO1_2.read (Elt F) (VO1_2.writes (Elt F) VO1_2.junk (kernelRun1_B c i arg1 harg1 arg2 harg2 arg3 harg3 hc0 x0 xo1 xo2).2.1)

section Region1
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION. What the two outputs' staging buffers hold after the body at position `n`: at the first point
    what the first case leaves; at a later point what the second case leaves over what position `n - 1` left. -/
def outsAt1 (c : Dev nD) : (n : ℕ) → n < cfg1.N → Vec F S1x64 .f32 × Vec F S1x64 .f32
  | 0, hn => (out1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩),
              out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩))
  | n + 1, hn =>
    if h0 : (n + 1) % 20 = 0 then
      (out1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩),
       out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩))
    else
      (out1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩)
          (outsAt1 c n (Nat.lt_of_succ_lt hn)).1 (outsAt1 c n (Nat.lt_of_succ_lt hn)).2,
       out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩)
          (outsAt1 c n (Nat.lt_of_succ_lt hn)).1 (outsAt1 c n (Nat.lt_of_succ_lt hn)).2)

/-- `outsAt1` at the first point. -/
theorem outsAt1_A (c : Dev nD) (t : Fin cfg1.N) (h0 : t.val % 20 = 0) :
    outsAt1 V c t.val t.isLt = (out1_A_1 c (grid1.coords t) (ms1_0 t) (hs1_0 t) (ms1_1 t) (hs1_1 t) (ms1_2 t) (hs1_2 t) ((hcond1 t).mpr h0) (iblk1 V c 0 t),
      out1_A_2 c (grid1.coords t) (ms1_0 t) (hs1_0 t) (ms1_1 t) (hs1_1 t) (ms1_2 t) (hs1_2 t) ((hcond1 t).mpr h0) (iblk1 V c 0 t)) := by
  obtain ⟨n, hn⟩ := t
  cases n with
  | zero => exact rfl
  | succ n => exact (dif_pos h0).trans rfl

/-- `outsAt1` at a later point: over what the point before left. -/
theorem outsAt1_B (c : Dev nD) (t : Fin cfg1.N) (h0 : ¬t.val % 20 = 0) :
    outsAt1 V c t.val t.isLt = (out1_B_1 c (grid1.coords t) (ms1_0 t) (hs1_0 t) (ms1_1 t) (hs1_1 t) (ms1_2 t) (hs1_2 t) (fun h => h0 ((hcond1 t).mp h)) (iblk1 V c 0 t)
        (outsAt1 V c (t.val - 1) (Nat.lt_of_le_of_lt (Nat.sub_le _ _) t.isLt)).1 (outsAt1 V c (t.val - 1) (Nat.lt_of_le_of_lt (Nat.sub_le _ _) t.isLt)).2,
      out1_B_2 c (grid1.coords t) (ms1_0 t) (hs1_0 t) (ms1_1 t) (hs1_1 t) (ms1_2 t) (hs1_2 t) (fun h => h0 ((hcond1 t).mp h)) (iblk1 V c 0 t)
        (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of the second call on core `c`: the arrays as the call finds them; after the body at point `t`
    the input's buffer at its block, the two outputs' at the running sums. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
/-- At a later point each output's current staging buffer holds what the body left at the point before: the buffer
    was not written back in between and the window is live and uncut. -/
theorem before1_1_B (c : Dev nD) (t : Fin cfg1.N) (h0 : ¬t.val % 20 = 0) (d) :
    (dat1 V c).before 1 t d = (outsAt1 V c (t.val - 1) (Nat.lt_of_le_of_lt (Nat.sub_le _ _) t.isLt)).1 := by
  have hN : t.val < 20 := lt_of_lt_of_eq t.isLt (show cfg1.N = 20 from N_1)
  rw [Dat.before_out_kept _ 1 rfl t (by omega) (Bool.eq_false_iff.mpr fun h => by have := (flush1_1 _).mp h; dsimp only at this; omega)
    (fun _ => rfl) (fun _ _ => rfl)]
  dsimp only [dat1]
theorem before1_2_B (c : Dev nD) (t : Fin cfg1.N) (h0 : ¬t.val % 20 = 0) (d) :
    (dat1 V c).before 2 t d = (outsAt1 V c (t.val - 1) (Nat.lt_of_le_of_lt (Nat.sub_le _ _) t.isLt)).2 := by
  have hN : t.val < 20 := lt_of_lt_of_eq t.isLt (show cfg1.N = 20 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the input's memref holds its block; the point is the first or a later one; at a later one
    each output holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 20 := lt_of_lt_of_eq t.isLt (show cfg1.N = 20 from N_1)
  by_cases h0 : t.val % 20 = 0
  · rw [outsAt1_A V c t h0]
    dsimp only
    unfold out1_A_1 out1_A_2
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_A_1 c _ _ _ _ _ _ _ _ _)
    · unfold owns; iexists _; isplitr
      swap; · iexact H2
      ipureintro; exact View.read_writes_of_cover _ _ _ _ _ (cover1_A_2 c _ _ _ _ _ _ _ _ _)
  · rw [outsAt1_B V c t h0]
    dsimp only
    simp only [before1_1_B V c t h0, before1_2_B V c t h0]
    unfold out1_B_1 out1_B_2
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_B_1 c _ _ _ _ _ _ _ _ _ _ _)
    · unfold owns; iexists _; isplitr
      swap; · iexact H2
      ipureintro; exact View.read_writes_of_cover _ _ _ _ _ (cover1_B_2 c _ _ _ _ _ _ _ _ _ _ _)

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KB.Region2.lean ====
/-
  The third pallas_call: one block of 10000 output rows per grid point.
  At point t the body reads the block of the scattered array y and the block of the skip features, the
  scale and shift rows (1 by 64) and the two 64 by 64 halves of the fusing matrix, forms
  max(y * scale + shift, 0), multiplies it by the first half, multiplies the skip block by the second
  half, adds the two products and stores the sum over its output block. Stated at a parameter V, the
  contents of the core's buffers when the call is entered. Generic in the float instance.
-/
import proofs.«119201_j83674552861285_2_alg».proof.Proof.Gen.Kernel.Launch
import proofs.«119201_j83674552861285_2_alg».proof.Proof.Gen.Kernel.Skeleton
import proofs.«119201_j83674552861285_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S10000x64 := Rect.unit (s := S10000x64) ![0, 0] S10000x64.size inb_S10000x64_S10000x64_0_0
abbrev rB2 : Rect S1x64 := Rect.unit (s := S1x64) ![0, 0] S1x64.size inb_S1x64_S1x64_0_0
abbrev rC2 : Rect S64x64 := Rect.unit (s := S64x64) ![0, 0] S64x64.size inb_S64x64_S64x64_0_0

/-- The output window's staging buffer after the body: its one store, the fused value of the six loaded blocks. -/
def out2_6 (x0 : Vec F S10000x64 .f32) (x1 : Vec F S10000x64 .f32) (x2 : Vec F S1x64 .f32) (x3 : Vec F S1x64 .f32) (x4 : Vec F S64x64 .f32) (x5 : Vec F S64x64 .f32) : Vec F S10000x64 .f32 :=
  View.canon [⟨rA2, k2_pay1 (View.ld x0 rA2) (View.ld x2 rB2) (View.ld x3 rB2) (View.ld x4 rC2) (View.ld x1 rA2) (View.ld x5 rC2)⟩]

/-- The one store covers the whole buffer. -/
theorem cover2_6 (p0 : Vec F S10000x64 .f32) (y : S10000x64.Idx) :
    ∃ pc ∈ ([⟨rA2, p0⟩] : List (View.Piece (Elt F) S10000x64 .f32)), y ∈ pc.1.set :=
  View.cover_of_tiled [⟨rA2, p0⟩] S10000x64.size (by rfl) y

set_option maxHeartbeats 2000000 in
/-- The body on whole staging memrefs, the six inputs at known contents and the output at anything, runs to the
    continuation with the inputs as they were and the output holding the fused value. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S10000x64 .f32) (harg7 : arg7.IsWhole)
    (x0 : Vec F S10000x64 .f32) (x1 : Vec F S10000x64 .f32) (x2 : Vec F S1x64 .f32) (x3 : Vec F S1x64 .f32) (x4 : Vec F S64x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__fuse_kernel i arg1 harg1 arg2 harg2 arg3 harg3 arg4 harg4 arg5 harg5 arg6 harg6 arg7 harg7) K := by
  simp only [cc2__fuse_kernel_eq_skeleton]; unfold cc2__fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the third call on core `c`: the arrays as the call finds them; after the body at point `t`
    each input's buffer at its block, the output's at the fused value of the six blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KB.Run.lean ====
/-
  The run of the whole program: two host operations, the first pallas_call, 151 host operations, the
  second pallas_call, 19 host operations, the third pallas_call.
  The contents of the core's buffers at each of the seven boundaries are a fold from the launch memory:
  a host stretch applies its operations; a pallas_call leaves its input arrays as entered and each output
  array with its blocks written back. Each pallas_call's proof data is taken at the contents of the
  boundary it is entered from. The launch theorem for a program of several regions then gives: every
  weakly fair execution terminates without a fault, and at the end every unscoped buffer holds the last
  boundary's contents. No host operation and no output window writes an argument array, so each argument
  reads back through the fold to its launch contents. Generic in the float instance.
-/
import proofs.«119201_j83674552861285_2_alg».proof.Proof.KB.Region0
import proofs.«119201_j83674552861285_2_alg».proof.Proof.KB.Region1
import proofs.«119201_j83674552861285_2_alg».proof.Proof.KB.Region2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (where the first call is entered). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At call 0's exit: its arrays at what the pipeline leaves (an input as entered, an output with its write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (where the second call is entered). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At call 1's exit: its arrays at what the pipeline leaves (an input as entered, an output with its write-backs
    folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (where the third call is entered). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At call 2's exit: its arrays at what the pipeline leaves (an input as entered, an output with its write-backs
    folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## What each host stretch writes -/

/-- The references host stretch 0 writes, in order. -/
abbrev wr0 : List (Ref sig .tc) := [main_v0, main_v1]
set_option maxHeartbeats 40000000 in
theorem wr0_sub : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
/-- A reference the stretch does not write keeps its contents through it. -/
theorem keep0 (W : Valuation τ sig (Elt F)) (r : Ref sig .tc) (hr : r ∉ wr0) :
    StableHlo.after (hostOps0 : List (HloOp τ sig (Elt F))) W (Proc.devRef .tc r) = W (Proc.devRef .tc r) :=
  StableHlo.after_of_writes_sub _ W wr0_sub hr
/-- No operation of the stretch allocates a buffer. -/
theorem hostOps0_fresh : (hostOps0 : List (HloOp τ sig (Elt F))).Forall fun op => op.fresh = ∅ := by
  simp only [List.Forall]; repeat' constructor

/-- The references host stretch 1 writes, in order. -/
abbrev wr1 : List (Ref sig .tc) := [main_v3, main_v4, main_v5, main_c, main_v6, main_v7, main_c_0, main_v8, main_v9, main_v10, main_c_1, main_v11, main_v12, main_v13, main_v14, main_v15, main_v16, main_v17, main_v18, main_c_2, main_v19, main_v20, main_c_3, main_v21, main_v22, main_v23, main_c_4, main_v24, main_v25, main_v26, main_v27, main_v28, main_v29, main_v30, main_v31, main_c_5, main_v32, main_v33, main_c_6, main_v34, main_v35, main_v36, main_c_7, main_v37, main_v38, main_v39, main_v40, main_v41, main_v42, main_v43, main_v44, main_c_8, main_v45, main_v46, main_c_9, main_v47, main_v48, main_v49, main_c_10, main_v50, main_v51, main_v52, main_v53, main_v54, main_v55, main_v56, main_v57, main_c_11, main_v58, main_v59, main_c_12, main_v60, main_v61, main_v62, main_c_13, main_v63, main_v64, main_v65, main_v66, main_v67, main_v68, main_v69, main_v70, main_c_14, main_v71, main_v72, main_c_15, main_v73, main_v74, main_v75, main_c_16, main_v76, main_v77, main_v78, main_v79, main_v80, main_v81, main_v82, main_v83, main_c_17, main_v84, main_v85, main_c_18, main_v86, main_v87, main_v88, main_c_19, main_v89, main_v90, main_v91, main_v92, main_v93, main_v94, main_v95, main_v96, main_c_20, main_v97, main_v98, main_c_21, main_v99, main_v100, main_v101, main_c_22, main_v102, main_v103, main_v104, main_v105, main_v106, main_v107, main_v108, main_v109, main_v110, main_v111, main_v112, main_v113, main_v114, main_v115, main_v116, main_cst, main_v117, main_v118, main_v119, main_c_23, main_v120, main_v121, main_c_24, main_v122, main_v123, main_v124, main_v125, main_v126]
set_option maxHeartbeats 40000000 in
theorem wr1_sub : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
/-- A reference the stretch does not write keeps its contents through it. -/
theorem keep1 (W : Valuation τ sig (Elt F)) (r : Ref sig .tc) (hr : r ∉ wr1) :
    StableHlo.after (hostOps1 : List (HloOp τ sig (Elt F))) W (Proc.devRef .tc r) = W (Proc.devRef .tc r) :=
  StableHlo.after_of_writes_sub _ W wr1_sub hr
/-- No operation of the stretch allocates a buffer. -/
theorem hostOps1_fresh : (hostOps1 : List (HloOp τ sig (Elt F))).Forall fun op => op.fresh = ∅ := by
  simp only [List.Forall]; repeat' constructor

/-- The references host stretch 2 writes, in order. -/
abbrev wr2 : List (Ref sig .tc) := [main_cst_25, main_v128, main_v129, main_cst_26, main_v130, main_v131, main_v132, main_v133, main_v134, main_cst_27, main_v135, main_v136, main_v137, main_v138, main_v139, main_v140, main_v141, main_v142, main_v143]
set_option maxHeartbeats 40000000 in
theorem wr2_sub : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
/-- A reference the stretch does not write keeps its contents through it. -/
theorem keep2 (W : Valuation τ sig (Elt F)) (r : Ref sig .tc) (hr : r ∉ wr2) :
    StableHlo.after (hostOps2 : List (HloOp τ sig (Elt F))) W (Proc.devRef .tc r) = W (Proc.devRef .tc r) :=
  StableHlo.after_of_writes_sub _ W wr2_sub hr
/-- No operation of the stretch allocates a buffer. -/
theorem hostOps2_fresh : (hostOps2 : List (HloOp τ sig (Elt F))).Forall fun op => op.fresh = ∅ := by
  simp only [List.Forall]; repeat' constructor

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := keep2 _ main_arg0 (by decide)
    _ = W3 m ρ c (Proc.devRef .tc main_arg0) := W4_of_ne m ρ c main_arg0 (by decide)
    _ = W2 m ρ c (Proc.devRef .tc main_arg0) := keep1 _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep0 _ main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 1).trans (((dat2 (V5 m ρ) c).arrAt_in 1 rfl _).trans (A_eq2 (V5 m ρ) c 1))
    _ = W4 m ρ c (Proc.devRef .tc main_arg1) := keep2 _ main_arg1 (by decide)
    _ = W3 m ρ c (Proc.devRef .tc main_arg1) := W4_of_ne m ρ c main_arg1 (by decide)
    _ = W2 m ρ c (Proc.devRef .tc main_arg1) := keep1 _ main_arg1 (by decide)
    _ = W1 m ρ c (Proc.devRef .tc main_arg1) := W2_of_ne m ρ c main_arg1 (by decide)
    _ = W0 m ρ c (Proc.devRef .tc main_arg1) := keep0 _ main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keep2 _ main_arg2 (by decide)
    _ = W3 m ρ c (Proc.devRef .tc main_arg2) := W4_of_ne m ρ c main_arg2 (by decide)
    _ = W2 m ρ c (Proc.devRef .tc main_arg2) := keep1 _ main_arg2 (by decide)
    _ = W1 m ρ c (Proc.devRef .tc main_arg2) := W2_of_ne m ρ c main_arg2 (by decide)
    _ = W0 m ρ c (Proc.devRef .tc main_arg2) := keep0 _ main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keep2 _ main_arg3 (by decide)
    _ = W3 m ρ c (Proc.devRef .tc main_arg3) := W4_of_ne m ρ c main_arg3 (by decide)
    _ = W2 m ρ c (Proc.devRef .tc main_arg3) := keep1 _ main_arg3 (by decide)
    _ = W1 m ρ c (Proc.devRef .tc main_arg3) := W2_of_ne m ρ c main_arg3 (by decide)
    _ = W0 m ρ c (Proc.devRef .tc main_arg3) := keep0 _ main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keep2 _ main_arg4 (by decide)
    _ = W3 m ρ c (Proc.devRef .tc main_arg4) := W4_of_ne m ρ c main_arg4 (by decide)
    _ = W2 m ρ c (Proc.devRef .tc main_arg4) := keep1 _ main_arg4 (by decide)
    _ = W1 m ρ c (Proc.devRef .tc main_arg4) := W2_of_ne m ρ c main_arg4 (by decide)
    _ = W0 m ρ c (Proc.devRef .tc main_arg4) := keep0 _ main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keep2 _ main_arg5 (by decide)
    _ = W3 m ρ c (Proc.devRef .tc main_arg5) := W4_of_ne m ρ c main_arg5 (by decide)
    _ = W2 m ρ c (Proc.devRef .tc main_arg5) := keep1 _ main_arg5 (by decide)
    _ = W1 m ρ c (Proc.devRef .tc main_arg5) := W2_of_ne m ρ c main_arg5 (by decide)
    _ = W0 m ρ c (Proc.devRef .tc main_arg5) := keep0 _ main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keep2 _ main_arg6 (by decide)
    _ = W3 m ρ c (Proc.devRef .tc main_arg6) := W4_of_ne m ρ c main_arg6 (by decide)
    _ = W2 m ρ c (Proc.devRef .tc main_arg6) := keep1 _ main_arg6 (by decide)
    _ = W1 m ρ c (Proc.devRef .tc main_arg6) := W2_of_ne m ρ c main_arg6 (by decide)
    _ = W0 m ρ c (Proc.devRef .tc main_arg6) := keep0 _ main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := keep2 _ main_arg7 (by decide)
    _ = W3 m ρ c (Proc.devRef .tc main_arg7) := W4_of_ne m ρ c main_arg7 (by decide)
    _ = W2 m ρ c (Proc.devRef .tc main_arg7) := keep1 _ main_arg7 (by decide)
    _ = W1 m ρ c (Proc.devRef .tc main_arg7) := W2_of_ne m ρ c main_arg7 (by decide)
    _ = W0 m ρ c (Proc.devRef .tc main_arg7) := keep0 _ main_arg7 (by decide)
    _ = m ((c : Thread nD τ).loc main_arg7) := rfl

/-! ## The proof data family and the thread state -/

/-- No call has a prefetched table. -/
abbrev adm : (p : Fin 3) → (pcfgs (F := F) p).Adm := fun p => (cfgs p).toPCfg_adm
/-- Every call's proof data, each at the contents of the boundary it is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 as a segment over the thread state: entered from every unscoped buffer at `W1`, left at `W2`. Its
    arrays are split out of the unscoped buffers at entry and put back at their final contents at exit; the generator
    register goes into the call's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment over the thread state: entered from every unscoped buffer at `W3`, left at `W4`. Its
    arrays are split out of the unscoped buffers at entry and put back at their final contents at exit; the generator
    register goes into the call's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment over the thread state: entered from every unscoped buffer at `W5`, left at `W6`. Its
    arrays are split out of the unscoped buffers at entry and put back at their final contents at exit; the generator
    register goes into the call's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
set_option maxHeartbeats 40000000 in
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and in every final state every unscoped buffer of every core holds the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME at any float instance: the program runs to the end and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩) (run_main m ρ)

end Cert.Kernel.Hand

end
-- ==== Proof.KI.Region0.lean ====
/-
  The first pallas_call: one row block of the dense product per grid point.
  At point t the body reads the block of 5000 rows of the left operand and the whole right operand
  (128 by 512), multiplies them into a zero accumulator and stores the 5000 by 512 product over its
  output block. Stated at a parameter V, the contents of the core's buffers when the call is entered:
  what each window's staging buffer holds after the body (an input its block, the output the product
  of the two input blocks), the body's triple, and the obligation the launch theorem asks for at
  every grid point. Everything is generic in the float instance.
-/
import proofs.«119201_j83674552861285_2_alg».proof.Proof.Gen.KernelIdeal.Launch
import proofs.«119201_j83674552861285_2_alg».proof.Proof.Gen.KernelIdeal.Skeleton
import proofs.«119201_j83674552861285_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body loads and stores through. -/
abbrev rL0 : Rect S5000x128 := Rect.unit (s := S5000x128) ![0, 0] S5000x128.size inb_S5000x128_S5000x128_0_0
abbrev rR0 : Rect S128x512 := Rect.unit (s := S128x512) ![0, 0] S128x512.size inb_S128x512_S128x512_0_0
abbrev rO0 : Rect S5000x512 := Rect.unit (s := S5000x512) ![0, 0] S5000x512.size inb_S5000x512_S5000x512_0_0

/-- The output window's staging buffer after the body: its one store, the product of the two loaded blocks. -/
def out0_2 (x0 : Vec F S5000x128 .f32) (x1 : Vec F S128x512 .f32) : Vec F S5000x512 .f32 :=
  View.canon [⟨rO0, k0_pay1 (View.ld x0 rL0) (View.ld x1 rR0)⟩]

/-- The one store covers the whole buffer. -/
theorem cover0_2 (p0 : Vec F S5000x512 .f32) (y : S5000x512.Idx) :
    ∃ pc ∈ ([⟨rO0, p0⟩] : List (View.Piece (Elt F) S5000x512 .f32)), y ∈ pc.1.set :=
  View.cover_of_tiled [⟨rO0, p0⟩] S5000x512.size (by rfl) y

set_option maxHeartbeats 1000000 in
/-- The body on whole staging memrefs, the two inputs at known contents and the output at anything, runs to the
    continuation with the inputs as they were and the output holding the product. -/
theorem sound_kernel0 (c : Dev nD) (E : Set ℕ) (i : grid0.Coords) (arg1 : Memref sig .tc .vmem S5000x128 .f32) (harg1 : arg1.IsWhole)
    (arg2 : Memref sig .tc .vmem S128x512 .f32) (harg2 : arg2.IsWhole) (arg3 : Memref sig .tc .vmem S5000x512 .f32) (harg3 : arg3.IsWhole)
    (x0 : Vec F S5000x128 .f32) (x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first call on core `c`: the arrays as the call finds them; after the body at point `t`
    each input's buffer at its block, the output's at the product of the two blocks; the scoped rest and the
    generator register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  The second pallas_call: the column sums of y and of y*y, accumulated over twenty row blocks.
  The two output windows (1 by 64 each) keep one block index over the whole grid, so their staging
  buffers stay resident and are written back once, after the last point. At the first point the body
  stores zeros into both and then adds the block's column sums; at every later point it finds what the
  point before left and adds the block's column sums to it. What the two buffers hold after point t is
  therefore defined by recursion on t, from the stores each of the two cases of the body makes. Stated at
  a parameter V, the contents of the core's buffers when the call is entered. Generic in the float
  instance.
-/
import proofs.«119201_j83674552861285_2_alg».proof.Proof.Gen.KernelIdeal.Launch
import proofs.«119201_j83674552861285_2_alg».proof.Proof.Gen.KernelIdeal.Skeleton
import proofs.«119201_j83674552861285_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The branch condition of the body: the first grid coordinate is zero. It holds at the first point only. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val % 20 = 0 :=
  (by decide +kernel : ∀ t : Fin grid1.N, cond1 (grid1.coords t) ↔ t.val % 20 = 0)

/-- One staging buffer of each output window, through which its contents are stated (the choice does not matter). -/
abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
/-- Each window's current staging memref at point `t`, as the pipeline passes it, and its wholeness. -/
abbrev ms1_0 (t : Fin cfg1.N) : Memref sig .tc .vmem S20000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)

set_option maxHeartbeats 2000000 in
/-- The stores the body makes into each output's staging memref at the FIRST point (the branch taken), last first,
    with the proof that on whole staging memrefs — the input at its contents, the outputs at anything — the body runs
    to the continuation holding the input as it was and each output's buffer with those stores written. -/
noncomputable def kernelRun1_A (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) :
    (L1 : List (View.Piece (Elt F) S1x64 .f32)) ×' (L2 : List (View.Piece (Elt F) S1x64 .f32)) ×'
      (∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__bn_stats_kernel i arg1 harg1 arg2 harg2 arg3 harg3) K) := by
  refine ⟨?_, ?_, fun E K => ?run⟩
  case run =>
    simp only [cc1__bn_stats_kernel_eq_skeleton]; unfold cc1__bn_stats_kernel_skel
    unfold owns
    iintro ⟨⟨%f0, %hf0, H0⟩, ⟨%d1, %f1, -, H1⟩, ⟨%d2, %f2, -, H2⟩, Hk⟩
    obtain rfl := harg1.eq_unread hf0
    sl_exec (disch := first | exact hc0)
    sl_step
    iapply Hk
    isplitl [H0]
    · iexists _; isplitr; · ipureintro; exact harg1.read_unread _
      iexact H0
    isplitl [H1]
    · iexists _; iexact H1
    iexists _; iexact H2

set_option maxHeartbeats 2000000 in
/-- The same at a LATER point (the branch not taken): the two outputs at their running contents `xo1`, `xo2`. -/
noncomputable def kernelRun1_B (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32)
    (xo1 xo2 : Vec F S1x64 .f32) :
    (L1 : List (View.Piece (Elt F) S1x64 .f32)) ×' (L2 : List (View.Piece (Elt F) S1x64 .f32)) ×'
      (∀ (E : Set ℕ) (K : PUnit → sProp 𝕄),
        iprop(owns (c : Thread nD τ) arg1 fullShare x0 ∗ owns (c : Thread nD τ) arg2 fullShare xo1 ∗ owns (c : Thread nD τ) arg3 fullShare xo2
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f L2)) -∗ K ⟨⟩))
          ⊢ wp frame (wpE (defs₀ (F := F)) Variants.none c none) E (cc1__bn_stats_kernel i arg1 harg1 arg2 harg2 arg3 harg3) K) := by
  refine ⟨?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; iexact H1
    iexists _; iexact H2

/-- In either case the stores into each output tile its block, so they cover it. -/
theorem cover1_A_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) (y : S1x64.Idx) :
    ∃ pc ∈ (kernelRun1_A c i arg1 harg1 arg2 harg2 arg3 harg3 hc0 x0).1, y ∈ pc.1.set :=
  View.cover_of_tiledL (kernelRun1_A c i arg1 harg1 arg2 harg2 arg3 harg3 hc0 x0).1 S1x64.size (by sl_kernel_rfl) y
theorem cover1_A_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) (y : S1x64.Idx) :
    ∃ pc ∈ (kernelRun1_A c i arg1 harg1 arg2 harg2 arg3 harg3 hc0 x0).2.1, y ∈ pc.1.set :=
  View.cover_of_tiledL (kernelRun1_A c i arg1 harg1 arg2 harg2 arg3 harg3 hc0 x0).2.1 S1x64.size (by sl_kernel_rfl) y
theorem cover1_B_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32) (xo1 xo2 : Vec F S1x64 .f32) (y : S1x64.Idx) :
    ∃ pc ∈ (kernelRun1_B c i arg1 harg1 arg2 harg2 arg3 harg3 hc0 x0 xo1 xo2).1, y ∈ pc.1.set :=
  View.cover_of_tiledL (kernelRun1_B c i arg1 harg1 arg2 harg2 arg3 harg3 hc0 x0 xo1 xo2).1 S1x64.size (by sl_kernel_rfl) y
theorem cover1_B_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32) (xo1 xo2 : Vec F S1x64 .f32) (y : S1x64.Idx) :
    ∃ pc ∈ (kernelRun1_B c i arg1 harg1 arg2 harg2 arg3 harg3 hc0 x0 xo1 xo2).2.1, y ∈ pc.1.set :=
  View.cover_of_tiledL (kernelRun1_B c i arg1 harg1 arg2 harg2 arg3 harg3 hc0 x0 xo1 xo2).2.1 S1x64.size (by sl_kernel_rfl) y

/-- What each case leaves in each output's staging buffer: its stores read back. -/
def out1_A_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) : Vec F S1x64 .f32 :=
  VO1_1.read (Elt F) (VO1_1.writes (Elt F) VO1_1.junk (kernelRun1_A c i arg1 harg1 arg2 harg2 arg3 harg3 hc0 x0).1)
def out1_A_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : cond1 i) (x0 : Vec F S20000x64 .f32) : Vec F S1x64 .f32 :=
  VO1_2.read (Elt F) (VO1_2.writes (Elt F) VO1_2.junk (kernelRun1_A c i arg1 harg1 arg2 harg2 arg3 harg3 hc0 x0).2.1)
def out1_B_1 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32) (xo1 xo2 : Vec F S1x64 .f32) : Vec F S1x64 .f32 :=
  VO1_1.read (Elt F) (VO1_1.writes (Elt F) VO1_1.junk (kernelRun1_B c i arg1 harg1 arg2 harg2 arg3 harg3 hc0 x0 xo1 xo2).1)
def out1_B_2 (c : Dev nD) (i : grid1.Coords) (arg1 : Memref sig .tc .vmem S20000x64 .f32) (harg1 : arg1.IsWhole) (arg2 : Memref sig .tc .vmem S1x64 .f32) (harg2 : arg2.IsWhole) (arg3 : Memref sig .tc .vmem S1x64 .f32) (harg3 : arg3.IsWhole) (hc0 : ¬cond1 i) (x0 : Vec F S20000x64 .f32) (xo1 xo2 : Vec F S1x64 .f32) : Vec F S1x64 .f32 :=
  VO1_2.read (Elt F) (VO1_2.writes (Elt F) VO1_2.junk (kernelRun1_B c i arg1 harg1 arg2 harg2 arg3 harg3 hc0 x0 xo1 xo2).2.1)

section Region1
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION. What the two outputs' staging buffers hold after the body at position `n`: at the first point
    what the first case leaves; at a later point what the second case leaves over what position `n - 1` left. -/
def outsAt1 (c : Dev nD) : (n : ℕ) → n < cfg1.N → Vec F S1x64 .f32 × Vec F S1x64 .f32
  | 0, hn => (out1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩),
              out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩))
  | n + 1, hn =>
    if h0 : (n + 1) % 20 = 0 then
      (out1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩),
       out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩))
    else
      (out1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩)
          (outsAt1 c n (Nat.lt_of_succ_lt hn)).1 (outsAt1 c n (Nat.lt_of_succ_lt hn)).2,
       out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩)
          (outsAt1 c n (Nat.lt_of_succ_lt hn)).1 (outsAt1 c n (Nat.lt_of_succ_lt hn)).2)

/-- `outsAt1` at the first point. -/
theorem outsAt1_A (c : Dev nD) (t : Fin cfg1.N) (h0 : t.val % 20 = 0) :
    outsAt1 V c t.val t.isLt = (out1_A_1 c (grid1.coords t) (ms1_0 t) (hs1_0 t) (ms1_1 t) (hs1_1 t) (ms1_2 t) (hs1_2 t) ((hcond1 t).mpr h0) (iblk1 V c 0 t),
      out1_A_2 c (grid1.coords t) (ms1_0 t) (hs1_0 t) (ms1_1 t) (hs1_1 t) (ms1_2 t) (hs1_2 t) ((hcond1 t).mpr h0) (iblk1 V c 0 t)) := by
  obtain ⟨n, hn⟩ := t
  cases n with
  | zero => exact rfl
  | succ n => exact (dif_pos h0).trans rfl

/-- `outsAt1` at a later point: over what the point before left. -/
theorem outsAt1_B (c : Dev nD) (t : Fin cfg1.N) (h0 : ¬t.val % 20 = 0) :
    outsAt1 V c t.val t.isLt = (out1_B_1 c (grid1.coords t) (ms1_0 t) (hs1_0 t) (ms1_1 t) (hs1_1 t) (ms1_2 t) (hs1_2 t) (fun h => h0 ((hcond1 t).mp h)) (iblk1 V c 0 t)
        (outsAt1 V c (t.val - 1) (Nat.lt_of_le_of_lt (Nat.sub_le _ _) t.isLt)).1 (outsAt1 V c (t.val - 1) (Nat.lt_of_le_of_lt (Nat.sub_le _ _) t.isLt)).2,
      out1_B_2 c (grid1.coords t) (ms1_0 t) (hs1_0 t) (ms1_1 t) (hs1_1 t) (ms1_2 t) (hs1_2 t) (fun h => h0 ((hcond1 t).mp h)) (iblk1 V c 0 t)
        (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The proof data of the second call on core `c`: the arrays as the call finds them; after the body at point `t`
    the input's buffer at its block, the two outputs' at the running sums. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
/-- At a later point each output's current staging buffer holds what the body left at the point before: the buffer
    was not written back in between and the window is live and uncut. -/
theorem before1_1_B (c : Dev nD) (t : Fin cfg1.N) (h0 : ¬t.val % 20 = 0) (d) :
    (dat1 V c).before 1 t d = (outsAt1 V c (t.val - 1) (Nat.lt_of_le_of_lt (Nat.sub_le _ _) t.isLt)).1 := by
  have hN : t.val < 20 := lt_of_lt_of_eq t.isLt (show cfg1.N = 20 from N_1)
  rw [Dat.before_out_kept _ 1 rfl t (by omega) (Bool.eq_false_iff.mpr fun h => by have := (flush1_1 _).mp h; dsimp only at this; omega)
    (fun _ => rfl) (fun _ _ => rfl)]
  dsimp only [dat1]
theorem before1_2_B (c : Dev nD) (t : Fin cfg1.N) (h0 : ¬t.val % 20 = 0) (d) :
    (dat1 V c).before 2 t d = (outsAt1 V c (t.val - 1) (Nat.lt_of_le_of_lt (Nat.sub_le _ _) t.isLt)).2 := by
  have hN : t.val < 20 := lt_of_lt_of_eq t.isLt (show cfg1.N = 20 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the input's memref holds its block; the point is the first or a later one; at a later one
    each output holds what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  have hN : t.val < 20 := lt_of_lt_of_eq t.isLt (show cfg1.N = 20 from N_1)
  by_cases h0 : t.val % 20 = 0
  · rw [outsAt1_A V c t h0]
    dsimp only
    unfold out1_A_1 out1_A_2
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_A_1 c _ _ _ _ _ _ _ _ _)
    · unfold owns; iexists _; isplitr
      swap; · iexact H2
      ipureintro; exact View.read_writes_of_cover _ _ _ _ _ (cover1_A_2 c _ _ _ _ _ _ _ _ _)
  · rw [outsAt1_B V c t h0]
    dsimp only
    simp only [before1_1_B V c t h0, before1_2_B V c t h0]
    unfold out1_B_1 out1_B_2
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) _ _).2.2 Set.univ _)
    isplitl [H0]; · iexact H0
    isplitl [H1]; · iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover1_B_1 c _ _ _ _ _ _ _ _ _ _ _)
    · unfold owns; iexists _; isplitr
      swap; · iexact H2
      ipureintro; exact View.read_writes_of_cover _ _ _ _ _ (cover1_B_2 c _ _ _ _ _ _ _ _ _ _ _)

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Region2.lean ====
/-
  The third pallas_call: one block of 10000 output rows per grid point.
  At point t the body reads the block of the scattered array y and the block of the skip features, the
  scale and shift rows (1 by 64) and the two 64 by 64 halves of the fusing matrix, forms
  max(y * scale + shift, 0), multiplies it by the first half, multiplies the skip block by the second
  half, adds the two products and stores the sum over its output block. Stated at a parameter V, the
  contents of the core's buffers when the call is entered. Generic in the float instance.
-/
import proofs.«119201_j83674552861285_2_alg».proof.Proof.Gen.KernelIdeal.Launch
import proofs.«119201_j83674552861285_2_alg».proof.Proof.Gen.KernelIdeal.Skeleton
import proofs.«119201_j83674552861285_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S10000x64 := Rect.unit (s := S10000x64) ![0, 0] S10000x64.size inb_S10000x64_S10000x64_0_0
abbrev rB2 : Rect S1x64 := Rect.unit (s := S1x64) ![0, 0] S1x64.size inb_S1x64_S1x64_0_0
abbrev rC2 : Rect S64x64 := Rect.unit (s := S64x64) ![0, 0] S64x64.size inb_S64x64_S64x64_0_0

/-- The output window's staging buffer after the body: its one store, the fused value of the six loaded blocks. -/
def out2_6 (x0 : Vec F S10000x64 .f32) (x1 : Vec F S10000x64 .f32) (x2 : Vec F S1x64 .f32) (x3 : Vec F S1x64 .f32) (x4 : Vec F S64x64 .f32) (x5 : Vec F S64x64 .f32) : Vec F S10000x64 .f32 :=
  View.canon [⟨rA2, k2_pay1 (View.ld x0 rA2) (View.ld x2 rB2) (View.ld x3 rB2) (View.ld x4 rC2) (View.ld x1 rA2) (View.ld x5 rC2)⟩]

/-- The one store covers the whole buffer. -/
theorem cover2_6 (p0 : Vec F S10000x64 .f32) (y : S10000x64.Idx) :
    ∃ pc ∈ ([⟨rA2, p0⟩] : List (View.Piece (Elt F) S10000x64 .f32)), y ∈ pc.1.set :=
  View.cover_of_tiled [⟨rA2, p0⟩] S10000x64.size (by rfl) y

set_option maxHeartbeats 2000000 in
/-- The body on whole staging memrefs, the six inputs at known contents and the output at anything, runs to the
    continuation with the inputs as they were and the output holding the fused value. -/
theorem sound_kernel2 (c : Dev nD) (E : Set ℕ) (i : grid2.Coords) (arg1 : Memref sig .tc .vmem S10000x64 .f32) (harg1 : arg1.IsWhole) (arg2 : Memref sig .tc .vmem S10000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S10000x64 .f32) (harg7 : arg7.IsWhole)
    (x0 : Vec F S10000x64 .f32) (x1 : Vec F S10000x64 .f32) (x2 : Vec F S1x64 .f32) (x3 : Vec F S1x64 .f32) (x4 : Vec F S64x64 .f32) (x5 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__fuse_kernel i arg1 harg1 arg2 harg2 arg3 harg3 arg4 harg4 arg5 harg5 arg6 harg6 arg7 harg7) K := by
  simp only [cc2__fuse_kernel_eq_skeleton]; unfold cc2__fuse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The proof data of the third call on core `c`: the arrays as the call finds them; after the body at point `t`
    each input's buffer at its block, the output's at the fused value of the six blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Run.lean ====
/-
  The run of the whole program: two host operations, the first pallas_call, 151 host operations, the
  second pallas_call, 19 host operations, the third pallas_call.
  The contents of the core's buffers at each of the seven boundaries are a fold from the launch memory:
  a host stretch applies its operations; a pallas_call leaves its input arrays as entered and each output
  array with its blocks written back. Each pallas_call's proof data is taken at the contents of the
  boundary it is entered from. The launch theorem for a program of several regions then gives: every
  weakly fair execution terminates without a fault, and at the end every unscoped buffer holds the last
  boundary's contents. No host operation and no output window writes an argument array, so each argument
  reads back through the fold to its launch contents. Generic in the float instance.
-/
import proofs.«119201_j83674552861285_2_alg».proof.Proof.KI.Region0
import proofs.«119201_j83674552861285_2_alg».proof.Proof.KI.Region1
import proofs.«119201_j83674552861285_2_alg».proof.Proof.KI.Region2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (where the first call is entered). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At call 0's exit: its arrays at what the pipeline leaves (an input as entered, an output with its write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (where the second call is entered). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At call 1's exit: its arrays at what the pipeline leaves (an input as entered, an output with its write-backs
    folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (where the third call is entered). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At call 2's exit: its arrays at what the pipeline leaves (an input as entered, an output with its write-backs
    folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## What each host stretch writes -/

/-- The references host stretch 0 writes, in order. -/
abbrev wr0 : List (Ref sig .tc) := [main_v0, main_v1]
set_option maxHeartbeats 40000000 in
theorem wr0_sub : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
/-- A reference the stretch does not write keeps its contents through it. -/
theorem keep0 (W : Valuation τ sig (Elt F)) (r : Ref sig .tc) (hr : r ∉ wr0) :
    StableHlo.after (hostOps0 : List (HloOp τ sig (Elt F))) W (Proc.devRef .tc r) = W (Proc.devRef .tc r) :=
  StableHlo.after_of_writes_sub _ W wr0_sub hr
/-- No operation of the stretch allocates a buffer. -/
theorem hostOps0_fresh : (hostOps0 : List (HloOp τ sig (Elt F))).Forall fun op => op.fresh = ∅ := by
  simp only [List.Forall]; repeat' constructor

/-- The references host stretch 1 writes, in order. -/
abbrev wr1 : List (Ref sig .tc) := [main_v3, main_v4, main_v5, main_c, main_v6, main_v7, main_c_0, main_v8, main_v9, main_v10, main_c_1, main_v11, main_v12, main_v13, main_v14, main_v15, main_v16, main_v17, main_v18, main_c_2, main_v19, main_v20, main_c_3, main_v21, main_v22, main_v23, main_c_4, main_v24, main_v25, main_v26, main_v27, main_v28, main_v29, main_v30, main_v31, main_c_5, main_v32, main_v33, main_c_6, main_v34, main_v35, main_v36, main_c_7, main_v37, main_v38, main_v39, main_v40, main_v41, main_v42, main_v43, main_v44, main_c_8, main_v45, main_v46, main_c_9, main_v47, main_v48, main_v49, main_c_10, main_v50, main_v51, main_v52, main_v53, main_v54, main_v55, main_v56, main_v57, main_c_11, main_v58, main_v59, main_c_12, main_v60, main_v61, main_v62, main_c_13, main_v63, main_v64, main_v65, main_v66, main_v67, main_v68, main_v69, main_v70, main_c_14, main_v71, main_v72, main_c_15, main_v73, main_v74, main_v75, main_c_16, main_v76, main_v77, main_v78, main_v79, main_v80, main_v81, main_v82, main_v83, main_c_17, main_v84, main_v85, main_c_18, main_v86, main_v87, main_v88, main_c_19, main_v89, main_v90, main_v91, main_v92, main_v93, main_v94, main_v95, main_v96, main_c_20, main_v97, main_v98, main_c_21, main_v99, main_v100, main_v101, main_c_22, main_v102, main_v103, main_v104, main_v105, main_v106, main_v107, main_v108, main_v109, main_v110, main_v111, main_v112, main_v113, main_v114, main_v115, main_v116, main_cst, main_v117, main_v118, main_v119, main_c_23, main_v120, main_v121, main_c_24, main_v122, main_v123, main_v124, main_v125, main_v126]
set_option maxHeartbeats 40000000 in
theorem wr1_sub : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
/-- A reference the stretch does not write keeps its contents through it. -/
theorem keep1 (W : Valuation τ sig (Elt F)) (r : Ref sig .tc) (hr : r ∉ wr1) :
    StableHlo.after (hostOps1 : List (HloOp τ sig (Elt F))) W (Proc.devRef .tc r) = W (Proc.devRef .tc r) :=
  StableHlo.after_of_writes_sub _ W wr1_sub hr
/-- No operation of the stretch allocates a buffer. -/
theorem hostOps1_fresh : (hostOps1 : List (HloOp τ sig (Elt F))).Forall fun op => op.fresh = ∅ := by
  simp only [List.Forall]; repeat' constructor

/-- The references host stretch 2 writes, in order. -/
abbrev wr2 : List (Ref sig .tc) := [main_cst_25, main_v128, main_v129, main_cst_26, main_v130, main_v131, main_v132, main_v133, main_v134, main_cst_27, main_v135, main_v136, main_v137, main_v138, main_v139, main_v140, main_v141, main_v142, main_v143]
set_option maxHeartbeats 40000000 in
theorem wr2_sub : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
/-- A reference the stretch does not write keeps its contents through it. -/
theorem keep2 (W : Valuation τ sig (Elt F)) (r : Ref sig .tc) (hr : r ∉ wr2) :
    StableHlo.after (hostOps2 : List (HloOp τ sig (Elt F))) W (Proc.devRef .tc r) = W (Proc.devRef .tc r) :=
  StableHlo.after_of_writes_sub _ W wr2_sub hr
/-- No operation of the stretch allocates a buffer. -/
theorem hostOps2_fresh : (hostOps2 : List (HloOp τ sig (Elt F))).Forall fun op => op.fresh = ∅ := by
  simp only [List.Forall]; repeat' constructor

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := keep2 _ main_arg0 (by decide)
    _ = W3 m ρ c (Proc.devRef .tc main_arg0) := W4_of_ne m ρ c main_arg0 (by decide)
    _ = W2 m ρ c (Proc.devRef .tc main_arg0) := keep1 _ main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep0 _ main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := (W6_arr m ρ c 1).trans (((dat2 (V5 m ρ) c).arrAt_in 1 rfl _).trans (A_eq2 (V5 m ρ) c 1))
    _ = W4 m ρ c (Proc.devRef .tc main_arg1) := keep2 _ main_arg1 (by decide)
    _ = W3 m ρ c (Proc.devRef .tc main_arg1) := W4_of_ne m ρ c main_arg1 (by decide)
    _ = W2 m ρ c (Proc.devRef .tc main_arg1) := keep1 _ main_arg1 (by decide)
    _ = W1 m ρ c (Proc.devRef .tc main_arg1) := W2_of_ne m ρ c main_arg1 (by decide)
    _ = W0 m ρ c (Proc.devRef .tc main_arg1) := keep0 _ main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := keep2 _ main_arg2 (by decide)
    _ = W3 m ρ c (Proc.devRef .tc main_arg2) := W4_of_ne m ρ c main_arg2 (by decide)
    _ = W2 m ρ c (Proc.devRef .tc main_arg2) := keep1 _ main_arg2 (by decide)
    _ = W1 m ρ c (Proc.devRef .tc main_arg2) := W2_of_ne m ρ c main_arg2 (by decide)
    _ = W0 m ρ c (Proc.devRef .tc main_arg2) := keep0 _ main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := keep2 _ main_arg3 (by decide)
    _ = W3 m ρ c (Proc.devRef .tc main_arg3) := W4_of_ne m ρ c main_arg3 (by decide)
    _ = W2 m ρ c (Proc.devRef .tc main_arg3) := keep1 _ main_arg3 (by decide)
    _ = W1 m ρ c (Proc.devRef .tc main_arg3) := W2_of_ne m ρ c main_arg3 (by decide)
    _ = W0 m ρ c (Proc.devRef .tc main_arg3) := keep0 _ main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := keep2 _ main_arg4 (by decide)
    _ = W3 m ρ c (Proc.devRef .tc main_arg4) := W4_of_ne m ρ c main_arg4 (by decide)
    _ = W2 m ρ c (Proc.devRef .tc main_arg4) := keep1 _ main_arg4 (by decide)
    _ = W1 m ρ c (Proc.devRef .tc main_arg4) := W2_of_ne m ρ c main_arg4 (by decide)
    _ = W0 m ρ c (Proc.devRef .tc main_arg4) := keep0 _ main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := keep2 _ main_arg5 (by decide)
    _ = W3 m ρ c (Proc.devRef .tc main_arg5) := W4_of_ne m ρ c main_arg5 (by decide)
    _ = W2 m ρ c (Proc.devRef .tc main_arg5) := keep1 _ main_arg5 (by decide)
    _ = W1 m ρ c (Proc.devRef .tc main_arg5) := W2_of_ne m ρ c main_arg5 (by decide)
    _ = W0 m ρ c (Proc.devRef .tc main_arg5) := keep0 _ main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := keep2 _ main_arg6 (by decide)
    _ = W3 m ρ c (Proc.devRef .tc main_arg6) := W4_of_ne m ρ c main_arg6 (by decide)
    _ = W2 m ρ c (Proc.devRef .tc main_arg6) := keep1 _ main_arg6 (by decide)
    _ = W1 m ρ c (Proc.devRef .tc main_arg6) := W2_of_ne m ρ c main_arg6 (by decide)
    _ = W0 m ρ c (Proc.devRef .tc main_arg6) := keep0 _ main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := keep2 _ main_arg7 (by decide)
    _ = W3 m ρ c (Proc.devRef .tc main_arg7) := W4_of_ne m ρ c main_arg7 (by decide)
    _ = W2 m ρ c (Proc.devRef .tc main_arg7) := keep1 _ main_arg7 (by decide)
    _ = W1 m ρ c (Proc.devRef .tc main_arg7) := W2_of_ne m ρ c main_arg7 (by decide)
    _ = W0 m ρ c (Proc.devRef .tc main_arg7) := keep0 _ main_arg7 (by decide)
    _ = m ((c : Thread nD τ).loc main_arg7) := rfl

/-! ## The proof data family and the thread state -/

/-- No call has a prefetched table. -/
abbrev adm : (p : Fin 3) → (pcfgs (F := F) p).Adm := fun p => (cfgs p).toPCfg_adm
/-- Every call's proof data, each at the contents of the boundary it is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- Call 0 as a segment over the thread state: entered from every unscoped buffer at `W1`, left at `W2`. Its
    arrays are split out of the unscoped buffers at entry and put back at their final contents at exit; the generator
    register goes into the call's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment over the thread state: entered from every unscoped buffer at `W3`, left at `W4`. Its
    arrays are split out of the unscoped buffers at entry and put back at their final contents at exit; the generator
    register goes into the call's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment over the thread state: entered from every unscoped buffer at `W5`, left at `W6`. Its
    arrays are split out of the unscoped buffers at entry and put back at their final contents at exit; the generator
    register goes into the call's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
set_option maxHeartbeats 40000000 in
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and in every final state every unscoped buffer of every core holds the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME at any float instance: the program runs to the end and its eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c)⟩) (run_main m ρ)

end Cert.KernelIdeal.Hand

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.KV.Val0.lean ====
/-
  The first pallas_call's output array, on the extended reals, as one function of the arrays it was entered with.
  Point t multiplies rows 5000 t .. 5000 t + 4999 of the left array by the whole right array and writes the
  product over the same rows of the output; the twenty blocks tile the output, so the output array ends as the
  whole matrix product: entry (r, q) is the sum over k of left (r, k) times right (k, q).
-/
import proofs.«119201_j83674552861285_2_alg».proof.Proof.KI.Region0
import proofs.«119201_j83674552861285_2_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem hz : (![0, 0] : Fin 2 → Nat) = fun _ => 0 := funext fun a => by fin_cases a <;> rfl

/-- The whole product: entry `(r, q)` is `∑ k, a (r, k) · b (k, q)`. -/
def MM (a : S100000x128.Idx → EReal) (b : S128x512.Idx → EReal) : S100000x512.Idx → EReal :=
  fun i => ∑ k : Fin 128, a (ix2 (i 0) k) * b (ix2 k (i 1))

theorem MM_apply (a : S100000x128.Idx → EReal) (b : S128x512.Idx → EReal) (r : Fin 100000) (q : Fin 512) :
    MM a b (ix2 r q) = ∑ k : Fin 128, a (ix2 r k) * b (ix2 k q) := rfl

/-- The body's payload at `(p, q)`: the block product. -/
theorem pay0_apply (x0 : Vec Ideal S5000x128 .f32) (x1 : Vec Ideal S128x512 .f32) (p : Fin 5000) (q : Fin 512) :
    k0_pay1 (F := Ideal) x0 x1 (ix2 p q) = ∑ k : Fin 128, x0 (ix2 p k) * x1 (ix2 k q) := by
  unfold k0_pay1
  rw [shapeCast_self]
  exact Cert.LibMatmulPlain.matmul_plain_zero_apply (M := 5000) (K := 128) (N := 512) none x0 x1 p q

/-- The printed index maps over the grid: the left and the output blocks are row block `t`, the right operand is whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product of the arrays the call was entered with. -/
theorem flushed0_eq (c : Dev nD) (t : Fin cfg0.N) :
    (dat0 V c).flushed 2 t = ((cfg0.win 2).blk t).view.read (Elt Ideal) (MM (V c main_arg0) (V c main_v1)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x512) hz]
  obtain ⟨e0, e1, e2, e3, e4, e5⟩ := idx_facts0 t
  funext j
  obtain ⟨p, q, rfl⟩ : ∃ (p : Fin 5000) (q : Fin 512), j = ix2 p q := ⟨j 0, j 1, eq_ix2 j⟩
  refine (pay0_apply (iblk0 V c 0 t) (iblk0 V c 1 t) p q).trans ?_
  show _ = MM (V c main_arg0) (V c main_v1) (((cfg0.win 2).blk t).view.emb (ix2 p q))
  unfold MM
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 512 + 1 * q.val = win0_2.index t (1 : Fin 2) * 512 + 1 * q.val; omega
  have e0 : iblk0 V c 0 t (ix2 p k) = V c main_arg0 (ix2 ((((cfg0.win 2).blk t).view.emb (ix2 p q)) 0) k) := congrArg (V c main_arg0) h0
  have e1 : iblk0 V c 1 t (ix2 k q) = V c main_v1 (ix2 k ((((cfg0.win 2).blk t).view.emb (ix2 p q)) 1)) := congrArg (V c main_v1) h1
  rw [e0, e1]

/-- An index of the output array is in point `t`'s block iff each coordinate is in the block's range on its axis. -/
theorem mem_blk0 (t : Fin cfg0.N) (i : S100000x512.Idx) :
    i ∈ ((cfg0.win 2).blk t).view.set ↔ ∀ a : Fin 2, win0_2.index t a * S5000x512.size a ≤ (i a).val ∧ (i a).val < win0_2.index t a * S5000x512.size a + S5000x512.size a := by
  show i ∈ ((View.whole main_v2).slice (win0_2.rect t)).set ↔ _
  rw [View.set_slice_whole, Rect.mem_set_unit]
  exact Iff.rfl

/-- Every index of the output array lies in the block of the point its row selects. -/
theorem cover0 (i : S100000x512.Idx) : ∃ t : Fin cfg0.N, (cfg0.win 2).flush t = true ∧ i ∈ ((cfg0.win 2).blk t).view.set := by
  have hi0 : (i 0).val < 100000 := (i 0).isLt
  have hi1 : (i 1).val < 512 := (i 1).isLt
  have hN : cfg0.N = 20 := N_0
  refine ⟨⟨(i 0).val / 5000, by rw [hN]; omega⟩, flush0_2 _, ?_⟩
  rw [mem_blk0]
  obtain ⟨-, -, -, -, e4, e5⟩ := idx_facts0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; dsimp only; omega
  | ⟨1, _⟩ =>
    show win0_2.index _ (1 : Fin 2) * 512 ≤ (i 1).val ∧ (i 1).val < win0_2.index _ (1 : Fin 2) * 512 + 512
    rw [e5]; omega

/-- THE OUTPUT ARRAY after the call: the whole product of the arrays it was entered with. -/
theorem final0 (c : Dev nD) : (dat0 V c).arrAt 2 cfg0.N = MM (V c main_arg0) (V c main_v1) :=
  (dat0 V c).arrAt_eq_of_cover 2 (MM (V c main_arg0) (V c main_v1)) (fun t _ => flushed0_eq V c t) cover0

end Cert.KernelIdeal.HandV

end
-- ==== Proof.KV.HostA.lean ====
/-
  The first and the third host stretch, read on the extended reals.
  The first stretch transposes the weight array [8,128,64] to [128,8,64] and flattens it to [128,512].
  The third stretch takes the two 1 by 64 rows of column sums s1, s2 and forms, column by column,
    mean = s1 / 400000,  var = s2 / 400000 - mean * mean,  scale = gamma * rsqrt (var + eps),
    shift = beta - mean * scale,
  and cuts the fusing matrix [128,64] into its first and last 64 rows.
-/
import proofs.«119201_j83674552861285_2_alg».proof.Proof.KI.Run
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

open Idealize.ShloMosaic.StableHlo
variable (m : (ℓ : Loc nD τ sig) → Buf (Elt Ideal) ℓ) (ρ : Dev nD → PrngReg)

/-- The divisor row and the epsilon row. -/
abbrev bcN : FVec Ideal S1x64 .f32 := broadcastInDim S1x64 ![] bcast_S_S1x64 (constant (F := Ideal) S_ .f32 0x48C35000#32)
abbrev bcE : FVec Ideal S1x64 .f32 := broadcastInDim S1x64 ![] bcast_S_S1x64 (constant (F := Ideal) S_ .f32 0x3727C5AC#32)
/-- The four rows the third stretch computes, as functions of the two sum rows and of gamma, beta. -/
def meanRow (s1 : FVec Ideal S1x64 .f32) : FVec Ideal S1x64 .f32 := Host.divf (F := Ideal) s1 bcN
def varRow (s1 s2 : FVec Ideal S1x64 .f32) : FVec Ideal S1x64 .f32 := subf (Host.divf (F := Ideal) s2 bcN) (mulf (meanRow s1) (meanRow s1))
def scaleRow (s1 s2 : FVec Ideal S1x64 .f32) (g : FVec Ideal S64 .f32) : FVec Ideal S1x64 .f32 :=
  mulf (shapeCast S1x64 g shapeCasts_S64_S1x64) (Host.rsqrt (F := Ideal) (addf (varRow s1 s2) bcE))
def shiftRow (s1 s2 : FVec Ideal S1x64 .f32) (g bt : FVec Ideal S64 .f32) : FVec Ideal S1x64 .f32 :=
  subf (shapeCast S1x64 bt shapeCasts_S64_S1x64) (mulf (meanRow s1) (scaleRow s1 s2 g))

/-- After the first stretch the second operand of the first call is the flattened transposed weight array. -/
theorem W1_v1 (c : Dev nD) : W1 m ρ c (Proc.devRef .tc main_v1)
    = shapeCast S128x512 (transpose S128x8x64 [1, 0, 2] (m ((c : Thread nD τ).loc main_arg2)) transposes_S8x128x64_S128x8x64_1_0_2) shapeCasts_S128x8x64_S128x512 := by
  show StableHlo.after hostOps0 (W0 m ρ c) (Proc.devRef .tc main_v1) = _
  after_results
  rfl

/-- After the third stretch: the scale row, the shift row and the two halves of the fusing matrix. -/
theorem W5_v138 (c : Dev nD) : W5 m ρ c (Proc.devRef .tc main_v138)
    = scaleRow (W4 m ρ c (Proc.devRef .tc main_v127_0)) (W4 m ρ c (Proc.devRef .tc main_v127_1)) (W4 m ρ c (Proc.devRef .tc main_arg3)) := by
  show StableHlo.after hostOps2 (W4 m ρ c) (Proc.devRef .tc main_v138) = _
  after_results
  rfl
set_option maxHeartbeats 2000000 in
theorem W5_v141 (c : Dev nD) : W5 m ρ c (Proc.devRef .tc main_v141)
    = shiftRow (W4 m ρ c (Proc.devRef .tc main_v127_0)) (W4 m ρ c (Proc.devRef .tc main_v127_1)) (W4 m ρ c (Proc.devRef .tc main_arg3)) (W4 m ρ c (Proc.devRef .tc main_arg4)) := by
  show StableHlo.after hostOps2 (W4 m ρ c) (Proc.devRef .tc main_v141) = _
  after_results_simp
  rfl
theorem W5_v142 (c : Dev nD) : W5 m ρ c (Proc.devRef .tc main_v142)
    = extractStridedSlice S64x64 ![0, 0] (W4 m ρ c (Proc.devRef .tc main_arg5)) slices_S128x64_S64x64_0_0 := by
  show StableHlo.after hostOps2 (W4 m ρ c) (Proc.devRef .tc main_v142) = _
  after_results
theorem W5_v143 (c : Dev nD) : W5 m ρ c (Proc.devRef .tc main_v143)
    = extractStridedSlice S64x64 ![64, 0] (W4 m ρ c (Proc.devRef .tc main_arg5)) slices_S128x64_S64x64_64_0 := by
  show StableHlo.after hostOps2 (W4 m ρ c) (Proc.devRef .tc main_v143) = _
  after_results

/-- The rows at a column, as the closed forms over the extended reals. -/
theorem meanRow_apply (s1 : FVec Ideal S1x64 .f32) (j : Fin 64) :
    meanRow s1 (ix2 (0 : Fin 1) j) = Ideal.div (s1 (ix2 (0 : Fin 1) j)) (Ideal.ofBits .f32 0x48C35000#32) := rfl
theorem varRow_apply (s1 s2 : FVec Ideal S1x64 .f32) (j : Fin 64) :
    varRow s1 s2 (ix2 (0 : Fin 1) j) = Ideal.div (s2 (ix2 (0 : Fin 1) j)) (Ideal.ofBits .f32 0x48C35000#32)
      - Ideal.div (s1 (ix2 (0 : Fin 1) j)) (Ideal.ofBits .f32 0x48C35000#32) * Ideal.div (s1 (ix2 (0 : Fin 1) j)) (Ideal.ofBits .f32 0x48C35000#32) := rfl
theorem scaleRow_apply (s1 s2 : FVec Ideal S1x64 .f32) (g : FVec Ideal S64 .f32) (j : Fin 64) :
    scaleRow s1 s2 g (ix2 (0 : Fin 1) j) = g (ix1 j) * Ideal.rsqrt (varRow s1 s2 (ix2 (0 : Fin 1) j) + Ideal.ofBits .f32 0x3727C5AC#32) := by
  unfold scaleRow
  rw [mulf_apply, shapeCast_a_1a_apply]
  rfl
theorem shiftRow_apply (s1 s2 : FVec Ideal S1x64 .f32) (g bt : FVec Ideal S64 .f32) (j : Fin 64) :
    shiftRow s1 s2 g bt (ix2 (0 : Fin 1) j) = bt (ix1 j) - meanRow s1 (ix2 (0 : Fin 1) j) * scaleRow s1 s2 g (ix2 (0 : Fin 1) j) := by
  unfold shiftRow
  rw [subf_apply, shapeCast_a_1a_apply]
  rfl

end Cert.KernelIdeal.HandV

end
-- ==== Proof.LibWrapIndex.lean ====
/-
  Index words as numpy reads them. An index array may hold negative entries; before a gather or a scatter the
  lowering adds the axis extent to every negative word (a 32-bit signed comparison with zero, an addition, a
  select) and leaves the others alone. This file names that map on one word, so that the two sides of an
  equivalence proof state the row an index word selects by the same term.
-/
import Mathlib.Data.BitVec

namespace Cert.LibWrapIndex

/-- The word an index word `w` stands for on an axis of extent `n`: `w + n` when `w` is negative as a signed
    32-bit integer, `w` itself otherwise. -/
def wrapWord (n w : BitVec 32) : BitVec 32 := if w.slt 0#32 then w + n else w

theorem wrapWord_neg (n w : BitVec 32) (h : w.slt 0#32 = true) : wrapWord n w = w + n := by
  unfold wrapWord; rw [if_pos h]

theorem wrapWord_nonneg (n w : BitVec 32) (h : w.slt 0#32 = false) : wrapWord n w = w := by
  unfold wrapWord; rw [if_neg (by simp [h])]

end Cert.LibWrapIndex
-- ==== Proof.LibRowGather.lean ====
/-
  A gather of whole rows of a matrix, read at an index written by coordinates.

  `x[idx]` for a matrix `x : [N, C]` and a column `idx : [E, 1]` of row numbers is `stablehlo.gather` with
  offset_dims `[1]`, collapsed_slice_dims `[0]`, start_index_map `[0]`, index_vector_dim `1` and slice_sizes
  `[1, C]`. Its element `(e, q)` is `x` at row `idx[e, 0]` — read as a signed integer and clamped into
  `[0, N − 1]`, as the gather clamps every start index so that its slice fits — and column `q`.
-/
import Idealize.ShloMosaic.Lib.ValueIdx

noncomputable section

open scoped BigOperators

namespace Cert.LibRowGather

open Idealize.ShloMosaic Idealize.ShloMosaic.ValueIdx

/-- The dimension numbers of a row gather: operand `[N, C]`, start indices `[E, 1]`, result `[E, C]`. Axis 0 of the
    operand is collapsed (a slice is one row) and is the one axis the start index names; axis 1 of the result is the
    offset axis and runs over the whole row. Their conditions `wf` are decided on a program's literal sizes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index selects: the word read as a signed integer and clamped into `[0, N − 1]` (a negative
    index reads row `0`, one at or above `N` reads row `N − 1`). -/
def row (N : Nat) (hN : 0 < N) {w : Nat} (b : BitVec w) : Fin N := ⟨min b.toInt.toNat (N - 1), by omega⟩

/-- The selected row as a natural number. -/
theorem row_val (N : Nat) (hN : 0 < N) {w : Nat} (b : BitVec w) : (row N hN b).val = min b.toInt.toNat (N - 1) := rfl

/-- THE ROW GATHER READ AT `(e, q)`: the operand at the row that start index `idx[e, 0]` selects, column `q`.
    On operand axis 0 the index is the clamped start alone (no batching axis; a collapsed axis has offset `0`); on
    operand axis 1 the start is `0` (the start index does not name that axis) and the offset is the result's
    coordinate `q` on its one offset axis. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q) = x (ix2 (row N hN (idx (ix2 e (0 : Fin 1)))) q) := by
  unfold Host.gather
  congr 1
  funext a
  refine Fin.ext ?_
  match a with
  | ⟨0, _⟩ =>
    -- axis 0: the clamped start, no batching coordinate, no offset
    show (rowDims N E C wf).start (ix2 e q) idx 0 + (rowDims N E C wf).batchCoord (ix2 e q) 0
      + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    -- the start index of result index (e, q) is read at (e, 0)
    have hsi : (rowDims N E C wf).siIdx (ix2 e q) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0, no batching coordinate, offset the result's second coordinate
    show (rowDims N E C wf).start (ix2 e q) idx 1 + (rowDims N E C wf).batchCoord (ix2 e q) 1
      + (rowDims N E C wf).offCoord (ix2 e q) 1 = _
    have h1 : (1 : Fin 2) ∉ (rowDims N E C wf).startIndexMap := by
      intro h; exact absurd (Fin.val_eq_of_eq (List.mem_singleton.mp h)) Nat.one_ne_zero
    have hk : (1 : Fin 2) ∈ (rowDims N E C wf).sKept :=
      (GatherDims.mem_sKept _ _).mpr
        ⟨fun h => absurd (Fin.val_eq_of_eq (List.mem_singleton.mp h)) Nat.one_ne_zero, List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Cert.LibRowGather

end
-- ==== Proof.LibGatherTwo.lean ====
/-
  A gather that picks, for every result row, one row of a rank-3 array by TWO start indices, read at an index
  written by coordinates.

  For an operand `x : [N, K, C]` and start indices `idx : [E, 2]`, `stablehlo.gather` with offset_dims `[1]`,
  collapsed_slice_dims `[0, 1]`, start_index_map `[0, 1]`, index_vector_dim `1` and slice_sizes `[1, 1, C]` has
  the element `(e, q)` equal to `x` at first coordinate `idx[e, 0]`, second coordinate `idx[e, 1]` — each read as a
  signed integer and clamped into its axis, `[0, N − 1]` and `[0, K − 1]`, as the gather clamps every start index so
  that its slice fits — and third coordinate `q`.
-/
import Idealize.ShloMosaic.Lib.ValueIdx
import proofs.«119201_j83674552861285_2_alg».proof.Proof.LibRowGather

noncomputable section

open scoped BigOperators

namespace Cert.LibGatherTwo

open Idealize.ShloMosaic Idealize.ShloMosaic.ValueIdx

/-- The dimension numbers of a gather by two start indices: operand `[N, K, C]`, start indices `[E, 2]`, result
    `[E, C]`. Axes 0 and 1 of the operand are collapsed (a slice is one row of length `C`) and are the two axes the
    start index names, in that order; axis 1 of the result is the offset axis and runs over the whole row. Their
    conditions `wf` are decided on a program's literal sizes. -/
abbrev twoDims (N K E C : Nat)
    (wf : GatherDims.WF ⟨3, ![N, K, C]⟩ ⟨2, ![E, 2]⟩ ⟨2, ![E, C]⟩ [1] [0, 1] [] [0, 1] [] 1 ![1, 1, C]) :
    GatherDims ⟨3, ![N, K, C]⟩ ⟨2, ![E, 2]⟩ ⟨2, ![E, C]⟩ where
  offsetDims := [1]
  collapsedSliceDims := [0, 1]
  operandBatchingDims := []
  startIndicesBatchingDims := []
  startIndexMap := [0, 1]
  indexVectorDim := 1
  sliceSizes := ![1, 1, C]
  wf := wf

/-- THE GATHER BY TWO START INDICES READ AT `(e, q)`: the operand at the first coordinate that `idx[e, 0]` selects,
    the second coordinate that `idx[e, 1]` selects, and third coordinate `q`. On operand axes 0 and 1 the index is
    the clamped start alone (no batching axis; a collapsed axis has offset `0`), component 0 of the start index for
    axis 0 and component 1 for axis 1; on operand axis 2 the start is `0` (the start index does not name that axis)
    and the offset is the result's coordinate `q` on its one offset axis. -/
theorem gatherTwo_apply {α : Type} {N K E C w : Nat} (hN : 0 < N) (hK : 0 < K)
    (wf : GatherDims.WF ⟨3, ![N, K, C]⟩ ⟨2, ![E, 2]⟩ ⟨2, ![E, C]⟩ [1] [0, 1] [] [0, 1] [] 1 ![1, 1, C])
    (x : (⟨3, ![N, K, C]⟩ : Shape).Idx → α) (idx : IVec ⟨2, ![E, 2]⟩ w) (e : Fin E) (q : Fin C) :
    Host.gather (twoDims N K E C wf) x idx (ix2 e q)
      = x (ix3 (Cert.LibRowGather.row N hN (idx (ix2 e (0 : Fin 2))))
          (Cert.LibRowGather.row K hK (idx (ix2 e (1 : Fin 2)))) q) := by
  unfold Host.gather
  congr 1
  funext a
  refine Fin.ext ?_
  match a with
  | ⟨0, _⟩ =>
    -- axis 0: the clamped first component of the start index, no batching coordinate, no offset
    show (twoDims N K E C wf).start (ix2 e q) idx 0 + (twoDims N K E C wf).batchCoord (ix2 e q) 0
      + (twoDims N K E C wf).offCoord (ix2 e q) 0 = _
    have hm : (0 : Fin 3) ∈ (twoDims N K E C wf).startIndexMap := List.mem_cons.mpr (Or.inl rfl)
    rw [GatherDims.batchCoord_eq_zero _ _ _ List.not_mem_nil,
      GatherDims.offCoord_eq_zero _ _ _ (fun h => ((GatherDims.mem_sKept _ _).mp h).1 (List.mem_cons.mpr (Or.inl rfl)))]
    simp only [Nat.add_zero]
    unfold GatherDims.start
    rw [dif_pos hm]
    -- component 0 of the start index of result index (e, q) is read at (e, 0)
    have hsi : (twoDims N K E C wf).siIdx (ix2 e q) ⟨List.idxOf (0 : Fin 3) (twoDims N K E C wf).startIndexMap,
        List.idxOf_lt_length_iff.2 hm⟩ = ix2 e (0 : Fin 2) := by
      funext b; refine Fin.ext ?_
      match b with
      | ⟨0, _⟩ => rfl
      | ⟨1, _⟩ => rfl
    rw [hsi]
    rfl
  | ⟨1, _⟩ =>
    -- axis 1: the clamped second component of the start index, no batching coordinate, no offset
    show (twoDims N K E C wf).start (ix2 e q) idx 1 + (twoDims N K E C wf).batchCoord (ix2 e q) 1
      + (twoDims N K E C wf).offCoord (ix2 e q) 1 = _
    have hm : (1 : Fin 3) ∈ (twoDims N K E C wf).startIndexMap :=
      List.mem_cons.mpr (Or.inr (List.mem_singleton.mpr rfl))
    rw [GatherDims.batchCoord_eq_zero _ _ _ List.not_mem_nil,
      GatherDims.offCoord_eq_zero _ _ _ (fun h => ((GatherDims.mem_sKept _ _).mp h).1
        (List.mem_cons.mpr (Or.inr (List.mem_singleton.mpr rfl))))]
    simp only [Nat.add_zero]
    unfold GatherDims.start
    rw [dif_pos hm]
    -- component 1 of the start index of result index (e, q) is read at (e, 1)
    have hsi : (twoDims N K E C wf).siIdx (ix2 e q) ⟨List.idxOf (1 : Fin 3) (twoDims N K E C wf).startIndexMap,
        List.idxOf_lt_length_iff.2 hm⟩ = ix2 e (1 : Fin 2) := by
      funext b; refine Fin.ext ?_
      match b with
      | ⟨0, _⟩ => rfl
      | ⟨1, _⟩ => rfl
    rw [hsi]
    rfl
  | ⟨2, _⟩ =>
    -- axis 2: start 0, no batching coordinate, offset the result's second coordinate
    show (twoDims N K E C wf).start (ix2 e q) idx 2 + (twoDims N K E C wf).batchCoord (ix2 e q) 2
      + (twoDims N K E C wf).offCoord (ix2 e q) 2 = _
    have h2 : (2 : Fin 3) ∉ (twoDims N K E C wf).startIndexMap := by
      intro h
      rcases List.mem_cons.mp h with h | h
      · exact absurd (Fin.val_eq_of_eq h) (show (2 : Nat) ≠ 0 by omega)
      · exact absurd (Fin.val_eq_of_eq (List.mem_singleton.mp h)) (show (2 : Nat) ≠ 1 by omega)
    have hc : (2 : Fin 3) ∉ (twoDims N K E C wf).collapsedSliceDims := by
      intro h
      rcases List.mem_cons.mp h with h | h
      · exact absurd (Fin.val_eq_of_eq h) (show (2 : Nat) ≠ 0 by omega)
      · exact absurd (Fin.val_eq_of_eq (List.mem_singleton.mp h)) (show (2 : Nat) ≠ 1 by omega)
    have hk : (2 : Fin 3) ∈ (twoDims N K E C wf).sKept :=
      (GatherDims.mem_sKept _ _).mpr ⟨hc, List.not_mem_nil⟩
    rw [GatherDims.batchCoord_eq_zero _ _ _ List.not_mem_nil]
    unfold GatherDims.start GatherDims.offCoord
    rw [dif_neg h2, dif_pos hk]
    simp only [Nat.add_zero, Nat.zero_add]
    rfl

end Cert.LibGatherTwo

end
-- ==== Proof.GatherStage.lean ====
/-
  The gather stage of the kernel, read at an index.

  The kernel multiplies the input rows by all eight weight matrices at once, `cf : [100000, 512]` with column
  `k * 64 + o` holding output channel `o` of matrix `k`, views the product as `[100000, 8, 64]`, and then, for each
  `k`, gathers for every position `p` the row `(r, k, ·)` where `r` is the row that the index word `idx[k, p]`
  selects: a negative word stands for the word plus 100000, and the word so wrapped is read as a signed integer and
  clamped into `[0, 99999]`. The eight gathered `[100000, 64]` arrays are stacked into one `[8, 100000, 64]` array.
  This file writes that stage down operation by operation and proves that its element `(k, p, o)` is
  `cf (r, k * 64 + o)`.
-/
import proofs.«119201_j83674552861285_2_alg».proof.KernelIdeal
import Idealize.ShloMosaic.Lib.ValueIdx
import Idealize.ShloMosaic.Lib.ValueLayout
import Idealize.ShloMosaic.Lib.Pipeline.Value
import proofs.«119201_j83674552861285_2_alg».proof.Proof.LibWrapIndex
import proofs.«119201_j83674552861285_2_alg».proof.Proof.LibRowGather
import proofs.«119201_j83674552861285_2_alg».proof.Proof.LibGatherTwo

noncomputable section

open scoped BigOperators

namespace Cert.GatherStage

open Idealize.ShloMosaic Idealize.ShloMosaic.ValueIdx
open Cert.KernelIdeal

variable [Cert.KernelIdeal.Facts]
open Cert.KernelIdeal.Facts₀ Cert.KernelIdeal.Facts

/-! ## The stage, operation by operation -/

/-- One of the eight gathers, with the row of the index array it reads (`kk`) and the word of the constant second
    start index (`kw`) as parameters. Row `kk` of the index array is cut out and flattened to `[100000]`; every
    negative word gets 100000 added (a signed comparison with zero, an addition, a select); the result becomes the
    first column and the constant `kw` the second column of a `[100000, 2]` array of start indices; the gather reads
    `cf` at those two start indices. -/
def gatherWith (kk : Nat) (hs : S8x100000.Slices ![kk, 0] S1x100000) (kw : BitVec 32)
    (cf : FVec Ideal S100000x8x64 .f32) (idx : IVec S8x100000 32) : FVec Ideal S100000x64 .f32 :=
  Host.gather gather_S100000x8x64_S100000x2_S100000x64_1_01_n_n_01_1_1164 cf
    (concatenate S100000x2 1
      [⟨S100000x1, broadcastInDim S100000x1 ![0] bcast_S100000_S100000x1_0
          (select
            (cmpi .slt (shapeCast S100000 (extractStridedSlice S1x100000 ![kk, 0] idx hs) shapeCasts_S1x100000_S100000)
              (broadcastInDim S100000 ![] bcast_S_S100000 (constantI S_ 32 0#32)))
            (addi (shapeCast S100000 (extractStridedSlice S1x100000 ![kk, 0] idx hs) shapeCasts_S1x100000_S100000)
              (broadcastInDim S100000 ![] bcast_S_S100000 (constantI S_ 32 100000#32)))
            (shapeCast S100000 (extractStridedSlice S1x100000 ![kk, 0] idx hs) shapeCasts_S1x100000_S100000))⟩,
       ⟨S100000x1, broadcastInDim S100000x1 ![0] bcast_S100000_S100000x1_0
          (id (broadcastInDim S100000 ![] bcast_S_S100000 (constantI S_ 32 kw)))⟩]
      concatenates_S100000x1_S100000x1_S100000x2_d1)

/-- The gather for weight matrix `k`: row `k` of the index array, second start index the constant `k`. -/
def gatherOne (k : Fin 8) (cf : FVec Ideal S100000x8x64 .f32) (idx : IVec S8x100000 32) :
    FVec Ideal S100000x64 .f32 :=
  match k with
  | ⟨0, _⟩ => gatherWith 0 slices_S8x100000_S1x100000_0_0 0#32 cf idx
  | ⟨1, _⟩ => gatherWith 1 slices_S8x100000_S1x100000_1_0 1#32 cf idx
  | ⟨2, _⟩ => gatherWith 2 slices_S8x100000_S1x100000_2_0 2#32 cf idx
  | ⟨3, _⟩ => gatherWith 3 slices_S8x100000_S1x100000_3_0 3#32 cf idx
  | ⟨4, _⟩ => gatherWith 4 slices_S8x100000_S1x100000_4_0 4#32 cf idx
  | ⟨5, _⟩ => gatherWith 5 slices_S8x100000_S1x100000_5_0 5#32 cf idx
  | ⟨6, _⟩ => gatherWith 6 slices_S8x100000_S1x100000_6_0 6#32 cf idx
  | ⟨7, _⟩ => gatherWith 7 slices_S8x100000_S1x100000_7_0 7#32 cf idx

/-- The whole stage: the product viewed as `[100000, 8, 64]`, the eight gathers, each given a leading axis of
    extent one, stacked along that axis. -/
def gatherStage (cf : FVec Ideal S100000x512 .f32) (idx : IVec S8x100000 32) : FVec Ideal S8x100000x64 .f32 :=
  concatenate S8x100000x64 0
    [⟨S1x100000x64, broadcastInDim S1x100000x64 ![1, 2] bcast_S100000x64_S1x100000x64_1_2 (gatherOne 0 (shapeCast S100000x8x64 cf shapeCasts_S100000x512_S100000x8x64) idx)⟩,
     ⟨S1x100000x64, broadcastInDim S1x100000x64 ![1, 2] bcast_S100000x64_S1x100000x64_1_2 (gatherOne 1 (shapeCast S100000x8x64 cf shapeCasts_S100000x512_S100000x8x64) idx)⟩,
     ⟨S1x100000x64, broadcastInDim S1x100000x64 ![1, 2] bcast_S100000x64_S1x100000x64_1_2 (gatherOne 2 (shapeCast S100000x8x64 cf shapeCasts_S100000x512_S100000x8x64) idx)⟩,
     ⟨S1x100000x64, broadcastInDim S1x100000x64 ![1, 2] bcast_S100000x64_S1x100000x64_1_2 (gatherOne 3 (shapeCast S100000x8x64 cf shapeCasts_S100000x512_S100000x8x64) idx)⟩,
     ⟨S1x100000x64, broadcastInDim S1x100000x64 ![1, 2] bcast_S100000x64_S1x100000x64_1_2 (gatherOne 4 (shapeCast S100000x8x64 cf shapeCasts_S100000x512_S100000x8x64) idx)⟩,
     ⟨S1x100000x64, broadcastInDim S1x100000x64 ![1, 2] bcast_S100000x64_S1x100000x64_1_2 (gatherOne 5 (shapeCast S100000x8x64 cf shapeCasts_S100000x512_S100000x8x64) idx)⟩,
     ⟨S1x100000x64, broadcastInDim S1x100000x64 ![1, 2] bcast_S100000x64_S1x100000x64_1_2 (gatherOne 6 (shapeCast S100000x8x64 cf shapeCasts_S100000x512_S100000x8x64) idx)⟩,
     ⟨S1x100000x64, broadcastInDim S1x100000x64 ![1, 2] bcast_S100000x64_S1x100000x64_1_2 (gatherOne 7 (shapeCast S100000x8x64 cf shapeCasts_S100000x512_S100000x8x64) idx)⟩]
    concatenates_S1x100000x64_S1x100000x64_S1x100000x64_S1x100000x64_S1x100000x64_S1x100000x64_S1x100000x64_S1x100000x64_S8x100000x64_d0

/-! ## The operations of one gather, read at an index -/

/-- Row `kk` of the index array, flattened to `[100000]`, holds at position `p` the word `idx[kk, p]`: the slice
    starts at row `kk`, column 0, and a `[1, 100000]` array and its flattening agree position by position. -/
theorem sliceRow_apply (kk : Nat) (hs : S8x100000.Slices ![kk, 0] S1x100000) (idx : IVec S8x100000 32)
    (k : Fin 8) (hk : k.val = kk) (p : Fin 100000) :
    shapeCast S100000 (extractStridedSlice S1x100000 ![kk, 0] idx hs) shapeCasts_S1x100000_S100000 (ix1 p)
      = idx (ix2 k p) := by
  refine (shapeCast_apply (s := S1x100000) (t := S100000) (extractStridedSlice S1x100000 ![kk, 0] idx hs)
    shapeCasts_S1x100000_S100000 (ix1 p) (ix2 (0 : Fin 1) p) ?_).trans ?_
  · rw [Shape.rowMajor_val_two, Shape.rowMajor_val_one]
    show 0 * 100000 + p.val = p.val
    omega
  · exact extractStridedSlice_apply (s := S8x100000) (t := S1x100000) ![kk, 0] idx hs (ix2 (0 : Fin 1) p) (ix2 k p)
      (fun a => match a with
        | ⟨0, _⟩ => by show k.val = kk + 0; omega
        | ⟨1, _⟩ => by show p.val = 0 + p.val; omega)

/-- On one word, the signed comparison with zero, the addition of 100000 and the select between the sum and the word
    are the wrap of a negative index. -/
theorem wrap_word (w : BitVec 32) :
    Scalar.select (IntOp.cmpi .slt w 0#32) (IntOp.addi w 100000#32) w = Cert.LibWrapIndex.wrapWord 100000#32 w := by
  show (if BitVec.ofBool (w.slt 0#32) = 1 then w + 100000#32 else w) = (if w.slt 0#32 then w + 100000#32 else w)
  cases w.slt 0#32 <;> rfl

/-- The wrapped row `kk` of the index array at position `p` is the wrap of the word `idx[kk, p]`. -/
theorem wrapRow_apply (kk : Nat) (hs : S8x100000.Slices ![kk, 0] S1x100000) (idx : IVec S8x100000 32)
    (k : Fin 8) (hk : k.val = kk) (p : Fin 100000) :
    select
        (cmpi .slt (shapeCast S100000 (extractStridedSlice S1x100000 ![kk, 0] idx hs) shapeCasts_S1x100000_S100000)
          (broadcastInDim S100000 ![] bcast_S_S100000 (constantI S_ 32 0#32)))
        (addi (shapeCast S100000 (extractStridedSlice S1x100000 ![kk, 0] idx hs) shapeCasts_S1x100000_S100000)
          (broadcastInDim S100000 ![] bcast_S_S100000 (constantI S_ 32 100000#32)))
        (shapeCast S100000 (extractStridedSlice S1x100000 ![kk, 0] idx hs) shapeCasts_S1x100000_S100000) (ix1 p)
      = Cert.LibWrapIndex.wrapWord 100000#32 (idx (ix2 k p)) := by
  show Scalar.select
      (IntOp.cmpi .slt
        (shapeCast S100000 (extractStridedSlice S1x100000 ![kk, 0] idx hs) shapeCasts_S1x100000_S100000 (ix1 p)) 0#32)
      (IntOp.addi
        (shapeCast S100000 (extractStridedSlice S1x100000 ![kk, 0] idx hs) shapeCasts_S1x100000_S100000 (ix1 p))
        100000#32)
      (shapeCast S100000 (extractStridedSlice S1x100000 ![kk, 0] idx hs) shapeCasts_S1x100000_S100000 (ix1 p)) = _
  rw [sliceRow_apply kk hs idx k hk p, wrap_word]

/-- A `[100000]` array made a `[100000, 1]` column holds at `(p, 0)` the array's entry `p`. -/
theorem col_apply (v : IVec S100000 32) (p : Fin 100000) :
    broadcastInDim S100000x1 ![0] bcast_S100000_S100000x1_0 v (ix2 p (0 : Fin 1)) = v (ix1 p) :=
  broadcastInDim_apply (s := S100000) (t := S100000x1) ![0] bcast_S100000_S100000x1_0 v (ix2 p (0 : Fin 1)) (ix1 p)
    (fun a => match a with | ⟨0, _⟩ => rfl)

/-- Two `[100000, 1]` columns side by side: column 0 of the `[100000, 2]` array is the first. -/
theorem pair_col0 (a b : IVec S100000x1 32) (p : Fin 100000) :
    concatenate S100000x2 1 [⟨S100000x1, a⟩, ⟨S100000x1, b⟩] concatenates_S100000x1_S100000x1_S100000x2_d1
      (ix2 p (0 : Fin 2)) = a (ix2 p (0 : Fin 1)) :=
  concatenate_pair_apply_left (t := S100000x2) (s₁ := S100000x1) (s₂ := S100000x1) 1 a b
    concatenates_S100000x1_S100000x1_S100000x2_d1 (ix2 p (0 : Fin 2)) rfl (ix2 p (0 : Fin 1))
    (fun c => match c with | ⟨0, _⟩ => rfl | ⟨1, _⟩ => rfl)

/-- Two `[100000, 1]` columns side by side: column 1 of the `[100000, 2]` array is the second. -/
theorem pair_col1 (a b : IVec S100000x1 32) (p : Fin 100000) :
    concatenate S100000x2 1 [⟨S100000x1, a⟩, ⟨S100000x1, b⟩] concatenates_S100000x1_S100000x1_S100000x2_d1
      (ix2 p (1 : Fin 2)) = b (ix2 p (0 : Fin 1)) :=
  concatenate_pair_apply_right (t := S100000x2) (s₁ := S100000x1) (s₂ := S100000x1) 1 a b
    concatenates_S100000x1_S100000x1_S100000x2_d1 (ix2 p (1 : Fin 2)) rfl rfl (ix2 p (0 : Fin 1))
    (fun c hc => match c, hc with | ⟨0, _⟩, _ => rfl | ⟨1, _⟩, hc => absurd rfl hc)
    rfl

/-- ONE GATHER READ AT `(p, o)`: the operand at the row that the wrapped word `idx[k, p]` selects (read signed,
    clamped into `[0, 99999]`), second coordinate `k` (the constant word `kw` read signed and clamped into `[0, 7]`),
    third coordinate `o`. -/
theorem gatherWith_apply (kk : Nat) (hs : S8x100000.Slices ![kk, 0] S1x100000) (kw : BitVec 32)
    (cf : FVec Ideal S100000x8x64 .f32) (idx : IVec S8x100000 32)
    (k : Fin 8) (hk : k.val = kk) (hkw : min kw.toInt.toNat 7 = k.val) (p : Fin 100000) (o : Fin 64) :
    gatherWith kk hs kw cf idx (ix2 p o)
      = cf (ix3 (Cert.LibRowGather.row 100000 (by decide) (Cert.LibWrapIndex.wrapWord 100000#32 (idx (ix2 k p)))) k o) := by
  unfold gatherWith
  have e : gather_S100000x8x64_S100000x2_S100000x64_1_01_n_n_01_1_1164
      = Cert.LibGatherTwo.twoDims 100000 8 100000 64 gather_S100000x8x64_S100000x2_S100000x64_1_01_n_n_01_1_1164_wf := rfl
  rw [e, Cert.LibGatherTwo.gatherTwo_apply (by decide) (by decide)]
  rw [pair_col0, pair_col1, col_apply, col_apply, wrapRow_apply kk hs idx k hk p]
  congr 1
  funext a
  match a with
  | ⟨0, _⟩ => rfl
  | ⟨1, _⟩ => exact Fin.ext hkw
  | ⟨2, _⟩ => rfl

/-- The gather for weight matrix `k` read at `(p, o)`. -/
theorem gatherOne_apply (k : Fin 8) (cf : FVec Ideal S100000x8x64 .f32) (idx : IVec S8x100000 32)
    (p : Fin 100000) (o : Fin 64) :
    gatherOne k cf idx (ix2 p o)
      = cf (ix3 (Cert.LibRowGather.row 100000 (by decide) (Cert.LibWrapIndex.wrapWord 100000#32 (idx (ix2 k p)))) k o) := by
  match k with
  | ⟨0, _⟩ => exact gatherWith_apply 0 slices_S8x100000_S1x100000_0_0 0#32 cf idx ⟨0, by omega⟩ rfl (show min (0#32).toInt.toNat 7 = 0 by decide) p o
  | ⟨1, _⟩ => exact gatherWith_apply 1 slices_S8x100000_S1x100000_1_0 1#32 cf idx ⟨1, by omega⟩ rfl (show min (1#32).toInt.toNat 7 = 1 by decide) p o
  | ⟨2, _⟩ => exact gatherWith_apply 2 slices_S8x100000_S1x100000_2_0 2#32 cf idx ⟨2, by omega⟩ rfl (show min (2#32).toInt.toNat 7 = 2 by decide) p o
  | ⟨3, _⟩ => exact gatherWith_apply 3 slices_S8x100000_S1x100000_3_0 3#32 cf idx ⟨3, by omega⟩ rfl (show min (3#32).toInt.toNat 7 = 3 by decide) p o
  | ⟨4, _⟩ => exact gatherWith_apply 4 slices_S8x100000_S1x100000_4_0 4#32 cf idx ⟨4, by omega⟩ rfl (show min (4#32).toInt.toNat 7 = 4 by decide) p o
  | ⟨5, _⟩ => exact gatherWith_apply 5 slices_S8x100000_S1x100000_5_0 5#32 cf idx ⟨5, by omega⟩ rfl (show min (5#32).toInt.toNat 7 = 5 by decide) p o
  | ⟨6, _⟩ => exact gatherWith_apply 6 slices_S8x100000_S1x100000_6_0 6#32 cf idx ⟨6, by omega⟩ rfl (show min (6#32).toInt.toNat 7 = 6 by decide) p o
  | ⟨7, _⟩ => exact gatherWith_apply 7 slices_S8x100000_S1x100000_7_0 7#32 cf idx ⟨7, by omega⟩ rfl (show min (7#32).toInt.toNat 7 = 7 by decide) p o

/-! ## The stack of the eight gathers, read at an index -/

/-- A `[100000, 64]` array given a leading axis of extent one holds at `(0, p, o)` the array's entry `(p, o)`. -/
theorem lead_apply (v : FVec Ideal S100000x64 .f32) (p : Fin 100000) (o : Fin 64) :
    broadcastInDim S1x100000x64 ![1, 2] bcast_S100000x64_S1x100000x64_1_2 v (ix3 (0 : Fin 1) p o) = v (ix2 p o) :=
  broadcastInDim_apply (s := S100000x64) (t := S1x100000x64) ![1, 2] bcast_S100000x64_S1x100000x64_1_2 v
    (ix3 (0 : Fin 1) p o) (ix2 p o) (fun a => match a with | ⟨0, _⟩ => rfl | ⟨1, _⟩ => rfl)

/-- The product viewed as `[100000, 8, 64]` holds at `(r, k, o)` the product's entry `(r, k * 64 + o)`: both are
    position `r * 512 + k * 64 + o` in row-major order. -/
theorem view_apply (cf : FVec Ideal S100000x512 .f32) (r : Fin 100000) (k : Fin 8) (o : Fin 64) :
    shapeCast S100000x8x64 cf shapeCasts_S100000x512_S100000x8x64 (ix3 r k o)
      = cf (ix2 r ⟨k.val * 64 + o.val, by omega⟩) := by
  refine shapeCast_apply (s := S100000x512) (t := S100000x8x64) cf shapeCasts_S100000x512_S100000x8x64 (ix3 r k o)
    (ix2 r ⟨k.val * 64 + o.val, by omega⟩) ?_
  rw [Shape.rowMajor_val_two, Shape.rowMajor_val_three]
  show r.val * 512 + (k.val * 64 + o.val) = (r.val * 8 + k.val) * 64 + o.val
  omega

/-- Piece `n` of the stack: the gather for weight matrix `n` with a leading axis of extent one. -/
def piece (cf : FVec Ideal S100000x512 .f32) (idx : IVec S8x100000 32) (n : Fin 8) : FVec Ideal S1x100000x64 .f32 :=
  broadcastInDim S1x100000x64 ![1, 2] bcast_S100000x64_S1x100000x64_1_2
    (gatherOne n (shapeCast S100000x8x64 cf shapeCasts_S100000x512_S100000x8x64) idx)

/-- The stage is the stack of its eight pieces, in order. -/
theorem gatherStage_eq_stack (cf : FVec Ideal S100000x512 .f32) (idx : IVec S8x100000 32) :
    gatherStage cf idx
      = concatenate S8x100000x64 0
          (List.ofFn fun n : Fin 8 => (⟨S1x100000x64, piece cf idx n⟩ : (s : Shape) × (s.Idx → Ideal .f32)))
          concatenates_S1x100000x64_S1x100000x64_S1x100000x64_S1x100000x64_S1x100000x64_S1x100000x64_S1x100000x64_S1x100000x64_S8x100000x64_d0 := rfl

/-- THE GATHER STAGE READ AT `(k, p, o)`: the product at the row that the wrapped index word `idx[k, p]` selects —
    a negative word stands for the word plus 100000; the result is read as a signed integer and clamped into
    `[0, 99999]` — and column `k * 64 + o`. -/
theorem gatherStage_apply (cf : FVec Ideal S100000x512 .f32) (idx : IVec S8x100000 32)
    (k : Fin 8) (p : Fin 100000) (o : Fin 64) :
    gatherStage cf idx (ix3 k p o)
      = cf (ix2 (Cert.LibRowGather.row 100000 (by decide) (Cert.LibWrapIndex.wrapWord 100000#32 (idx (ix2 k p))))
          ⟨k.val * 64 + o.val, by omega⟩) := by
  rw [gatherStage_eq_stack]
  refine (concatenate_ofFn_unit_apply (t := S8x100000x64) (s₁ := S1x100000x64) 0 (piece cf idx)
    concatenates_S1x100000x64_S1x100000x64_S1x100000x64_S1x100000x64_S1x100000x64_S1x100000x64_S1x100000x64_S1x100000x64_S8x100000x64_d0 rfl rfl (ix3 k p o) k rfl (ix3 (0 : Fin 1) p o)
    (fun b hb => match b, hb with
      | ⟨0, _⟩, hb => absurd rfl hb
      | ⟨1, _⟩, _ => rfl
      | ⟨2, _⟩, _ => rfl)).trans ?_
  unfold piece
  rw [lead_apply, gatherOne_apply, view_apply]

end Cert.GatherStage

end
-- ==== Proof.LibRowScatterAdd.lean ====
/-
  The accumulating float scatter of rows into a matrix, read at an index written by coordinates, at the ideal
  instance, where it is an exact sum.

  A segment sum — `x.at[idx].add(upd)` for a matrix `x : [N, C]`, rows `upd : [E, C]` and a column `idx : [E, 1]` of
  row numbers — is `stablehlo.scatter` with an `add` body, update_window_dims `[1]`, inserted_window_dims `[0]`,
  scatter_dims_to_operand_dims `[0]` and index_vector_dim `1`. Update element `(e, q)` lands at row `idx[e, 0]` —
  read as a signed integer and NOT clamped: a row number that is negative or at least `N` drops the update — and
  column `q`. So element `(v, c)` of the result is `x[v, c]` plus the sum of `upd[e, c]` over the `e` whose row
  number is `v`.
-/
import Idealize.ShloMosaic.Lib.ValueIdx

noncomputable section

open scoped BigOperators

namespace Cert.LibRowScatterAdd

open Idealize.ShloMosaic Idealize.ShloMosaic.ValueIdx

/-- The dimension numbers of a row scatter: operand `[N, C]`, scatter indices `[E, 1]`, updates `[E, C]`. Axis 1 of
    the updates is the window axis and goes to operand axis 1; operand axis 0 is the inserted one, the one axis a
    scatter index names. Their conditions `wf` are decided on a program's literal sizes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis takes a window coordinate exactly when it is not the inserted axis. -/
theorem mem_sKept {N E C : Nat} (wf : ScatterDims.WF ⟨2, ![N, C]⟩ ⟨2, ![E, 1]⟩ ⟨2, ![E, C]⟩ [1] [0] [0] 1) (a : Fin 2) :
    a ∈ (rowDims N E C wf).sKept ↔ a ∉ (rowDims N E C wf).insertedWindowDims := by
  simp [ScatterDims.sKept, Shape.kept, List.mem_filter, List.mem_finRange]

/-- On operand axis 0 the window of update `(e, q)` starts at the row number `idx[e, 0]`, read signed. -/
theorem start_zero {N E C w : Nat} (wf : ScatterDims.WF ⟨2, ![N, C]⟩ ⟨2, ![E, 1]⟩ ⟨2, ![E, C]⟩ [1] [0] [0] 1) (idx : IVec ⟨2, ![E, 1]⟩ w) (e : Fin E) (q : Fin C) :
    (rowDims N E C wf).start (ix2 e q) idx 0 = (idx (ix2 e (0 : Fin 1))).toInt := by
  unfold ScatterDims.start
  rw [dif_pos (show (0 : Fin 2) ∈ (rowDims N E C wf).scatterDimsToOperandDims from List.mem_singleton.mpr rfl)]
  -- the scatter index of update index (e, q) is read at (e, 0)
  have hsi : (rowDims N E C wf).siIdx (ix2 e q) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which no scatter index names, the window starts at `0`. -/
theorem start_one {N E C w : Nat} (wf : ScatterDims.WF ⟨2, ![N, C]⟩ ⟨2, ![E, 1]⟩ ⟨2, ![E, C]⟩ [1] [0] [0] 1) (idx : IVec ⟨2, ![E, 1]⟩ w) (e : Fin E) (q : Fin C) :
    (rowDims N E C wf).start (ix2 e q) idx 1 = 0 := by
  unfold ScatterDims.start
  rw [dif_neg (fun h => absurd (Fin.val_eq_of_eq (List.mem_singleton.mp h)) Nat.one_ne_zero)]

/-- The inserted axis 0 has window coordinate `0`. -/
theorem window_zero {N E C : Nat} (wf : ScatterDims.WF ⟨2, ![N, C]⟩ ⟨2, ![E, 1]⟩ ⟨2, ![E, C]⟩ [1] [0] [0] 1) (e : Fin E) (q : Fin C) :
    (rowDims N E C wf).window (ix2 e q) 0 = 0 := by
  unfold ScatterDims.window
  rw [dif_neg (fun h => ((mem_sKept wf 0).mp h) (List.mem_singleton.mpr rfl))]

/-- On operand axis 1 the window coordinate of update `(e, q)` is its column `q`. -/
theorem window_one {N E C : Nat} (wf : ScatterDims.WF ⟨2, ![N, C]⟩ ⟨2, ![E, 1]⟩ ⟨2, ![E, C]⟩ [1] [0] [0] 1) (e : Fin E) (q : Fin C) :
    (rowDims N E C wf).window (ix2 e q) 1 = q.val := by
  unfold ScatterDims.window
  rw [dif_pos ((mem_sKept wf 1).mpr (fun h => absurd (Fin.val_eq_of_eq (List.mem_singleton.mp h)) Nat.one_ne_zero))]
  rfl

/-- WHERE AN UPDATE LANDS: update `(e, q)` lands at operand element `(v, c)` exactly when its row number `idx[e, 0]`,
    read signed, is `v` and its column `q` is `c`. The row number is not clamped: when it is negative or at least
    `N` the update lands nowhere, and no `v : Fin N` satisfies the right-hand side either. -/
theorem resultIdx?_eq_some_iff {N E C w : Nat} (wf : ScatterDims.WF ⟨2, ![N, C]⟩ ⟨2, ![E, 1]⟩ ⟨2, ![E, C]⟩ [1] [0] [0] 1) (idx : IVec ⟨2, ![E, 1]⟩ w) (e : Fin E) (q : Fin C)
    (v : Fin N) (c : Fin C) :
    (rowDims N E C wf).resultIdx? (ix2 e q) idx = some (ix2 v c)
      ↔ (idx (ix2 e (0 : Fin 1))).toInt = (v.val : ℤ) ∧ q = c := by
  -- start plus window coordinate on the two operand axes: the row number, and the column
  have hs0 : (rowDims N E C wf).start (ix2 e q) idx 0 + ((rowDims N E C wf).window (ix2 e q) 0 : ℤ)
      = (idx (ix2 e (0 : Fin 1))).toInt := by
    rw [start_zero, window_zero, Nat.cast_zero, add_zero]
  have hs1 : (rowDims N E C wf).start (ix2 e q) idx 1 + ((rowDims N E C wf).window (ix2 e q) 1 : ℤ)
      = (q.val : ℤ) := by
    rw [start_one, window_one, zero_add]
  unfold ScatterDims.resultIdx?
  constructor
  · intro h
    split at h
    · -- inside the operand on both axes: compare coordinates
      rename_i hb
      have hf := Option.some.inj h
      have h0 : ((rowDims N E C wf).start (ix2 e q) idx 0 + ((rowDims N E C wf).window (ix2 e q) 0 : ℤ)).toNat = v.val :=
        congrArg (fun f => (f 0).val) hf
      have h1 : ((rowDims N E C wf).start (ix2 e q) idx 1 + ((rowDims N E C wf).window (ix2 e q) 1 : ℤ)).toNat = c.val :=
        congrArg (fun f => (f 1).val) hf
      have hb0 := (hb 0).1
      rw [hs0] at h0 hb0
      rw [hs1] at h1
      exact ⟨by omega, Fin.ext (by omega)⟩
    · -- outside the operand: the update is dropped
      exact absurd h.symm (Option.some_ne_none _)
  · rintro ⟨hv, rfl⟩
    -- the row number is v < N and the column is q < C: inside the operand on both axes
    have hb : ∀ a, 0 ≤ (rowDims N E C wf).start (ix2 e q) idx a + ((rowDims N E C wf).window (ix2 e q) a : ℤ)
        ∧ (rowDims N E C wf).start (ix2 e q) idx a + ((rowDims N E C wf).window (ix2 e q) a : ℤ)
          < ((⟨2, ![N, C]⟩ : Shape).size a : ℤ) := by
      intro a
      match a with
      | ⟨0, _⟩ =>
        show 0 ≤ (rowDims N E C wf).start (ix2 e q) idx 0 + ((rowDims N E C wf).window (ix2 e q) 0 : ℤ)
          ∧ (rowDims N E C wf).start (ix2 e q) idx 0 + ((rowDims N E C wf).window (ix2 e q) 0 : ℤ) < _
        rw [hs0, hv]
        exact ⟨Int.natCast_nonneg _, Int.ofNat_lt.mpr v.isLt⟩
      | ⟨1, _⟩ =>
        show 0 ≤ (rowDims N E C wf).start (ix2 e q) idx 1 + ((rowDims N E C wf).window (ix2 e q) 1 : ℤ)
          ∧ (rowDims N E C wf).start (ix2 e q) idx 1 + ((rowDims N E C wf).window (ix2 e q) 1 : ℤ) < _
        rw [hs1]
        exact ⟨Int.natCast_nonneg _, Int.ofNat_lt.mpr q.isLt⟩
    rw [dif_pos hb]
    congr 1
    funext a
    refine Fin.ext ?_
    match a with
    | ⟨0, _⟩ =>
      show ((rowDims N E C wf).start (ix2 e q) idx 0 + ((rowDims N E C wf).window (ix2 e q) 0 : ℤ)).toNat = v.val
      rw [hs0, hv, Int.toNat_natCast]
    | ⟨1, _⟩ =>
      show ((rowDims N E C wf).start (ix2 e q) idx 1 + ((rowDims N E C wf).window (ix2 e q) 1 : ℤ)).toNat = q.val
      rw [hs1, Int.toNat_natCast]

/-- THE ROW SCATTER-ADD READ AT `(v, c)`, at the ideal instance: the operand's element plus the sum, over the updates
    `e` whose row number `idx[e, 0]` (read signed) is `v`, of `upd[e, c]`. The sum over the update elements that land
    at `(v, c)` is split over the coordinates `(e, q)`; for each `e` the inner sum over `q` keeps the one term
    `q = c` when the row number is `v` and is empty otherwise. -/
theorem rowScatterAdd_apply {φ : FTy} {N E C w : Nat} (wf : ScatterDims.WF ⟨2, ![N, C]⟩ ⟨2, ![E, 1]⟩ ⟨2, ![E, C]⟩ [1] [0] [0] 1) (x : FVec Ideal ⟨2, ![N, C]⟩ φ)
    (idx : IVec ⟨2, ![E, 1]⟩ w) (upd : FVec Ideal ⟨2, ![E, C]⟩ φ) (v : Fin N) (c : Fin C) :
    Host.scatterAdd (F := Ideal) (rowDims N E C wf) x idx upd (ix2 v c)
      = x (ix2 v c) + ∑ e : Fin E, if (idx (ix2 e (0 : Fin 1))).toInt = (v.val : ℤ) then upd (ix2 e c) else 0 := by
  show Ideal.hostScatterAdd (rowDims N E C wf) x idx upd (ix2 v c) = _
  unfold Ideal.hostScatterAdd
  congr 1
  rw [Finset.sum_filter, sum_idx2]
  refine Finset.sum_congr rfl (fun e _ => ?_)
  simp only [resultIdx?_eq_some_iff]
  by_cases h : (idx (ix2 e (0 : Fin 1))).toInt = (v.val : ℤ)
  · simp only [h, true_and]
    rw [Finset.sum_ite_eq']
    simp only [Finset.mem_univ, if_true]
  · simp only [h, false_and, if_false, Finset.sum_const_zero]

end Cert.LibRowScatterAdd

end
-- ==== Proof.Spec.lean ====
/-
  The specification of the sparse-convolution block, as one function of the argument arrays, index by index, over the
  extended reals.

  For each of 8 kernel offsets `k` and each of 100000 positions `p` an index word names a source row of `x`; the
  contribution of the pair is the row times the `k`-th weight matrix. The 800000 contributions are added into 400000
  output rows named by a second index array (a segment sum), the result is normalised column by column with the
  batch mean and the batch variance, scaled, shifted and clipped below at zero, joined with the skip array along the
  columns and multiplied by a final weight matrix. No program is imported here: the two sides of an equivalence proof
  each show that they compute `G`.
-/
import Idealize.ShloMosaic.PureOps.Ideal
import Idealize.ShloMosaic.PureOps.Ideal.Laws
import Idealize.ShloMosaic.Lib.ValueIdx
import proofs.«119201_j83674552861285_2_alg».proof.Proof.LibWrapIndex
import proofs.«119201_j83674552861285_2_alg».proof.Proof.LibRowGather
import proofs.«119201_j83674552861285_2_alg».proof.Proof.LibRowScatterAdd

noncomputable section

open scoped BigOperators

namespace Cert.Spec

open Idealize.ShloMosaic Idealize.ShloMosaic.ValueIdx

/-! ## Shapes, spelled literally -/

/-- The input features: 100000 rows of 128 columns. -/
abbrev SX : Shape := ⟨2, ![100000, 128]⟩
/-- The skip array, the segment sum and the result: 400000 rows of 64 columns. -/
abbrev SY : Shape := ⟨2, ![400000, 64]⟩
/-- The 8 weight matrices, each 128 by 64. -/
abbrev SW : Shape := ⟨3, ![8, 128, 64]⟩
/-- A vector of 64 column parameters. -/
abbrev SV : Shape := ⟨1, ![64]⟩
/-- The final weight matrix: 128 by 64. -/
abbrev SWf : Shape := ⟨2, ![128, 64]⟩
/-- An index array: one word per kernel offset and position. -/
abbrev SI : Shape := ⟨2, ![8, 100000]⟩
/-- The contributions: one row of 64 columns per kernel offset and position. -/
abbrev SC : Shape := ⟨3, ![8, 100000, 64]⟩

/-! ## The contributions -/

/-- The source row that the index word at `(k, p)` selects: a negative word has 100000 added, and the result is read
    as a signed integer and clamped into `[0, 99999]`. -/
def srcRow (idx : IVec ⟨2, ![8, 100000]⟩ 32) (k : Fin 8) (p : Fin 100000) : Fin 100000 :=
  Cert.LibRowGather.row 100000 (by decide) (Cert.LibWrapIndex.wrapWord 100000#32 (idx (ix2 k p)))

/-- The contribution of the pair `(k, p)` at column `o`: the selected row of `x` times column `o` of the `k`-th
    weight matrix. -/
def contribAt (x : FVec Ideal ⟨2, ![100000, 128]⟩ .f32) (W : FVec Ideal ⟨3, ![8, 128, 64]⟩ .f32)
    (idx : IVec ⟨2, ![8, 100000]⟩ 32) (k : Fin 8) (p : Fin 100000) (o : Fin 64) : EReal :=
  ∑ i : Fin 128, x (ix2 (srcRow idx k p) i) * W (ix3 k i o)

/-- All the contributions as one array. -/
def contrib (x : FVec Ideal ⟨2, ![100000, 128]⟩ .f32) (W : FVec Ideal ⟨3, ![8, 128, 64]⟩ .f32)
    (idx : IVec ⟨2, ![8, 100000]⟩ 32) : FVec Ideal ⟨3, ![8, 100000, 64]⟩ .f32 :=
  fun j => contribAt x W idx (j 0) (j 1) (j 2)

theorem contrib_apply (x : FVec Ideal ⟨2, ![100000, 128]⟩ .f32) (W : FVec Ideal ⟨3, ![8, 128, 64]⟩ .f32)
    (idx : IVec ⟨2, ![8, 100000]⟩ 32) (k : Fin 8) (p : Fin 100000) (o : Fin 64) :
    contrib x W idx (ix3 k p o) = ∑ i : Fin 128, x (ix2 (srcRow idx k p) i) * W (ix3 k i o) := rfl

/-! ## The segment sum -/

/-- The segment sum of the contributions: a zero array of 400000 rows into which contribution `(k, p)` (row
    `100000 k + p` of the contributions laid out as 800000 rows) is added at the row its index word names, a
    negative word having 400000 added first; a word that still names no row drops its contribution. It is written as
    the composition of the array operations both programs apply (a zero constant broadcast, two changes of layout,
    the comparison with zero, the addition of 400000 and the selection between the two, a broadcast of the words
    into a column, and the accumulating scatter), and a comparison of the two programs never opens it. -/
def scatterStage (C : FVec Ideal ⟨3, ![8, 100000, 64]⟩ .f32) (oidx : IVec ⟨2, ![8, 100000]⟩ 32) :
    FVec Ideal ⟨2, ![400000, 64]⟩ .f32 :=
  Host.scatterAdd (F := Ideal) (Cert.LibRowScatterAdd.rowDims 400000 800000 64 (by decide))
    (broadcastInDim (⟨2, ![400000, 64]⟩ : Shape) ![] (by decide)
      (constant (F := Ideal) (⟨0, ![]⟩ : Shape) .f32 0x00000000#32))
    (broadcastInDim (⟨2, ![800000, 1]⟩ : Shape) ![0] (by decide)
      (select
        (cmpi .slt (shapeCast (⟨1, ![800000]⟩ : Shape) oidx (by decide))
          (broadcastInDim (⟨1, ![800000]⟩ : Shape) ![] (by decide) (constantI (⟨0, ![]⟩ : Shape) 32 0#32)))
        (addi (shapeCast (⟨1, ![800000]⟩ : Shape) oidx (by decide))
          (broadcastInDim (⟨1, ![800000]⟩ : Shape) ![] (by decide) (constantI (⟨0, ![]⟩ : Shape) 32 400000#32)))
        (shapeCast (⟨1, ![800000]⟩ : Shape) oidx (by decide))))
    (shapeCast (⟨2, ![800000, 64]⟩ : Shape) C (by decide))

/-! ## The normalisation -/

/-- The mean of column `o` over the 400000 rows. -/
def colMean (y : FVec Ideal ⟨2, ![400000, 64]⟩ .f32) (o : Fin 64) : EReal :=
  Ideal.div (∑ v : Fin 400000, y (ix2 v o)) (Ideal.ofBits .f32 0x48C35000#32)

/-- The variance of column `o`: the mean of the squared deviations from the column mean. -/
def colVar (y : FVec Ideal ⟨2, ![400000, 64]⟩ .f32) (o : Fin 64) : EReal :=
  Ideal.div (∑ v : Fin 400000, (y (ix2 v o) - colMean y o) * (y (ix2 v o) - colMean y o))
    (Ideal.ofBits .f32 0x48C35000#32)

/-- The normalised, scaled, shifted and clipped entry at row `v`, column `o`: the deviation from the column mean
    times the reciprocal square root of the column variance plus a small constant, times `gamma`, plus `beta`, and
    zero where that is negative. -/
def bn (y : FVec Ideal ⟨2, ![400000, 64]⟩ .f32) (gamma beta : FVec Ideal ⟨1, ![64]⟩ .f32)
    (v : Fin 400000) (o : Fin 64) : EReal :=
  max (((y (ix2 v o) - colMean y o) * Ideal.rsqrt (colVar y o + Ideal.ofBits .f32 0x3727C5AC#32)) * gamma (ix1 o)
      + beta (ix1 o))
    (Ideal.ofBits .f32 0x00000000#32)

/-! ## The result -/

/-- Row `v` of the joined array: its first 64 columns are the normalised entries, its last 64 the skip array's. -/
def joined (y skip : FVec Ideal ⟨2, ![400000, 64]⟩ .f32) (gamma beta : FVec Ideal ⟨1, ![64]⟩ .f32)
    (v : Fin 400000) (c : Fin 128) : EReal :=
  if h : c.val < 64 then bn y gamma beta v ⟨c.val, h⟩
  else skip (ix2 v (⟨c.val - 64, by have := c.isLt; omega⟩ : Fin 64))

/-- The result as a function of the segment sum `y`: the joined array times the final weight matrix. -/
def head (y skip : FVec Ideal ⟨2, ![400000, 64]⟩ .f32) (gamma beta : FVec Ideal ⟨1, ![64]⟩ .f32)
    (Wf : FVec Ideal ⟨2, ![128, 64]⟩ .f32) : FVec Ideal ⟨2, ![400000, 64]⟩ .f32 :=
  fun j => ∑ c : Fin 128, joined y skip gamma beta (j 0) c * Wf (ix2 c (j 1))

/-- THE SPECIFICATION: the result as one function of the eight argument arrays. -/
def G (x : FVec Ideal ⟨2, ![100000, 128]⟩ .f32) (skip : FVec Ideal ⟨2, ![400000, 64]⟩ .f32)
    (W : FVec Ideal ⟨3, ![8, 128, 64]⟩ .f32) (gamma beta : FVec Ideal ⟨1, ![64]⟩ .f32)
    (Wf : FVec Ideal ⟨2, ![128, 64]⟩ .f32) (idx oidx : IVec ⟨2, ![8, 100000]⟩ 32) :
    FVec Ideal ⟨2, ![400000, 64]⟩ .f32 :=
  head (scatterStage (contrib x W idx) oidx) skip gamma beta Wf

theorem head_apply (y skip : FVec Ideal ⟨2, ![400000, 64]⟩ .f32) (gamma beta : FVec Ideal ⟨1, ![64]⟩ .f32)
    (Wf : FVec Ideal ⟨2, ![128, 64]⟩ .f32) (v : Fin 400000) (o : Fin 64) :
    head y skip gamma beta Wf (ix2 v o) = ∑ c : Fin 128, joined y skip gamma beta v c * Wf (ix2 c o) := rfl

theorem G_apply (x : FVec Ideal ⟨2, ![100000, 128]⟩ .f32) (skip : FVec Ideal ⟨2, ![400000, 64]⟩ .f32)
    (W : FVec Ideal ⟨3, ![8, 128, 64]⟩ .f32) (gamma beta : FVec Ideal ⟨1, ![64]⟩ .f32)
    (Wf : FVec Ideal ⟨2, ![128, 64]⟩ .f32) (idx oidx : IVec ⟨2, ![8, 100000]⟩ 32) (v : Fin 400000) (o : Fin 64) :
    G x skip W gamma beta Wf idx oidx (ix2 v o)
      = ∑ c : Fin 128, joined (scatterStage (contrib x W idx) oidx) skip gamma beta v c * Wf (ix2 c o) := rfl

end Cert.Spec

end
-- ==== Proof.KV.HostB.lean ====
/-
  The second host stretch, read on the extended reals at the array the second and third calls take as y.
  Its 151 operations are, in order: one reshape of the first call's product to [100000,8,64]; for each kernel
  offset k = 0..7 a chain of sixteen operations that cuts row k out of the first index array, wraps its negative
  words, pairs each with the constant k and gathers from the reshaped product; nine operations that stack the eight
  gathered arrays; thirteen operations that scatter-add the stacked array, flattened to [800000,64], into a zero
  array [400000,64] at the wrapped second index array. The list is the concatenation of these eleven segments; each
  segment is read at an arbitrary valuation (it reads two or three buffers and writes its own), a buffer a segment
  does not write keeps its contents through it, and the reads compose: y is the scatter stage of the gather stage
  of the product.
-/
import proofs.«119201_j83674552861285_2_alg».proof.Proof.KI.Run
import proofs.«119201_j83674552861285_2_alg».proof.Proof.GatherStage
import proofs.«119201_j83674552861285_2_alg».proof.Proof.Spec
import Idealize.ShloMosaic.Lib.StableHlo.Run

set_option maxRecDepth 16384

noncomputable section

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

open Idealize.ShloMosaic.StableHlo

/-- Running a concatenation of two lists of host operations is running the first, then the second. -/
theorem after_append {τ : Topo} {sig : RefSig} {Val : EltTy → Type} :
    ∀ (l1 l2 : List (HloOp τ sig Val)) (V : Valuation τ sig Val), StableHlo.after (l1 ++ l2) V = StableHlo.after l2 (StableHlo.after l1 V)
  | [], _, _ => rfl
  | op :: l1, l2, V => by rw [List.cons_append, StableHlo.after_cons, StableHlo.after_cons, after_append l1 l2]

section Segments
variable {F : FTy → Type} [FloatOps F]

/-! ## The eleven segments -/

abbrev segR : List (HloOp τ sig (Elt F)) :=
  [ StableHlo.reshape main_v2 main_v3 rfl shapeCasts_S100000x512_S100000x8x64 ]

abbrev segG0 : List (HloOp τ sig (Elt F)) :=
  [ StableHlo.unary main_arg6 main_v4 ((extractStridedSlice S1x100000 ![0, 0] · slices_S8x100000_S1x100000_0_0) : (⟨S8x100000, .i32⟩ : BufTy).Contents (Elt F) → (⟨S1x100000, .i32⟩ : BufTy).Contents (Elt F)),
    StableHlo.reshape main_v4 main_v5 rfl shapeCasts_S1x100000_S100000,
    StableHlo.nullary main_c (constantI S_ 32 0#32),
    StableHlo.unary main_c main_v6 (broadcastInDim S100000 ![] bcast_S_S100000 : (⟨S_, .i32⟩ : BufTy).Contents (Elt F) → (⟨S100000, .i32⟩ : BufTy).Contents (Elt F)),
    StableHlo.binary main_v5 main_v6 main_v7 (cmpi .slt : (⟨S100000, .i32⟩ : BufTy).Contents (Elt F) → (⟨S100000, .i32⟩ : BufTy).Contents (Elt F) → (⟨S100000, .i1⟩ : BufTy).Contents (Elt F)),
    StableHlo.nullary main_c_0 (constantI S_ 32 100000#32),
    StableHlo.unary main_c_0 main_v8 (broadcastInDim S100000 ![] bcast_S_S100000 : (⟨S_, .i32⟩ : BufTy).Contents (Elt F) → (⟨S100000, .i32⟩ : BufTy).Contents (Elt F)),
    StableHlo.binary main_v5 main_v8 main_v9 (addi : (⟨S100000, .i32⟩ : BufTy).Contents (Elt F) → (⟨S100000, .i32⟩ : BufTy).Contents (Elt F) → (⟨S100000, .i32⟩ : BufTy).Contents (Elt F)),
    StableHlo.ternary main_v7 main_v9 main_v5 main_v10 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_1 (constantI S_ 32 0#32),
    StableHlo.unary main_c_1 main_v11 (broadcastInDim S100000 ![] bcast_S_S100000 : (⟨S_, .i32⟩ : BufTy).Contents (Elt F) → (⟨S100000, .i32⟩ : BufTy).Contents (Elt F)),
    StableHlo.unary main_v11 main_v12 (id : (⟨S100000, .i32⟩ : BufTy).Contents (Elt F) → (⟨S100000, .i32⟩ : BufTy).Contents (Elt F)),
    StableHlo.unary main_v10 main_v13 (broadcastInDim S100000x1 ![0] bcast_S100000_S100000x1_0 : (⟨S100000, .i32⟩ : BufTy).Contents (Elt F) → (⟨S100000x1, .i32⟩ : BufTy).Contents (Elt F)),
    StableHlo.unary main_v12 main_v14 (broadcastInDim S100000x1 ![0] bcast_S100000_S100000x1_0 : (⟨S100000, .i32⟩ : BufTy).Contents (Elt F) → (⟨S100000x1, .i32⟩ : BufTy).Contents (Elt F)),
    StableHlo.binary main_v13 main_v14 main_v15 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v3 main_v15 main_v16 ((fun x i => Host.gather gather_S100000x8x64_S100000x2_S100000x64_1_01_n_n_01_1_1164 x i) : (⟨S100000x8x64, .f32⟩ : BufTy).Contents (Elt F) → (⟨S100000x2, .i32⟩ : BufTy).Contents (Elt F) → (⟨S100000x64, .f32⟩ : BufTy).Contents (Elt F)) ]

abbrev segG1 : List (HloOp τ sig (Elt F)) :=
  [ StableHlo.unary main_arg6 main_v17 ((extractStridedSlice S1x100000 ![1, 0] · slices_S8x100000_S1x100000_1_0) : (⟨S8x100000, .i32⟩ : BufTy).Contents (Elt F) → (⟨S1x100000, .i32⟩ : BufTy).Contents (Elt F)),
    StableHlo.reshape main_v17 main_v18 rfl shapeCasts_S1x100000_S100000,
    StableHlo.nullary main_c_2 (constantI S_ 32 0#32),
    StableHlo.unary main_c_2 main_v19 (broadcastInDim S100000 ![] bcast_S_S100000 : (⟨S_, .i32⟩ : BufTy).Contents (Elt F) → (⟨S100000, .i32⟩ : BufTy).Contents (Elt F)),
    StableHlo.binary main_v18 main_v19 main_v20 (cmpi .slt : (⟨S100000, .i32⟩ : BufTy).Contents (Elt F) → (⟨S100000, .i32⟩ : BufTy).Contents (Elt F) → (⟨S100000, .i1⟩ : BufTy).Contents (Elt F)),
    StableHlo.nullary main_c_3 (constantI S_ 32 100000#32),
    StableHlo.unary main_c_3 main_v21 (broadcastInDim S100000 ![] bcast_S_S100000 : (⟨S_, .i32⟩ : BufTy).Contents (Elt F) → (⟨S100000, .i32⟩ : BufTy).Contents (Elt F)),
    StableHlo.binary main_v18 main_v21 main_v22 (addi : (⟨S100000, .i32⟩ : BufTy).Contents (Elt F) → (⟨S100000, .i32⟩ : BufTy).Contents (Elt F) → (⟨S100000, .i32⟩ : BufTy).Contents (Elt F)),
    StableHlo.ternary main_v20 main_v22 main_v18 main_v23 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_4 (constantI S_ 32 1#32),
    StableHlo.unary main_c_4 main_v24 (broadcastInDim S100000 ![] bcast_S_S100000 : (⟨S_, .i32⟩ : BufTy).Contents (Elt F) → (⟨S100000, .i32⟩ : BufTy).Contents (Elt F)),
    StableHlo.unary main_v24 main_v25 (id : (⟨S100000, .i32⟩ : BufTy).Contents (Elt F) → (⟨S100000, .i32⟩ : BufTy).Contents (Elt F)),
    StableHlo.unary main_v23 main_v26 (broadcastInDim S100000x1 ![0] bcast_S100000_S100000x1_0 : (⟨S100000, .i32⟩ : BufTy).Contents (Elt F) → (⟨S100000x1, .i32⟩ : BufTy).Contents (Elt F)),
    StableHlo.unary main_v25 main_v27 (broadcastInDim S100000x1 ![0] bcast_S100000_S100000x1_0 : (⟨S100000, .i32⟩ : BufTy).Contents (Elt F) → (⟨S100000x1, .i32⟩ : BufTy).Contents (Elt F)),
    StableHlo.binary main_v26 main_v27 main_v28 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v3 main_v28 main_v29 ((fun x i => Host.gather gather_S100000x8x64_S100000x2_S100000x64_1_01_n_n_01_1_1164 x i) : (⟨S100000x8x64, .f32⟩ : BufTy).Contents (Elt F) → (⟨S100000x2, .i32⟩ : BufTy).Contents (Elt F) → (⟨S100000x64, .f32⟩ : BufTy).Contents (Elt F)) ]

abbrev segG2 : List (HloOp τ sig (Elt F)) :=
  [ StableHlo.unary main_arg6 main_v30 ((extractStridedSlice S1x100000 ![2, 0] · slices_S8x100000_S1x100000_2_0) : (⟨S8x100000, .i32⟩ : BufTy).Contents (Elt F) → (⟨S1x100000, .i32⟩ : BufTy).Contents (Elt F)),
    StableHlo.reshape main_v30 main_v31 rfl shapeCasts_S1x100000_S100000,
    StableHlo.nullary main_c_5 (constantI S_ 32 0#32),
    StableHlo.unary main_c_5 main_v32 (broadcastInDim S100000 ![] bcast_S_S100000 : (⟨S_, .i32⟩ : BufTy).Contents (Elt F) → (⟨S100000, .i32⟩ : BufTy).Contents (Elt F)),
    StableHlo.binary main_v31 main_v32 main_v33 (cmpi .slt : (⟨S100000, .i32⟩ : BufTy).Contents (Elt F) → (⟨S100000, .i32⟩ : BufTy).Contents (Elt F) → (⟨S100000, .i1⟩ : BufTy).Contents (Elt F)),
    StableHlo.nullary main_c_6 (constantI S_ 32 100000#32),
    StableHlo.unary main_c_6 main_v34 (broadcastInDim S100000 ![] bcast_S_S100000 : (⟨S_, .i32⟩ : BufTy).Contents (Elt F) → (⟨S100000, .i32⟩ : BufTy).Contents (Elt F)),
    StableHlo.binary main_v31 main_v34 main_v35 (addi : (⟨S100000, .i32⟩ : BufTy).Contents (Elt F) → (⟨S100000, .i32⟩ : BufTy).Contents (Elt F) → (⟨S100000, .i32⟩ : BufTy).Contents (Elt F)),
    StableHlo.ternary main_v33 main_v35 main_v31 main_v36 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_7 (constantI S_ 32 2#32),
    StableHlo.unary main_c_7 main_v37 (broadcastInDim S100000 ![] bcast_S_S100000 : (⟨S_, .i32⟩ : BufTy).Contents (Elt F) → (⟨S100000, .i32⟩ : BufTy).Contents (Elt F)),
    StableHlo.unary main_v37 main_v38 (id : (⟨S100000, .i32⟩ : BufTy).Contents (Elt F) → (⟨S100000, .i32⟩ : BufTy).Contents (Elt F)),
    StableHlo.unary main_v36 main_v39 (broadcastInDim S100000x1 ![0] bcast_S100000_S100000x1_0 : (⟨S100000, .i32⟩ : BufTy).Contents (Elt F) → (⟨S100000x1, .i32⟩ : BufTy).Contents (Elt F)),
    StableHlo.unary main_v38 main_v40 (broadcastInDim S100000x1 ![0] bcast_S100000_S100000x1_0 : (⟨S100000, .i32⟩ : BufTy).Contents (Elt F) → (⟨S100000x1, .i32⟩ : BufTy).Contents (Elt F)),
    StableHlo.binary main_v39 main_v40 main_v41 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v3 main_v41 main_v42 ((fun x i => Host.gather gather_S100000x8x64_S100000x2_S100000x64_1_01_n_n_01_1_1164 x i) : (⟨S100000x8x64, .f32⟩ : BufTy).Contents (Elt F) → (⟨S100000x2, .i32⟩ : BufTy).Contents (Elt F) → (⟨S100000x64, .f32⟩ : BufTy).Contents (Elt F)) ]

abbrev segG3 : List (HloOp τ sig (Elt F)) :=
  [ StableHlo.unary main_arg6 main_v43 ((extractStridedSlice S1x100000 ![3, 0] · slices_S8x100000_S1x100000_3_0) : (⟨S8x100000, .i32⟩ : BufTy).Contents (Elt F) → (⟨S1x100000, .i32⟩ : BufTy).Contents (Elt F)),
    StableHlo.reshape main_v43 main_v44 rfl shapeCasts_S1x100000_S100000,
    StableHlo.nullary main_c_8 (constantI S_ 32 0#32),
    StableHlo.unary main_c_8 main_v45 (broadcastInDim S100000 ![] bcast_S_S100000 : (⟨S_, .i32⟩ : BufTy).Contents (Elt F) → (⟨S100000, .i32⟩ : BufTy).Contents (Elt F)),
    StableHlo.binary main_v44 main_v45 main_v46 (cmpi .slt : (⟨S100000, .i32⟩ : BufTy).Contents (Elt F) → (⟨S100000, .i32⟩ : BufTy).Contents (Elt F) → (⟨S100000, .i1⟩ : BufTy).Contents (Elt F)),
    StableHlo.nullary main_c_9 (constantI S_ 32 100000#32),
    StableHlo.unary main_c_9 main_v47 (broadcastInDim S100000 ![] bcast_S_S100000 : (⟨S_, .i32⟩ : BufTy).Contents (Elt F) → (⟨S100000, .i32⟩ : BufTy).Contents (Elt F)),
    StableHlo.binary main_v44 main_v47 main_v48 (addi : (⟨S100000, .i32⟩ : BufTy).Contents (Elt F) → (⟨S100000, .i32⟩ : BufTy).Contents (Elt F) → (⟨S100000, .i32⟩ : BufTy).Contents (Elt F)),
    StableHlo.ternary main_v46 main_v48 main_v44 main_v49 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_10 (constantI S_ 32 3#32),
    StableHlo.unary main_c_10 main_v50 (broadcastInDim S100000 ![] bcast_S_S100000 : (⟨S_, .i32⟩ : BufTy).Contents (Elt F) → (⟨S100000, .i32⟩ : BufTy).Contents (Elt F)),
    StableHlo.unary main_v50 main_v51 (id : (⟨S100000, .i32⟩ : BufTy).Contents (Elt F) → (⟨S100000, .i32⟩ : BufTy).Contents (Elt F)),
    StableHlo.unary main_v49 main_v52 (broadcastInDim S100000x1 ![0] bcast_S100000_S100000x1_0 : (⟨S100000, .i32⟩ : BufTy).Contents (Elt F) → (⟨S100000x1, .i32⟩ : BufTy).Contents (Elt F)),
    StableHlo.unary main_v51 main_v53 (broadcastInDim S100000x1 ![0] bcast_S100000_S100000x1_0 : (⟨S100000, .i32⟩ : BufTy).Contents (Elt F) → (⟨S100000x1, .i32⟩ : BufTy).Contents (Elt F)),
    StableHlo.binary main_v52 main_v53 main_v54 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v3 main_v54 main_v55 ((fun x i => Host.gather gather_S100000x8x64_S100000x2_S100000x64_1_01_n_n_01_1_1164 x i) : (⟨S100000x8x64, .f32⟩ : BufTy).Contents (Elt F) → (⟨S100000x2, .i32⟩ : BufTy).Contents (Elt F) → (⟨S100000x64, .f32⟩ : BufTy).Contents (Elt F)) ]

abbrev segG4 : List (HloOp τ sig (Elt F)) :=
  [ StableHlo.unary main_arg6 main_v56 ((extractStridedSlice S1x100000 ![4, 0] · slices_S8x100000_S1x100000_4_0) : (⟨S8x100000, .i32⟩ : BufTy).Contents (Elt F) → (⟨S1x100000, .i32⟩ : BufTy).Contents (Elt F)),
    StableHlo.reshape main_v56 main_v57 rfl shapeCasts_S1x100000_S100000,
    StableHlo.nullary main_c_11 (constantI S_ 32 0#32),
    StableHlo.unary main_c_11 main_v58 (broadcastInDim S100000 ![] bcast_S_S100000 : (⟨S_, .i32⟩ : BufTy).Contents (Elt F) → (⟨S100000, .i32⟩ : BufTy).Contents (Elt F)),
    StableHlo.binary main_v57 main_v58 main_v59 (cmpi .slt : (⟨S100000, .i32⟩ : BufTy).Contents (Elt F) → (⟨S100000, .i32⟩ : BufTy).Contents (Elt F) → (⟨S100000, .i1⟩ : BufTy).Contents (Elt F)),
    StableHlo.nullary main_c_12 (constantI S_ 32 100000#32),
    StableHlo.unary main_c_12 main_v60 (broadcastInDim S100000 ![] bcast_S_S100000 : (⟨S_, .i32⟩ : BufTy).Contents (Elt F) → (⟨S100000, .i32⟩ : BufTy).Contents (Elt F)),
    StableHlo.binary main_v57 main_v60 main_v61 (addi : (⟨S100000, .i32⟩ : BufTy).Contents (Elt F) → (⟨S100000, .i32⟩ : BufTy).Contents (Elt F) → (⟨S100000, .i32⟩ : BufTy).Contents (Elt F)),
    StableHlo.ternary main_v59 main_v61 main_v57 main_v62 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_13 (constantI S_ 32 4#32),
    StableHlo.unary main_c_13 main_v63 (broadcastInDim S100000 ![] bcast_S_S100000 : (⟨S_, .i32⟩ : BufTy).Contents (Elt F) → (⟨S100000, .i32⟩ : BufTy).Contents (Elt F)),
    StableHlo.unary main_v63 main_v64 (id : (⟨S100000, .i32⟩ : BufTy).Contents (Elt F) → (⟨S100000, .i32⟩ : BufTy).Contents (Elt F)),
    StableHlo.unary main_v62 main_v65 (broadcastInDim S100000x1 ![0] bcast_S100000_S100000x1_0 : (⟨S100000, .i32⟩ : BufTy).Contents (Elt F) → (⟨S100000x1, .i32⟩ : BufTy).Contents (Elt F)),
    StableHlo.unary main_v64 main_v66 (broadcastInDim S100000x1 ![0] bcast_S100000_S100000x1_0 : (⟨S100000, .i32⟩ : BufTy).Contents (Elt F) → (⟨S100000x1, .i32⟩ : BufTy).Contents (Elt F)),
    StableHlo.binary main_v65 main_v66 main_v67 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v3 main_v67 main_v68 ((fun x i => Host.gather gather_S100000x8x64_S100000x2_S100000x64_1_01_n_n_01_1_1164 x i) : (⟨S100000x8x64, .f32⟩ : BufTy).Contents (Elt F) → (⟨S100000x2, .i32⟩ : BufTy).Contents (Elt F) → (⟨S100000x64, .f32⟩ : BufTy).Contents (Elt F)) ]

abbrev segG5 : List (HloOp τ sig (Elt F)) :=
  [ StableHlo.unary main_arg6 main_v69 ((extractStridedSlice S1x100000 ![5, 0] · slices_S8x100000_S1x100000_5_0) : (⟨S8x100000, .i32⟩ : BufTy).Contents (Elt F) → (⟨S1x100000, .i32⟩ : BufTy).Contents (Elt F)),
    StableHlo.reshape main_v69 main_v70 rfl shapeCasts_S1x100000_S100000,
    StableHlo.nullary main_c_14 (constantI S_ 32 0#32),
    StableHlo.unary main_c_14 main_v71 (broadcastInDim S100000 ![] bcast_S_S100000 : (⟨S_, .i32⟩ : BufTy).Contents (Elt F) → (⟨S100000, .i32⟩ : BufTy).Contents (Elt F)),
    StableHlo.binary main_v70 main_v71 main_v72 (cmpi .slt : (⟨S100000, .i32⟩ : BufTy).Contents (Elt F) → (⟨S100000, .i32⟩ : BufTy).Contents (Elt F) → (⟨S100000, .i1⟩ : BufTy).Contents (Elt F)),
    StableHlo.nullary main_c_15 (constantI S_ 32 100000#32),
    StableHlo.unary main_c_15 main_v73 (broadcastInDim S100000 ![] bcast_S_S100000 : (⟨S_, .i32⟩ : BufTy).Contents (Elt F) → (⟨S100000, .i32⟩ : BufTy).Contents (Elt F)),
    StableHlo.binary main_v70 main_v73 main_v74 (addi : (⟨S100000, .i32⟩ : BufTy).Contents (Elt F) → (⟨S100000, .i32⟩ : BufTy).Contents (Elt F) → (⟨S100000, .i32⟩ : BufTy).Contents (Elt F)),
    StableHlo.ternary main_v72 main_v74 main_v70 main_v75 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_16 (constantI S_ 32 5#32),
    StableHlo.unary main_c_16 main_v76 (broadcastInDim S100000 ![] bcast_S_S100000 : (⟨S_, .i32⟩ : BufTy).Contents (Elt F) → (⟨S100000, .i32⟩ : BufTy).Contents (Elt F)),
    StableHlo.unary main_v76 main_v77 (id : (⟨S100000, .i32⟩ : BufTy).Contents (Elt F) → (⟨S100000, .i32⟩ : BufTy).Contents (Elt F)),
    StableHlo.unary main_v75 main_v78 (broadcastInDim S100000x1 ![0] bcast_S100000_S100000x1_0 : (⟨S100000, .i32⟩ : BufTy).Contents (Elt F) → (⟨S100000x1, .i32⟩ : BufTy).Contents (Elt F)),
    StableHlo.unary main_v77 main_v79 (broadcastInDim S100000x1 ![0] bcast_S100000_S100000x1_0 : (⟨S100000, .i32⟩ : BufTy).Contents (Elt F) → (⟨S100000x1, .i32⟩ : BufTy).Contents (Elt F)),
    StableHlo.binary main_v78 main_v79 main_v80 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v3 main_v80 main_v81 ((fun x i => Host.gather gather_S100000x8x64_S100000x2_S100000x64_1_01_n_n_01_1_1164 x i) : (⟨S100000x8x64, .f32⟩ : BufTy).Contents (Elt F) → (⟨S100000x2, .i32⟩ : BufTy).Contents (Elt F) → (⟨S100000x64, .f32⟩ : BufTy).Contents (Elt F)) ]

abbrev segG6 : List (HloOp τ sig (Elt F)) :=
  [ StableHlo.unary main_arg6 main_v82 ((extractStridedSlice S1x100000 ![6, 0] · slices_S8x100000_S1x100000_6_0) : (⟨S8x100000, .i32⟩ : BufTy).Contents (Elt F) → (⟨S1x100000, .i32⟩ : BufTy).Contents (Elt F)),
    StableHlo.reshape main_v82 main_v83 rfl shapeCasts_S1x100000_S100000,
    StableHlo.nullary main_c_17 (constantI S_ 32 0#32),
    StableHlo.unary main_c_17 main_v84 (broadcastInDim S100000 ![] bcast_S_S100000 : (⟨S_, .i32⟩ : BufTy).Contents (Elt F) → (⟨S100000, .i32⟩ : BufTy).Contents (Elt F)),
    StableHlo.binary main_v83 main_v84 main_v85 (cmpi .slt : (⟨S100000, .i32⟩ : BufTy).Contents (Elt F) → (⟨S100000, .i32⟩ : BufTy).Contents (Elt F) → (⟨S100000, .i1⟩ : BufTy).Contents (Elt F)),
    StableHlo.nullary main_c_18 (constantI S_ 32 100000#32),
    StableHlo.unary main_c_18 main_v86 (broadcastInDim S100000 ![] bcast_S_S100000 : (⟨S_, .i32⟩ : BufTy).Contents (Elt F) → (⟨S100000, .i32⟩ : BufTy).Contents (Elt F)),
    StableHlo.binary main_v83 main_v86 main_v87 (addi : (⟨S100000, .i32⟩ : BufTy).Contents (Elt F) → (⟨S100000, .i32⟩ : BufTy).Contents (Elt F) → (⟨S100000, .i32⟩ : BufTy).Contents (Elt F)),
    StableHlo.ternary main_v85 main_v87 main_v83 main_v88 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_19 (constantI S_ 32 6#32),
    StableHlo.unary main_c_19 main_v89 (broadcastInDim S100000 ![] bcast_S_S100000 : (⟨S_, .i32⟩ : BufTy).Contents (Elt F) → (⟨S100000, .i32⟩ : BufTy).Contents (Elt F)),
    StableHlo.unary main_v89 main_v90 (id : (⟨S100000, .i32⟩ : BufTy).Contents (Elt F) → (⟨S100000, .i32⟩ : BufTy).Contents (Elt F)),
    StableHlo.unary main_v88 main_v91 (broadcastInDim S100000x1 ![0] bcast_S100000_S100000x1_0 : (⟨S100000, .i32⟩ : BufTy).Contents (Elt F) → (⟨S100000x1, .i32⟩ : BufTy).Contents (Elt F)),
    StableHlo.unary main_v90 main_v92 (broadcastInDim S100000x1 ![0] bcast_S100000_S100000x1_0 : (⟨S100000, .i32⟩ : BufTy).Contents (Elt F) → (⟨S100000x1, .i32⟩ : BufTy).Contents (Elt F)),
    StableHlo.binary main_v91 main_v92 main_v93 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v3 main_v93 main_v94 ((fun x i => Host.gather gather_S100000x8x64_S100000x2_S100000x64_1_01_n_n_01_1_1164 x i) : (⟨S100000x8x64, .f32⟩ : BufTy).Contents (Elt F) → (⟨S100000x2, .i32⟩ : BufTy).Contents (Elt F) → (⟨S100000x64, .f32⟩ : BufTy).Contents (Elt F)) ]

abbrev segG7 : List (HloOp τ sig (Elt F)) :=
  [ StableHlo.unary main_arg6 main_v95 ((extractStridedSlice S1x100000 ![7, 0] · slices_S8x100000_S1x100000_7_0) : (⟨S8x100000, .i32⟩ : BufTy).Contents (Elt F) → (⟨S1x100000, .i32⟩ : BufTy).Contents (Elt F)),
    StableHlo.reshape main_v95 main_v96 rfl shapeCasts_S1x100000_S100000,
    StableHlo.nullary main_c_20 (constantI S_ 32 0#32),
    StableHlo.unary main_c_20 main_v97 (broadcastInDim S100000 ![] bcast_S_S100000 : (⟨S_, .i32⟩ : BufTy).Contents (Elt F) → (⟨S100000, .i32⟩ : BufTy).Contents (Elt F)),
    StableHlo.binary main_v96 main_v97 main_v98 (cmpi .slt : (⟨S100000, .i32⟩ : BufTy).Contents (Elt F) → (⟨S100000, .i32⟩ : BufTy).Contents (Elt F) → (⟨S100000, .i1⟩ : BufTy).Contents (Elt F)),
    StableHlo.nullary main_c_21 (constantI S_ 32 100000#32),
    StableHlo.unary main_c_21 main_v99 (broadcastInDim S100000 ![] bcast_S_S100000 : (⟨S_, .i32⟩ : BufTy).Contents (Elt F) → (⟨S100000, .i32⟩ : BufTy).Contents (Elt F)),
    StableHlo.binary main_v96 main_v99 main_v100 (addi : (⟨S100000, .i32⟩ : BufTy).Contents (Elt F) → (⟨S100000, .i32⟩ : BufTy).Contents (Elt F) → (⟨S100000, .i32⟩ : BufTy).Contents (Elt F)),
    StableHlo.ternary main_v98 main_v100 main_v96 main_v101 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_22 (constantI S_ 32 7#32),
    StableHlo.unary main_c_22 main_v102 (broadcastInDim S100000 ![] bcast_S_S100000 : (⟨S_, .i32⟩ : BufTy).Contents (Elt F) → (⟨S100000, .i32⟩ : BufTy).Contents (Elt F)),
    StableHlo.unary main_v102 main_v103 (id : (⟨S100000, .i32⟩ : BufTy).Contents (Elt F) → (⟨S100000, .i32⟩ : BufTy).Contents (Elt F)),
    StableHlo.unary main_v101 main_v104 (broadcastInDim S100000x1 ![0] bcast_S100000_S100000x1_0 : (⟨S100000, .i32⟩ : BufTy).Contents (Elt F) → (⟨S100000x1, .i32⟩ : BufTy).Contents (Elt F)),
    StableHlo.unary main_v103 main_v105 (broadcastInDim S100000x1 ![0] bcast_S100000_S100000x1_0 : (⟨S100000, .i32⟩ : BufTy).Contents (Elt F) → (⟨S100000x1, .i32⟩ : BufTy).Contents (Elt F)),
    StableHlo.binary main_v104 main_v105 main_v106 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v3 main_v106 main_v107 ((fun x i => Host.gather gather_S100000x8x64_S100000x2_S100000x64_1_01_n_n_01_1_1164 x i) : (⟨S100000x8x64, .f32⟩ : BufTy).Contents (Elt F) → (⟨S100000x2, .i32⟩ : BufTy).Contents (Elt F) → (⟨S100000x64, .f32⟩ : BufTy).Contents (Elt F)) ]

abbrev segS : List (HloOp τ sig (Elt F)) :=
  [ StableHlo.unary main_v16 main_v108 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v29 main_v109 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v42 main_v110 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v55 main_v111 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v68 main_v112 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v81 main_v113 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v94 main_v114 (broadcastInDim S1x100000x64 ![1, 2] bcast_S100000x64_S1x100000x64_1_2 : (⟨S100000x64, .f32⟩ : BufTy).Contents (Elt F) → (⟨S1x100000x64, .f32⟩ : BufTy).Contents (Elt F)),
    StableHlo.unary main_v107 main_v115 (broadcastInDim S1x100000x64 ![1, 2] bcast_S100000x64_S1x100000x64_1_2 : (⟨S100000x64, .f32⟩ : BufTy).Contents (Elt F) → (⟨S1x100000x64, .f32⟩ : BufTy).Contents (Elt F)),
    StableHlo.nary ![main_v108, main_v109, main_v110, main_v111, main_v112, main_v113, main_v114, main_v115] main_v116 (fun u => concatenate S8x100000x64 0 [⟨S1x100000x64, u 0⟩, ⟨S1x100000x64, u 1⟩, ⟨S1x100000x64, u 2⟩, ⟨S1x100000x64, u 3⟩, ⟨S1x100000x64, u 4⟩, ⟨S1x100000x64, u 5⟩, ⟨S1x100000x64, u 6⟩, ⟨S1x100000x64, u 7⟩] concatenates_S1x100000x64_S1x100000x64_S1x100000x64_S1x100000x64_S1x100000x64_S1x100000x64_S1x100000x64_S1x100000x64_S8x100000x64_d0) ]

abbrev segT : List (HloOp τ sig (Elt F)) :=
  [ StableHlo.nullary main_cst (constant S_ .f32 0x00000000#32),
    StableHlo.unary main_cst main_v117 (broadcastInDim S400000x64 ![] bcast_S_S400000x64 : (⟨S_, .f32⟩ : BufTy).Contents (Elt F) → (⟨S400000x64, .f32⟩ : BufTy).Contents (Elt F)),
    StableHlo.reshape main_arg7 main_v118 rfl shapeCasts_S8x100000_S800000,
    StableHlo.reshape main_v116 main_v119 rfl shapeCasts_S8x100000x64_S800000x64,
    StableHlo.nullary main_c_23 (constantI S_ 32 0#32),
    StableHlo.unary main_c_23 main_v120 (broadcastInDim S800000 ![] bcast_S_S800000 : (⟨S_, .i32⟩ : BufTy).Contents (Elt F) → (⟨S800000, .i32⟩ : BufTy).Contents (Elt F)),
    StableHlo.binary main_v118 main_v120 main_v121 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 400000#32),
    StableHlo.unary main_c_24 main_v122 (broadcastInDim S800000 ![] bcast_S_S800000 : (⟨S_, .i32⟩ : BufTy).Contents (Elt F) → (⟨S800000, .i32⟩ : BufTy).Contents (Elt F)),
    StableHlo.binary main_v118 main_v122 main_v123 (addi : (⟨S800000, .i32⟩ : BufTy).Contents (Elt F) → (⟨S800000, .i32⟩ : BufTy).Contents (Elt F) → (⟨S800000, .i32⟩ : BufTy).Contents (Elt F)),
    StableHlo.ternary main_v121 main_v123 main_v118 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v124 main_v125 (broadcastInDim S800000x1 ![0] bcast_S800000_S800000x1_0 : (⟨S800000, .i32⟩ : BufTy).Contents (Elt F) → (⟨S800000x1, .i32⟩ : BufTy).Contents (Elt F)),
    StableHlo.ternary main_v117 main_v125 main_v119 main_v126 ((fun x i u => Host.scatterAdd scatter_S400000x64_S800000x1_S800000x64_1_0_0_1 x i u) : (⟨S400000x64, .f32⟩ : BufTy).Contents (Elt F) → (⟨S800000x1, .i32⟩ : BufTy).Contents (Elt F) → (⟨S800000x64, .f32⟩ : BufTy).Contents (Elt F) → (⟨S400000x64, .f32⟩ : BufTy).Contents (Elt F)) ]

set_option maxHeartbeats 40000000 in
/-- The stretch is the concatenation of the segments. -/
theorem split1 : (hostOps1 : List (HloOp τ sig (Elt F))) = segR ++ (segG0 ++ (segG1 ++ (segG2 ++ (segG3 ++ (segG4 ++ (segG5 ++ (segG6 ++ (segG7 ++ (segS ++ (segT)))))))))) := rfl

/-! ## What each segment writes; a buffer it does not write keeps its contents -/

abbrev wsR : List (Ref sig .tc) := [main_v3]
theorem wsR_sub : (segR : List (HloOp τ sig (Elt F))).Forall fun op => op.writes ⊆ (wsR.map (Proc.devRef (τ := τ) .tc)).toFinset := by
  simp only [segR, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpR (X : Valuation τ sig (Elt F)) (r : Ref sig .tc) (hr : r ∉ wsR) :
    StableHlo.after (segR : List (HloOp τ sig (Elt F))) X (Proc.devRef .tc r) = X (Proc.devRef .tc r) :=
  StableHlo.after_of_writes_sub _ X wsR_sub hr

abbrev wsG0 : List (Ref sig .tc) := [main_v4, main_v5, main_c, main_v6, main_v7, main_c_0, main_v8, main_v9, main_v10, main_c_1, main_v11, main_v12, main_v13, main_v14, main_v15, main_v16]
theorem wsG0_sub : (segG0 : List (HloOp τ sig (Elt F))).Forall fun op => op.writes ⊆ (wsG0.map (Proc.devRef (τ := τ) .tc)).toFinset := by
  simp only [segG0, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpG0 (X : Valuation τ sig (Elt F)) (r : Ref sig .tc) (hr : r ∉ wsG0) :
    StableHlo.after (segG0 : List (HloOp τ sig (Elt F))) X (Proc.devRef .tc r) = X (Proc.devRef .tc r) :=
  StableHlo.after_of_writes_sub _ X wsG0_sub hr

abbrev wsG1 : List (Ref sig .tc) := [main_v17, main_v18, main_c_2, main_v19, main_v20, main_c_3, main_v21, main_v22, main_v23, main_c_4, main_v24, main_v25, main_v26, main_v27, main_v28, main_v29]
theorem wsG1_sub : (segG1 : List (HloOp τ sig (Elt F))).Forall fun op => op.writes ⊆ (wsG1.map (Proc.devRef (τ := τ) .tc)).toFinset := by
  simp only [segG1, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpG1 (X : Valuation τ sig (Elt F)) (r : Ref sig .tc) (hr : r ∉ wsG1) :
    StableHlo.after (segG1 : List (HloOp τ sig (Elt F))) X (Proc.devRef .tc r) = X (Proc.devRef .tc r) :=
  StableHlo.after_of_writes_sub _ X wsG1_sub hr

abbrev wsG2 : List (Ref sig .tc) := [main_v30, main_v31, main_c_5, main_v32, main_v33, main_c_6, main_v34, main_v35, main_v36, main_c_7, main_v37, main_v38, main_v39, main_v40, main_v41, main_v42]
theorem wsG2_sub : (segG2 : List (HloOp τ sig (Elt F))).Forall fun op => op.writes ⊆ (wsG2.map (Proc.devRef (τ := τ) .tc)).toFinset := by
  simp only [segG2, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpG2 (X : Valuation τ sig (Elt F)) (r : Ref sig .tc) (hr : r ∉ wsG2) :
    StableHlo.after (segG2 : List (HloOp τ sig (Elt F))) X (Proc.devRef .tc r) = X (Proc.devRef .tc r) :=
  StableHlo.after_of_writes_sub _ X wsG2_sub hr

abbrev wsG3 : List (Ref sig .tc) := [main_v43, main_v44, main_c_8, main_v45, main_v46, main_c_9, main_v47, main_v48, main_v49, main_c_10, main_v50, main_v51, main_v52, main_v53, main_v54, main_v55]
theorem wsG3_sub : (segG3 : List (HloOp τ sig (Elt F))).Forall fun op => op.writes ⊆ (wsG3.map (Proc.devRef (τ := τ) .tc)).toFinset := by
  simp only [segG3, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpG3 (X : Valuation τ sig (Elt F)) (r : Ref sig .tc) (hr : r ∉ wsG3) :
    StableHlo.after (segG3 : List (HloOp τ sig (Elt F))) X (Proc.devRef .tc r) = X (Proc.devRef .tc r) :=
  StableHlo.after_of_writes_sub _ X wsG3_sub hr

abbrev wsG4 : List (Ref sig .tc) := [main_v56, main_v57, main_c_11, main_v58, main_v59, main_c_12, main_v60, main_v61, main_v62, main_c_13, main_v63, main_v64, main_v65, main_v66, main_v67, main_v68]
theorem wsG4_sub : (segG4 : List (HloOp τ sig (Elt F))).Forall fun op => op.writes ⊆ (wsG4.map (Proc.devRef (τ := τ) .tc)).toFinset := by
  simp only [segG4, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpG4 (X : Valuation τ sig (Elt F)) (r : Ref sig .tc) (hr : r ∉ wsG4) :
    StableHlo.after (segG4 : List (HloOp τ sig (Elt F))) X (Proc.devRef .tc r) = X (Proc.devRef .tc r) :=
  StableHlo.after_of_writes_sub _ X wsG4_sub hr

abbrev wsG5 : List (Ref sig .tc) := [main_v69, main_v70, main_c_14, main_v71, main_v72, main_c_15, main_v73, main_v74, main_v75, main_c_16, main_v76, main_v77, main_v78, main_v79, main_v80, main_v81]
theorem wsG5_sub : (segG5 : List (HloOp τ sig (Elt F))).Forall fun op => op.writes ⊆ (wsG5.map (Proc.devRef (τ := τ) .tc)).toFinset := by
  simp only [segG5, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpG5 (X : Valuation τ sig (Elt F)) (r : Ref sig .tc) (hr : r ∉ wsG5) :
    StableHlo.after (segG5 : List (HloOp τ sig (Elt F))) X (Proc.devRef .tc r) = X (Proc.devRef .tc r) :=
  StableHlo.after_of_writes_sub _ X wsG5_sub hr

abbrev wsG6 : List (Ref sig .tc) := [main_v82, main_v83, main_c_17, main_v84, main_v85, main_c_18, main_v86, main_v87, main_v88, main_c_19, main_v89, main_v90, main_v91, main_v92, main_v93, main_v94]
theorem wsG6_sub : (segG6 : List (HloOp τ sig (Elt F))).Forall fun op => op.writes ⊆ (wsG6.map (Proc.devRef (τ := τ) .tc)).toFinset := by
  simp only [segG6, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpG6 (X : Valuation τ sig (Elt F)) (r : Ref sig .tc) (hr : r ∉ wsG6) :
    StableHlo.after (segG6 : List (HloOp τ sig (Elt F))) X (Proc.devRef .tc r) = X (Proc.devRef .tc r) :=
  StableHlo.after_of_writes_sub _ X wsG6_sub hr

abbrev wsG7 : List (Ref sig .tc) := [main_v95, main_v96, main_c_20, main_v97, main_v98, main_c_21, main_v99, main_v100, main_v101, main_c_22, main_v102, main_v103, main_v104, main_v105, main_v106, main_v107]
theorem wsG7_sub : (segG7 : List (HloOp τ sig (Elt F))).Forall fun op => op.writes ⊆ (wsG7.map (Proc.devRef (τ := τ) .tc)).toFinset := by
  simp only [segG7, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpG7 (X : Valuation τ sig (Elt F)) (r : Ref sig .tc) (hr : r ∉ wsG7) :
    StableHlo.after (segG7 : List (HloOp τ sig (Elt F))) X (Proc.devRef .tc r) = X (Proc.devRef .tc r) :=
  StableHlo.after_of_writes_sub _ X wsG7_sub hr

abbrev wsS : List (Ref sig .tc) := [main_v108, main_v109, main_v110, main_v111, main_v112, main_v113, main_v114, main_v115, main_v116]
theorem wsS_sub : (segS : List (HloOp τ sig (Elt F))).Forall fun op => op.writes ⊆ (wsS.map (Proc.devRef (τ := τ) .tc)).toFinset := by
  simp only [segS, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpS (X : Valuation τ sig (Elt F)) (r : Ref sig .tc) (hr : r ∉ wsS) :
    StableHlo.after (segS : List (HloOp τ sig (Elt F))) X (Proc.devRef .tc r) = X (Proc.devRef .tc r) :=
  StableHlo.after_of_writes_sub _ X wsS_sub hr

abbrev wsT : List (Ref sig .tc) := [main_cst, main_v117, main_v118, main_v119, main_c_23, main_v120, main_v121, main_c_24, main_v122, main_v123, main_v124, main_v125, main_v126]
theorem wsT_sub : (segT : List (HloOp τ sig (Elt F))).Forall fun op => op.writes ⊆ (wsT.map (Proc.devRef (τ := τ) .tc)).toFinset := by
  simp only [segT, List.Forall, StableHlo.nullary_writes, StableHlo.unary_writes, StableHlo.binary_writes, StableHlo.ternary_writes,
    StableHlo.reshape_writes, StableHlo.nary_writes, Finset.singleton_subset_iff, List.mem_toFinset, List.mem_map]
  repeat' apply And.intro
  all_goals exact ⟨_, by decide, rfl⟩
theorem kpT (X : Valuation τ sig (Elt F)) (r : Ref sig .tc) (hr : r ∉ wsT) :
    StableHlo.after (segT : List (HloOp τ sig (Elt F))) X (Proc.devRef .tc r) = X (Proc.devRef .tc r) :=
  StableHlo.after_of_writes_sub _ X wsT_sub hr

end Segments

/-! ## Each segment read at an arbitrary valuation -/

set_option maxHeartbeats 8000000 in
theorem readR (X : Valuation τ sig (Elt Ideal)) : StableHlo.after segR X (Proc.devRef .tc main_v3)
    = shapeCast S100000x8x64 (X (Proc.devRef .tc main_v2)) shapeCasts_S100000x512_S100000x8x64 := by
  after_results
  rfl

set_option maxHeartbeats 8000000 in
theorem readG0 (X : Valuation τ sig (Elt Ideal)) : StableHlo.after segG0 X (Proc.devRef .tc main_v16)
    = Cert.GatherStage.gatherOne 0 (X (Proc.devRef .tc main_v3)) (X (Proc.devRef .tc main_arg6)) := by
  after_results
  rfl

set_option maxHeartbeats 8000000 in
theorem readG1 (X : Valuation τ sig (Elt Ideal)) : StableHlo.after segG1 X (Proc.devRef .tc main_v29)
    = Cert.GatherStage.gatherOne 1 (X (Proc.devRef .tc main_v3)) (X (Proc.devRef .tc main_arg6)) := by
  after_results
  rfl

set_option maxHeartbeats 8000000 in
theorem readG2 (X : Valuation τ sig (Elt Ideal)) : StableHlo.after segG2 X (Proc.devRef .tc main_v42)
    = Cert.GatherStage.gatherOne 2 (X (Proc.devRef .tc main_v3)) (X (Proc.devRef .tc main_arg6)) := by
  after_results
  rfl

set_option maxHeartbeats 8000000 in
theorem readG3 (X : Valuation τ sig (Elt Ideal)) : StableHlo.after segG3 X (Proc.devRef .tc main_v55)
    = Cert.GatherStage.gatherOne 3 (X (Proc.devRef .tc main_v3)) (X (Proc.devRef .tc main_arg6)) := by
  after_results
  rfl

set_option maxHeartbeats 8000000 in
theorem readG4 (X : Valuation τ sig (Elt Ideal)) : StableHlo.after segG4 X (Proc.devRef .tc main_v68)
    = Cert.GatherStage.gatherOne 4 (X (Proc.devRef .tc main_v3)) (X (Proc.devRef .tc main_arg6)) := by
  after_results
  rfl

set_option maxHeartbeats 8000000 in
theorem readG5 (X : Valuation τ sig (Elt Ideal)) : StableHlo.after segG5 X (Proc.devRef .tc main_v81)
    = Cert.GatherStage.gatherOne 5 (X (Proc.devRef .tc main_v3)) (X (Proc.devRef .tc main_arg6)) := by
  after_results
  rfl

set_option maxHeartbeats 8000000 in
theorem readG6 (X : Valuation τ sig (Elt Ideal)) : StableHlo.after segG6 X (Proc.devRef .tc main_v94)
    = Cert.GatherStage.gatherOne 6 (X (Proc.devRef .tc main_v3)) (X (Proc.devRef .tc main_arg6)) := by
  after_results
  rfl

set_option maxHeartbeats 8000000 in
theorem readG7 (X : Valuation τ sig (Elt Ideal)) : StableHlo.after segG7 X (Proc.devRef .tc main_v107)
    = Cert.GatherStage.gatherOne 7 (X (Proc.devRef .tc main_v3)) (X (Proc.devRef .tc main_arg6)) := by
  after_results
  rfl

set_option maxHeartbeats 4000000 in
theorem readS (X : Valuation τ sig (Elt Ideal)) : StableHlo.after segS X (Proc.devRef .tc main_v116)
    = concatenate S8x100000x64 0 [⟨S1x100000x64, broadcastInDim S1x100000x64 ![1, 2] bcast_S100000x64_S1x100000x64_1_2 (X (Proc.devRef .tc main_v16))⟩,
        ⟨S1x100000x64, broadcastInDim S1x100000x64 ![1, 2] bcast_S100000x64_S1x100000x64_1_2 (X (Proc.devRef .tc main_v29))⟩,
        ⟨S1x100000x64, broadcastInDim S1x100000x64 ![1, 2] bcast_S100000x64_S1x100000x64_1_2 (X (Proc.devRef .tc main_v42))⟩,
        ⟨S1x100000x64, broadcastInDim S1x100000x64 ![1, 2] bcast_S100000x64_S1x100000x64_1_2 (X (Proc.devRef .tc main_v55))⟩,
        ⟨S1x100000x64, broadcastInDim S1x100000x64 ![1, 2] bcast_S100000x64_S1x100000x64_1_2 (X (Proc.devRef .tc main_v68))⟩,
        ⟨S1x100000x64, broadcastInDim S1x100000x64 ![1, 2] bcast_S100000x64_S1x100000x64_1_2 (X (Proc.devRef .tc main_v81))⟩,
        ⟨S1x100000x64, broadcastInDim S1x100000x64 ![1, 2] bcast_S100000x64_S1x100000x64_1_2 (X (Proc.devRef .tc main_v94))⟩,
        ⟨S1x100000x64, broadcastInDim S1x100000x64 ![1, 2] bcast_S100000x64_S1x100000x64_1_2 (X (Proc.devRef .tc main_v107))⟩]
        concatenates_S1x100000x64_S1x100000x64_S1x100000x64_S1x100000x64_S1x100000x64_S1x100000x64_S1x100000x64_S1x100000x64_S8x100000x64_d0 := by
  after_results
  rfl

set_option maxHeartbeats 4000000 in
theorem readT (X : Valuation τ sig (Elt Ideal)) : StableHlo.after segT X (Proc.devRef .tc main_v126)
    = Cert.Spec.scatterStage (X (Proc.devRef .tc main_v116)) (X (Proc.devRef .tc main_arg7)) := by
  after_results
  rfl

/-! ## The reads composed -/

theorem hv3_0 (W : Valuation τ sig (Elt Ideal)) : (StableHlo.after segR W) (Proc.devRef .tc main_v3) = shapeCast S100000x8x64 (W (Proc.devRef .tc main_v2)) shapeCasts_S100000x512_S100000x8x64 :=
  readR W
theorem ha6_0 (W : Valuation τ sig (Elt Ideal)) : (StableHlo.after segR W) (Proc.devRef .tc main_arg6) = W (Proc.devRef .tc main_arg6) :=
  kpR W main_arg6 (by decide)
theorem hv3_1 (W : Valuation τ sig (Elt Ideal)) : (StableHlo.after segG0 (StableHlo.after segR W)) (Proc.devRef .tc main_v3) = shapeCast S100000x8x64 (W (Proc.devRef .tc main_v2)) shapeCasts_S100000x512_S100000x8x64 :=
  (kpG0 _ main_v3 (by decide)).trans (readR W)
theorem ha6_1 (W : Valuation τ sig (Elt Ideal)) : (StableHlo.after segG0 (StableHlo.after segR W)) (Proc.devRef .tc main_arg6) = W (Proc.devRef .tc main_arg6) :=
  (kpG0 _ main_arg6 (by decide)).trans (kpR W main_arg6 (by decide))
theorem hv3_2 (W : Valuation τ sig (Elt Ideal)) : (StableHlo.after segG1 (StableHlo.after segG0 (StableHlo.after segR W))) (Proc.devRef .tc main_v3) = shapeCast S100000x8x64 (W (Proc.devRef .tc main_v2)) shapeCasts_S100000x512_S100000x8x64 :=
  (kpG1 _ main_v3 (by decide)).trans ((kpG0 _ main_v3 (by decide)).trans (readR W))
theorem ha6_2 (W : Valuation τ sig (Elt Ideal)) : (StableHlo.after segG1 (StableHlo.after segG0 (StableHlo.after segR W))) (Proc.devRef .tc main_arg6) = W (Proc.devRef .tc main_arg6) :=
  (kpG1 _ main_arg6 (by decide)).trans ((kpG0 _ main_arg6 (by decide)).trans (kpR W main_arg6 (by decide)))
theorem hv3_3 (W : Valuation τ sig (Elt Ideal)) : (StableHlo.after segG2 (StableHlo.after segG1 (StableHlo.after segG0 (StableHlo.after segR W)))) (Proc.devRef .tc main_v3) = shapeCast S100000x8x64 (W (Proc.devRef .tc main_v2)) shapeCasts_S100000x512_S100000x8x64 :=
  (kpG2 _ main_v3 (by decide)).trans ((kpG1 _ main_v3 (by decide)).trans ((kpG0 _ main_v3 (by decide)).trans (readR W)))
theorem ha6_3 (W : Valuation τ sig (Elt Ideal)) : (StableHlo.after segG2 (StableHlo.after segG1 (StableHlo.after segG0 (StableHlo.after segR W)))) (Proc.devRef .tc main_arg6) = W (Proc.devRef .tc main_arg6) :=
  (kpG2 _ main_arg6 (by decide)).trans ((kpG1 _ main_arg6 (by decide)).trans ((kpG0 _ main_arg6 (by decide)).trans (kpR W main_arg6 (by decide))))
theorem hv3_4 (W : Valuation τ sig (Elt Ideal)) : (StableHlo.after segG3 (StableHlo.after segG2 (StableHlo.after segG1 (StableHlo.after segG0 (StableHlo.after segR W))))) (Proc.devRef .tc main_v3) = shapeCast S100000x8x64 (W (Proc.devRef .tc main_v2)) shapeCasts_S100000x512_S100000x8x64 :=
  (kpG3 _ main_v3 (by decide)).trans ((kpG2 _ main_v3 (by decide)).trans ((kpG1 _ main_v3 (by decide)).trans ((kpG0 _ main_v3 (by decide)).trans (readR W))))
theorem ha6_4 (W : Valuation τ sig (Elt Ideal)) : (StableHlo.after segG3 (StableHlo.after segG2 (StableHlo.after segG1 (StableHlo.after segG0 (StableHlo.after segR W))))) (Proc.devRef .tc main_arg6) = W (Proc.devRef .tc main_arg6) :=
  (kpG3 _ main_arg6 (by decide)).trans ((kpG2 _ main_arg6 (by decide)).trans ((kpG1 _ main_arg6 (by decide)).trans ((kpG0 _ main_arg6 (by decide)).trans (kpR W main_arg6 (by decide)))))
theorem hv3_5 (W : Valuation τ sig (Elt Ideal)) : (StableHlo.after segG4 (StableHlo.after segG3 (StableHlo.after segG2 (StableHlo.after segG1 (StableHlo.after segG0 (StableHlo.after segR W)))))) (Proc.devRef .tc main_v3) = shapeCast S100000x8x64 (W (Proc.devRef .tc main_v2)) shapeCasts_S100000x512_S100000x8x64 :=
  (kpG4 _ main_v3 (by decide)).trans ((kpG3 _ main_v3 (by decide)).trans ((kpG2 _ main_v3 (by decide)).trans ((kpG1 _ main_v3 (by decide)).trans ((kpG0 _ main_v3 (by decide)).trans (readR W)))))
theorem ha6_5 (W : Valuation τ sig (Elt Ideal)) : (StableHlo.after segG4 (StableHlo.after segG3 (StableHlo.after segG2 (StableHlo.after segG1 (StableHlo.after segG0 (StableHlo.after segR W)))))) (Proc.devRef .tc main_arg6) = W (Proc.devRef .tc main_arg6) :=
  (kpG4 _ main_arg6 (by decide)).trans ((kpG3 _ main_arg6 (by decide)).trans ((kpG2 _ main_arg6 (by decide)).trans ((kpG1 _ main_arg6 (by decide)).trans ((kpG0 _ main_arg6 (by decide)).trans (kpR W main_arg6 (by decide))))))
theorem hv3_6 (W : Valuation τ sig (Elt Ideal)) : (StableHlo.after segG5 (StableHlo.after segG4 (StableHlo.after segG3 (StableHlo.after segG2 (StableHlo.after segG1 (StableHlo.after segG0 (StableHlo.after segR W))))))) (Proc.devRef .tc main_v3) = shapeCast S100000x8x64 (W (Proc.devRef .tc main_v2)) shapeCasts_S100000x512_S100000x8x64 :=
  (kpG5 _ main_v3 (by decide)).trans ((kpG4 _ main_v3 (by decide)).trans ((kpG3 _ main_v3 (by decide)).trans ((kpG2 _ main_v3 (by decide)).trans ((kpG1 _ main_v3 (by decide)).trans ((kpG0 _ main_v3 (by decide)).trans (readR W))))))
theorem ha6_6 (W : Valuation τ sig (Elt Ideal)) : (StableHlo.after segG5 (StableHlo.after segG4 (StableHlo.after segG3 (StableHlo.after segG2 (StableHlo.after segG1 (StableHlo.after segG0 (StableHlo.after segR W))))))) (Proc.devRef .tc main_arg6) = W (Proc.devRef .tc main_arg6) :=
  (kpG5 _ main_arg6 (by decide)).trans ((kpG4 _ main_arg6 (by decide)).trans ((kpG3 _ main_arg6 (by decide)).trans ((kpG2 _ main_arg6 (by decide)).trans ((kpG1 _ main_arg6 (by decide)).trans ((kpG0 _ main_arg6 (by decide)).trans (kpR W main_arg6 (by decide)))))))
theorem hv3_7 (W : Valuation τ sig (Elt Ideal)) : (StableHlo.after segG6 (StableHlo.after segG5 (StableHlo.after segG4 (StableHlo.after segG3 (StableHlo.after segG2 (StableHlo.after segG1 (StableHlo.after segG0 (StableHlo.after segR W)))))))) (Proc.devRef .tc main_v3) = shapeCast S100000x8x64 (W (Proc.devRef .tc main_v2)) shapeCasts_S100000x512_S100000x8x64 :=
  (kpG6 _ main_v3 (by decide)).trans ((kpG5 _ main_v3 (by decide)).trans ((kpG4 _ main_v3 (by decide)).trans ((kpG3 _ main_v3 (by decide)).trans ((kpG2 _ main_v3 (by decide)).trans ((kpG1 _ main_v3 (by decide)).trans ((kpG0 _ main_v3 (by decide)).trans (readR W)))))))
theorem ha6_7 (W : Valuation τ sig (Elt Ideal)) : (StableHlo.after segG6 (StableHlo.after segG5 (StableHlo.after segG4 (StableHlo.after segG3 (StableHlo.after segG2 (StableHlo.after segG1 (StableHlo.after segG0 (StableHlo.after segR W)))))))) (Proc.devRef .tc main_arg6) = W (Proc.devRef .tc main_arg6) :=
  (kpG6 _ main_arg6 (by decide)).trans ((kpG5 _ main_arg6 (by decide)).trans ((kpG4 _ main_arg6 (by decide)).trans ((kpG3 _ main_arg6 (by decide)).trans ((kpG2 _ main_arg6 (by decide)).trans ((kpG1 _ main_arg6 (by decide)).trans ((kpG0 _ main_arg6 (by decide)).trans (kpR W main_arg6 (by decide))))))))

theorem hg_0 (W : Valuation τ sig (Elt Ideal)) : (StableHlo.after segG7 (StableHlo.after segG6 (StableHlo.after segG5 (StableHlo.after segG4 (StableHlo.after segG3 (StableHlo.after segG2 (StableHlo.after segG1 (StableHlo.after segG0 (StableHlo.after segR W))))))))) (Proc.devRef .tc main_v16)
    = Cert.GatherStage.gatherOne 0 (shapeCast S100000x8x64 (W (Proc.devRef .tc main_v2)) shapeCasts_S100000x512_S100000x8x64) (W (Proc.devRef .tc main_arg6)) :=
  (kpG7 _ main_v16 (by decide)).trans ((kpG6 _ main_v16 (by decide)).trans ((kpG5 _ main_v16 (by decide)).trans ((kpG4 _ main_v16 (by decide)).trans ((kpG3 _ main_v16 (by decide)).trans ((kpG2 _ main_v16 (by decide)).trans ((kpG1 _ main_v16 (by decide)).trans ((readG0 (StableHlo.after segR W)).trans (by rw [hv3_0, ha6_0]))))))))
theorem hg_1 (W : Valuation τ sig (Elt Ideal)) : (StableHlo.after segG7 (StableHlo.after segG6 (StableHlo.after segG5 (StableHlo.after segG4 (StableHlo.after segG3 (StableHlo.after segG2 (StableHlo.after segG1 (StableHlo.after segG0 (StableHlo.after segR W))))))))) (Proc.devRef .tc main_v29)
    = Cert.GatherStage.gatherOne 1 (shapeCast S100000x8x64 (W (Proc.devRef .tc main_v2)) shapeCasts_S100000x512_S100000x8x64) (W (Proc.devRef .tc main_arg6)) :=
  (kpG7 _ main_v29 (by decide)).trans ((kpG6 _ main_v29 (by decide)).trans ((kpG5 _ main_v29 (by decide)).trans ((kpG4 _ main_v29 (by decide)).trans ((kpG3 _ main_v29 (by decide)).trans ((kpG2 _ main_v29 (by decide)).trans ((readG1 (StableHlo.after segG0 (StableHlo.after segR W))).trans (by rw [hv3_1, ha6_1])))))))
theorem hg_2 (W : Valuation τ sig (Elt Ideal)) : (StableHlo.after segG7 (StableHlo.after segG6 (StableHlo.after segG5 (StableHlo.after segG4 (StableHlo.after segG3 (StableHlo.after segG2 (StableHlo.after segG1 (StableHlo.after segG0 (StableHlo.after segR W))))))))) (Proc.devRef .tc main_v42)
    = Cert.GatherStage.gatherOne 2 (shapeCast S100000x8x64 (W (Proc.devRef .tc main_v2)) shapeCasts_S100000x512_S100000x8x64) (W (Proc.devRef .tc main_arg6)) :=
  (kpG7 _ main_v42 (by decide)).trans ((kpG6 _ main_v42 (by decide)).trans ((kpG5 _ main_v42 (by decide)).trans ((kpG4 _ main_v42 (by decide)).trans ((kpG3 _ main_v42 (by decide)).trans ((readG2 (StableHlo.after segG1 (StableHlo.after segG0 (StableHlo.after segR W)))).trans (by rw [hv3_2, ha6_2]))))))
theorem hg_3 (W : Valuation τ sig (Elt Ideal)) : (StableHlo.after segG7 (StableHlo.after segG6 (StableHlo.after segG5 (StableHlo.after segG4 (StableHlo.after segG3 (StableHlo.after segG2 (StableHlo.after segG1 (StableHlo.after segG0 (StableHlo.after segR W))))))))) (Proc.devRef .tc main_v55)
    = Cert.GatherStage.gatherOne 3 (shapeCast S100000x8x64 (W (Proc.devRef .tc main_v2)) shapeCasts_S100000x512_S100000x8x64) (W (Proc.devRef .tc main_arg6)) :=
  (kpG7 _ main_v55 (by decide)).trans ((kpG6 _ main_v55 (by decide)).trans ((kpG5 _ main_v55 (by decide)).trans ((kpG4 _ main_v55 (by decide)).trans ((readG3 (StableHlo.after segG2 (StableHlo.after segG1 (StableHlo.after segG0 (StableHlo.after segR W))))).trans (by rw [hv3_3, ha6_3])))))
theorem hg_4 (W : Valuation τ sig (Elt Ideal)) : (StableHlo.after segG7 (StableHlo.after segG6 (StableHlo.after segG5 (StableHlo.after segG4 (StableHlo.after segG3 (StableHlo.after segG2 (StableHlo.after segG1 (StableHlo.after segG0 (StableHlo.after segR W))))))))) (Proc.devRef .tc main_v68)
    = Cert.GatherStage.gatherOne 4 (shapeCast S100000x8x64 (W (Proc.devRef .tc main_v2)) shapeCasts_S100000x512_S100000x8x64) (W (Proc.devRef .tc main_arg6)) :=
  (kpG7 _ main_v68 (by decide)).trans ((kpG6 _ main_v68 (by decide)).trans ((kpG5 _ main_v68 (by decide)).trans ((readG4 (StableHlo.after segG3 (StableHlo.after segG2 (StableHlo.after segG1 (StableHlo.after segG0 (StableHlo.after segR W)))))).trans (by rw [hv3_4, ha6_4]))))
theorem hg_5 (W : Valuation τ sig (Elt Ideal)) : (StableHlo.after segG7 (StableHlo.after segG6 (StableHlo.after segG5 (StableHlo.after segG4 (StableHlo.after segG3 (StableHlo.after segG2 (StableHlo.after segG1 (StableHlo.after segG0 (StableHlo.after segR W))))))))) (Proc.devRef .tc main_v81)
    = Cert.GatherStage.gatherOne 5 (shapeCast S100000x8x64 (W (Proc.devRef .tc main_v2)) shapeCasts_S100000x512_S100000x8x64) (W (Proc.devRef .tc main_arg6)) :=
  (kpG7 _ main_v81 (by decide)).trans ((kpG6 _ main_v81 (by decide)).trans ((readG5 (StableHlo.after segG4 (StableHlo.after segG3 (StableHlo.after segG2 (StableHlo.after segG1 (StableHlo.after segG0 (StableHlo.after segR W))))))).trans (by rw [hv3_5, ha6_5])))
theorem hg_6 (W : Valuation τ sig (Elt Ideal)) : (StableHlo.after segG7 (StableHlo.after segG6 (StableHlo.after segG5 (StableHlo.after segG4 (StableHlo.after segG3 (StableHlo.after segG2 (StableHlo.after segG1 (StableHlo.after segG0 (StableHlo.after segR W))))))))) (Proc.devRef .tc main_v94)
    = Cert.GatherStage.gatherOne 6 (shapeCast S100000x8x64 (W (Proc.devRef .tc main_v2)) shapeCasts_S100000x512_S100000x8x64) (W (Proc.devRef .tc main_arg6)) :=
  (kpG7 _ main_v94 (by decide)).trans ((readG6 (StableHlo.after segG5 (StableHlo.after segG4 (StableHlo.after segG3 (StableHlo.after segG2 (StableHlo.after segG1 (StableHlo.after segG0 (StableHlo.after segR W)))))))).trans (by rw [hv3_6, ha6_6]))
theorem hg_7 (W : Valuation τ sig (Elt Ideal)) : (StableHlo.after segG7 (StableHlo.after segG6 (StableHlo.after segG5 (StableHlo.after segG4 (StableHlo.after segG3 (StableHlo.after segG2 (StableHlo.after segG1 (StableHlo.after segG0 (StableHlo.after segR W))))))))) (Proc.devRef .tc main_v107)
    = Cert.GatherStage.gatherOne 7 (shapeCast S100000x8x64 (W (Proc.devRef .tc main_v2)) shapeCasts_S100000x512_S100000x8x64) (W (Proc.devRef .tc main_arg6)) :=
  (readG7 (StableHlo.after segG6 (StableHlo.after segG5 (StableHlo.after segG4 (StableHlo.after segG3 (StableHlo.after segG2 (StableHlo.after segG1 (StableHlo.after segG0 (StableHlo.after segR W))))))))).trans (by rw [hv3_7, ha6_7])

theorem ha7 (W : Valuation τ sig (Elt Ideal)) : (StableHlo.after segS (StableHlo.after segG7 (StableHlo.after segG6 (StableHlo.after segG5 (StableHlo.after segG4 (StableHlo.after segG3 (StableHlo.after segG2 (StableHlo.after segG1 (StableHlo.after segG0 (StableHlo.after segR W)))))))))) (Proc.devRef .tc main_arg7) = W (Proc.devRef .tc main_arg7) :=
  (kpS _ main_arg7 (by decide)).trans ((kpG7 _ main_arg7 (by decide)).trans ((kpG6 _ main_arg7 (by decide)).trans ((kpG5 _ main_arg7 (by decide)).trans ((kpG4 _ main_arg7 (by decide)).trans ((kpG3 _ main_arg7 (by decide)).trans ((kpG2 _ main_arg7 (by decide)).trans ((kpG1 _ main_arg7 (by decide)).trans ((kpG0 _ main_arg7 (by decide)).trans (kpR W main_arg7 (by decide))))))))))

set_option maxHeartbeats 4000000 in
/-- The whole stretch at y, from any valuation. -/
theorem read_y (W : Valuation τ sig (Elt Ideal)) : StableHlo.after hostOps1 W (Proc.devRef .tc main_v126)
    = Cert.Spec.scatterStage (Cert.GatherStage.gatherStage (W (Proc.devRef .tc main_v2)) (W (Proc.devRef .tc main_arg6))) (W (Proc.devRef .tc main_arg7)) := by
  rw [split1]
  simp only [after_append]
  rw [readT, readS, ha7, hg_0, hg_1, hg_2, hg_3, hg_4, hg_5, hg_6, hg_7]
  rfl

variable (m : (ℓ : Loc nD τ sig) → Buf (Elt Ideal) ℓ) (ρ : Dev nD → PrngReg)

/-- After the second stretch the array y is the scatter stage of the gather stage of the first call's product. -/
theorem W3_v126 (c : Dev nD) : W3 m ρ c (Proc.devRef .tc main_v126)
    = Cert.Spec.scatterStage
        (Cert.GatherStage.gatherStage (W2 m ρ c (Proc.devRef .tc main_v2)) (W2 m ρ c (Proc.devRef .tc main_arg6)))
        (W2 m ρ c (Proc.devRef .tc main_arg7)) :=
  read_y (W2 m ρ c)

end Cert.KernelIdeal.HandV

end
-- ==== Proof.LibWeightLayouts.lean ====
/-
  Changes of layout of the weight arrays, read at an index written by coordinates.

  A stack of K matrices of I rows and O columns, with its first two axes exchanged and the last two then merged, is the
  matrix of I rows and K · O columns whose entry at row i and column k · O + o is entry (k, i, o) of the stack. The first
  and the last 64 rows of a matrix of 128 rows are its rows a and 64 + a. A scalar broadcast to any shape reads the
  scalar everywhere. A vector laid out as a one-row matrix reads the vector along that row.
-/
import Idealize.ShloMosaic.PureOps.Ideal
import Idealize.ShloMosaic.Lib.ValueIdx
import Idealize.ShloMosaic.Lib.ValueLayout
import Idealize.ShloMosaic.Lib.Pipeline.Value

namespace Cert.LibWeightLayouts

open Idealize.ShloMosaic Idealize.ShloMosaic.ValueIdx

variable {α : Type}

/-- A stack [K, I, O] with the first two axes exchanged, then cast to [I, N] with N = K · O, reads at row i and column c,
    where c = k · O + o, the stack's entry (k, i, o): the cast keeps the row-major position, and
    (i · K + k) · O + o = i · (K · O) + (k · O + o). -/
theorem flatten_apply_gen {K I O N : ℕ} (W : (⟨3, ![K, I, O]⟩ : Shape).Idx → α)
    (h1 : (⟨3, ![K, I, O]⟩ : Shape).Transposes [1, 0, 2] ⟨3, ![I, K, O]⟩)
    (h2 : (⟨3, ![I, K, O]⟩ : Shape).ShapeCasts ⟨2, ![I, N]⟩) (hN : N = K * O)
    (i : Fin I) (k : Fin K) (o : Fin O) (c : Fin N) (hc : c.val = k.val * O + o.val) :
    shapeCast ⟨2, ![I, N]⟩ (transpose ⟨3, ![I, K, O]⟩ [1, 0, 2] W h1) h2 (ix2 i c) = W (ix3 k i o) := by
  refine (shapeCast_apply _ h2 (ix2 i c) (ix3 i k o) ?_).trans ?_
  · rw [Shape.rowMajor_val_three, Shape.rowMajor_val_two]
    show (i.val * K + k.val) * O + o.val = i.val * N + c.val
    rw [hc, hN]; ring
  · exact transpose_apply _ W h1 _ _ fun b => match b with | ⟨0, _⟩ => rfl | ⟨1, _⟩ => rfl | ⟨2, _⟩ => rfl

/-- The 8 weight matrices of 128 rows and 64 columns, flattened to one matrix of 128 rows and 512 columns: the entry at
    row i and column k · 64 + o is entry (k, i, o) of the stack. -/
theorem flatten_apply (W : (⟨3, ![8, 128, 64]⟩ : Shape).Idx → α)
    (h1 : (⟨3, ![8, 128, 64]⟩ : Shape).Transposes [1, 0, 2] ⟨3, ![128, 8, 64]⟩)
    (h2 : (⟨3, ![128, 8, 64]⟩ : Shape).ShapeCasts ⟨2, ![128, 512]⟩) (i : Fin 128) (k : Fin 8) (o : Fin 64) :
    shapeCast ⟨2, ![128, 512]⟩ (transpose ⟨3, ![128, 8, 64]⟩ [1, 0, 2] W h1) h2
        (ix2 i (⟨k.val * 64 + o.val, by omega⟩ : Fin 512)) = W (ix3 k i o) :=
  flatten_apply_gen W h1 h2 (by norm_num) i k o _ rfl

/-- The first 64 rows of a matrix of 128 rows: row a of the cut is row a of the matrix. -/
theorem rows_lo_apply (Wf : (⟨2, ![128, 64]⟩ : Shape).Idx → α)
    (h : (⟨2, ![128, 64]⟩ : Shape).Slices ![0, 0] ⟨2, ![64, 64]⟩) (a b : Fin 64) :
    extractStridedSlice ⟨2, ![64, 64]⟩ ![0, 0] Wf h (ix2 a b) = Wf (ix2 (⟨a.val, by omega⟩ : Fin 128) b) :=
  slice2_axis0_apply 0 Wf h a b _ (Nat.zero_add _).symm

/-- The last 64 rows of a matrix of 128 rows: row a of the cut is row 64 + a of the matrix. -/
theorem rows_hi_apply (Wf : (⟨2, ![128, 64]⟩ : Shape).Idx → α)
    (h : (⟨2, ![128, 64]⟩ : Shape).Slices ![64, 0] ⟨2, ![64, 64]⟩) (a b : Fin 64) :
    extractStridedSlice ⟨2, ![64, 64]⟩ ![64, 0] Wf h (ix2 a b) = Wf (ix2 (⟨64 + a.val, by omega⟩ : Fin 128) b) :=
  slice2_axis0_apply 64 Wf h a b _ rfl

/-- A scalar broadcast to any shape reads, at every index, the scalar. -/
theorem bcast_scalar_apply {s : Shape} (h : (⟨0, ![]⟩ : Shape).BroadcastsInDim s (![] : Fin 0 → Fin s.rank))
    (x : (⟨0, ![]⟩ : Shape).Idx → α) (i : s.Idx) : broadcastInDim s ![] h x i = x ix0 := by
  unfold broadcastInDim
  exact congrArg x (funext fun a => a.elim0)

/-- A vector of 64 entries laid out as a matrix of one row reads, at column j of that row, entry j of the vector. -/
theorem row_of_vec_apply (g : (⟨1, ![64]⟩ : Shape).Idx → α) (h : (⟨1, ![64]⟩ : Shape).ShapeCasts ⟨2, ![1, 64]⟩)
    (j : Fin 64) : shapeCast ⟨2, ![1, 64]⟩ g h (ix2 (0 : Fin 1) j) = g (ix1 j) :=
  shapeCast_a_1a_apply g h 0 j

end Cert.LibWeightLayouts
-- ==== Proof.KV.ValA.lean ====
/-
  The array y the second and third pallas_call read, as a function of the program's arguments.
  An argument array keeps its launch contents through the host stretches and calls that do not write it. The first
  call's product is the whole product of x with the flattened weights; gathering from it at (row (k, p), k * 64 + o)
  gives the sum over i of x (row (k, p), i) * W (k, i, o), the contribution the reference computes by gathering
  first; so y is the scatter stage of the contributions.
-/
import proofs.«119201_j83674552861285_2_alg».proof.Proof.KI.Run
import proofs.«119201_j83674552861285_2_alg».proof.Proof.KV.Val0
import proofs.«119201_j83674552861285_2_alg».proof.Proof.KV.HostA
import proofs.«119201_j83674552861285_2_alg».proof.Proof.KV.HostB
import proofs.«119201_j83674552861285_2_alg».proof.Proof.GatherStage
import proofs.«119201_j83674552861285_2_alg».proof.Proof.Spec
import proofs.«119201_j83674552861285_2_alg».proof.Proof.LibWeightLayouts

set_option maxRecDepth 16384

noncomputable section

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

open Idealize.ShloMosaic.StableHlo
variable (m : (ℓ : Loc nD τ sig) → Buf (Elt Ideal) ℓ) (ρ : Dev nD → PrngReg) (c : Dev nD)

/-! ## Arguments at the intermediate boundaries -/

theorem at1 (r : Ref sig .tc) (h0 : r ∉ wr0) : W1 m ρ c (Proc.devRef .tc r) = m ((c : Thread nD τ).loc r) :=
  keep0 _ r h0
theorem at2 (r : Ref sig .tc) (h0 : r ∉ wr0) (n0 : ∀ w, Pipeline.arrRef spec0 w ≠ r) :
    W2 m ρ c (Proc.devRef .tc r) = m ((c : Thread nD τ).loc r) :=
  (W2_of_ne m ρ c r n0).trans (at1 m ρ c r h0)
theorem at3 (r : Ref sig .tc) (h0 : r ∉ wr0) (n0 : ∀ w, Pipeline.arrRef spec0 w ≠ r) (h1 : r ∉ wr1) :
    W3 m ρ c (Proc.devRef .tc r) = m ((c : Thread nD τ).loc r) :=
  (keep1 _ r h1).trans (at2 m ρ c r h0 n0)
theorem at4 (r : Ref sig .tc) (h0 : r ∉ wr0) (n0 : ∀ w, Pipeline.arrRef spec0 w ≠ r) (h1 : r ∉ wr1)
    (n1 : ∀ w, Pipeline.arrRef spec1 w ≠ r) : W4 m ρ c (Proc.devRef .tc r) = m ((c : Thread nD τ).loc r) :=
  (W4_of_ne m ρ c r n1).trans (at3 m ρ c r h0 n0 h1)
theorem at5 (r : Ref sig .tc) (h0 : r ∉ wr0) (n0 : ∀ w, Pipeline.arrRef spec0 w ≠ r) (h1 : r ∉ wr1)
    (n1 : ∀ w, Pipeline.arrRef spec1 w ≠ r) (h2 : r ∉ wr2) : W5 m ρ c (Proc.devRef .tc r) = m ((c : Thread nD τ).loc r) :=
  (keep2 _ r h2).trans (at4 m ρ c r h0 n0 h1 n1)

/-! ## The arguments, typed as arrays on the extended reals -/

abbrev aX : FVec Ideal S100000x128 .f32 := m ((c : Thread nD τ).loc main_arg0)
abbrev aSkip : FVec Ideal S400000x64 .f32 := m ((c : Thread nD τ).loc main_arg1)
abbrev aW : FVec Ideal S8x128x64 .f32 := m ((c : Thread nD τ).loc main_arg2)
abbrev aGamma : FVec Ideal S64 .f32 := m ((c : Thread nD τ).loc main_arg3)
abbrev aBeta : FVec Ideal S64 .f32 := m ((c : Thread nD τ).loc main_arg4)
abbrev aWf : FVec Ideal S128x64 .f32 := m ((c : Thread nD τ).loc main_arg5)
abbrev aIdx : IVec S8x100000 32 := m ((c : Thread nD τ).loc main_arg6)
abbrev aOidx : IVec S8x100000 32 := m ((c : Thread nD τ).loc main_arg7)

/-- The flattened weights. -/
abbrev wFlat : FVec Ideal S128x512 .f32 :=
  shapeCast S128x512 (transpose S128x8x64 [1, 0, 2] (aW m c) transposes_S8x128x64_S128x8x64_1_0_2) shapeCasts_S128x8x64_S128x512

/-- The first call's product is the whole product of x with the flattened weights. -/
theorem W2_v2 : W2 m ρ c (Proc.devRef .tc main_v2) = MM (aX m c) (wFlat m c) := by
  refine (W2_arr m ρ c 2).trans ((final0 (V1 m ρ) c).trans ?_)
  show MM (W1 m ρ c (Proc.devRef .tc main_arg0)) (W1 m ρ c (Proc.devRef .tc main_v1)) = _
  rw [at1 m ρ c main_arg0 (by decide), W1_v1]

/-- Gathering from the product gives the contributions. -/
theorem gather_eq_contrib :
    Cert.GatherStage.gatherStage (MM (aX m c) (wFlat m c)) (aIdx m c) = Cert.Spec.contrib (aX m c) (aW m c) (aIdx m c) := by
  funext j
  obtain ⟨k, p, o, rfl⟩ : ∃ (k : Fin 8) (p : Fin 100000) (o : Fin 64), j = ix3 k p o := ⟨j 0, j 1, j 2, eq_ix3 j⟩
  rw [Cert.GatherStage.gatherStage_apply, Cert.Spec.contrib_apply, MM_apply]
  refine Finset.sum_congr rfl fun i _ => ?_
  refine congrArg₂ (· * ·) rfl ?_
  exact Cert.LibWeightLayouts.flatten_apply (aW m c) transposes_S8x128x64_S128x8x64_1_0_2 shapeCasts_S128x8x64_S128x512 i k o

/-- THE ARRAY y: the scatter stage of the contributions. -/
theorem W3_y : W3 m ρ c (Proc.devRef .tc main_v126)
    = Cert.Spec.scatterStage (Cert.Spec.contrib (aX m c) (aW m c) (aIdx m c)) (aOidx m c) := by
  rw [W3_v126, W2_v2, at2 m ρ c main_arg6 (by decide) (by decide), at2 m ρ c main_arg7 (by decide) (by decide)]
  exact congrArg (fun C => Cert.Spec.scatterStage C (aOidx m c)) (gather_eq_contrib m c)

end Cert.KernelIdeal.HandV

end
-- ==== Proof.LibColSum.lean ====
/-
  A sum over the FIRST axis of a matrix, read at an index written by coordinates.

  A `vector.multi_reduction <add>` over axis 0 of an array `[a, b]`, started from the neutral word, read on the extended
  reals at column `o`, is the sum over the rows `k` of the entry `(k, o)`: the library reads such a reduction as a sum
  over the dropped axis of the source at the reduced index with the dropped coordinate put back, and for the first of
  two axes that index is `(k, o)`.
-/
import Idealize.ShloMosaic.PureOps.Ideal.Laws
import Idealize.ShloMosaic.Lib.ValueIdx

namespace Cert.LibColSum

open Idealize.ShloMosaic Idealize.ShloMosaic.ValueIdx

variable {a b : ℕ}

/-- The reduced index `o` with the row `k` put back is `(k, o)`. -/
theorem lift_col (h : (⟨2, ![a, b]⟩ : Shape).Reduces [0] ⟨1, ![b]⟩) (o : Fin b) (k : Fin a) :
    h.lift (ix1 o) k = ix2 k o :=
  funext fun c => Fin.ext (by
    match c with
    | ⟨0, _⟩ => rfl
    | ⟨1, _⟩ => rfl)

/-- A matrix summed over its first axis from the neutral word, at column `o`: `∑ k, v (k, o)`. -/
theorem colSum_apply {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (o : Fin b) :
    multiReduction .add [0] ⟨1, ![b]⟩ src acc h hφ hacc (ix1 o) = ∑ k : Fin a, src (ix2 k o) :=
  (Ideal.multiReduction_add_single src acc h hφ hacc (ix1 o)).trans
    (Finset.sum_congr rfl fun k _ => congrArg src (lift_col h o k))

end Cert.LibColSum
-- ==== Proof.LibBlockSum.lean ====
/-
  Summing a sequence block by block.

  A sequence of n * w terms of an additive commutative monoid is cut into n consecutive blocks of w terms: block j holds
  the terms at positions j * w + k for k below w. The running total that starts from zero and adds one block's sum after
  another, nested to the left as ((0 + B0) + B1) + ..., ends at the sum of the whole sequence: every position below n * w
  is j * w + k for exactly one pair (j, k), so the sum over the positions is the sum over the pairs, block by block.
  The instance for four blocks of 1024 terms of a sequence of 4096 terms is stated with literal sizes.
-/
import Mathlib.Algebra.BigOperators.Fin

namespace Cert.BlockSum

open scoped BigOperators

variable {M : Type*} [AddCommMonoid M]

/-- Position k of block j lies in the sequence: j * w + k is below n * w when j is below n and k below w. -/
theorem idx_lt {n w : ℕ} (j : Fin n) (k : Fin w) : j.val * w + k.val < n * w :=
  calc j.val * w + k.val < j.val * w + w := Nat.add_lt_add_left k.isLt _
    _ = (j.val + 1) * w := (Nat.succ_mul _ _).symm
    _ ≤ n * w := Nat.mul_le_mul_right _ j.isLt

/-- The sum of block j: the w terms at positions j * w + k. -/
def blockSum (w : ℕ) {n : ℕ} (f : Fin (n * w) → M) (j : Fin n) : M :=
  ∑ k : Fin w, f ⟨j.val * w + k.val, idx_lt j k⟩

/-- The running total after the first m blocks, accumulated block by block from zero and nested to the left:
    ((0 + B0) + B1) + ... -/
def accBlocks (w : ℕ) {n : ℕ} (f : Fin (n * w) → M) : (m : ℕ) → m ≤ n → M
  | 0, _ => 0
  | m + 1, h => accBlocks w f m (Nat.le_of_succ_le h) + blockSum w f ⟨m, h⟩

/-- The running total after m blocks is the sum of the first m blocks' sums. -/
theorem accBlocks_eq_sum (w : ℕ) {n : ℕ} (f : Fin (n * w) → M) :
    ∀ (m : ℕ) (h : m ≤ n), accBlocks w f m h = ∑ j : Fin m, blockSum w f ⟨j.val, Nat.lt_of_lt_of_le j.isLt h⟩
  | 0, _ => (Finset.sum_empty).symm
  | m + 1, h => by
    rw [accBlocks, accBlocks_eq_sum w f m (Nat.le_of_succ_le h), Fin.sum_univ_castSucc]
    rfl

/-- The blocks' sums add up to the sum of the whole sequence: the positions below n * w are the pairs (block, place in
    the block). -/
theorem sum_blockSum (w : ℕ) {n : ℕ} (f : Fin (n * w) → M) : ∑ j : Fin n, blockSum w f j = ∑ t : Fin (n * w), f t := by
  rw [← Equiv.sum_comp finProdFinEquiv f, Fintype.sum_prod_type]
  refine Finset.sum_congr rfl fun j _ => Finset.sum_congr rfl fun k _ => congrArg f (Fin.ext ?_)
  show j.val * w + k.val = k.val + w * j.val
  rw [Nat.add_comm, Nat.mul_comm]

/-- Accumulating all n blocks from zero gives the sum of the whole sequence. -/
theorem accBlocks_all (w : ℕ) {n : ℕ} (f : Fin (n * w) → M) : accBlocks w f n le_rfl = ∑ t : Fin (n * w), f t :=
  (accBlocks_eq_sum w f n le_rfl).trans (sum_blockSum w f)

/-! ## Four blocks of 1024 terms -/

/-- The sum of block j of a sequence of 4096 terms cut into four blocks of 1024: the terms at positions j * 1024 + k. -/
def blockSum4 (f : Fin 4096 → M) (j : Fin 4) : M :=
  ∑ k : Fin 1024, f ⟨j.val * 1024 + k.val, by have := j.isLt; have := k.isLt; omega⟩

/-- With the literal sizes, a block's sum is the general one (4 * 1024 is 4096). -/
theorem blockSum4_eq (f : Fin 4096 → M) (j : Fin 4) : blockSum4 f j = blockSum 1024 (n := 4) f j := rfl

/-- The four blocks' sums, accumulated from zero and nested to the left, are the sum of all 4096 terms. -/
theorem sum_four_blocks (f : Fin 4096 → M) :
    (((0 + blockSum4 f 0) + blockSum4 f 1) + blockSum4 f 2) + blockSum4 f 3 = ∑ t : Fin 4096, f t := by
  rw [zero_add, blockSum4_eq, blockSum4_eq, blockSum4_eq, blockSum4_eq]
  exact (Fin.sum_univ_four (fun j : Fin 4 => blockSum 1024 (n := 4) f j)).symm.trans (sum_blockSum 1024 (n := 4) f)

end Cert.BlockSum
-- ==== Proof.KV.Val1.lean ====
/-
  The second pallas_call's two output arrays as functions of the array y it was entered with.
  The first case of the body leaves zero + the block's column sums, the second what was there + the block's
  column sums (and the same with squares for the second output). So after point n the two staging buffers hold the
  left-nested running sums over blocks 0..n, by induction on n. The one write-back, after the last point, covers each
  1 by 64 output array. On the extended reals the running sum over all twenty blocks of 20000 rows is the sum over
  all 400000 rows: entry (0, o) of the first output is the zero word plus the sum over v of y (v, o), of the second
  the zero word plus the sum over v of y (v, o) * y (v, o).
-/
import proofs.«119201_j83674552861285_2_alg».proof.Proof.KI.Region1
import proofs.«119201_j83674552861285_2_alg».proof.Proof.LibColSum
import proofs.«119201_j83674552861285_2_alg».proof.Proof.LibBlockSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

open Idealize.ShloMosaic.Tactic

section Generic
variable {F : FTy → Type} [FloatOps F]

theorem hz1 : (![0, 0] : Fin 2 → Nat) = fun _ => 0 := funext fun a => by fin_cases a <;> rfl

/-- A LATER point's values: each output's one covering store, over what the buffer held. -/
theorem out_B_1 (c : Dev nD) (i : grid1.Coords) (a1 : Memref sig .tc .vmem S20000x64 .f32) (h1 : a1.IsWhole) (a2 : Memref sig .tc .vmem S1x64 .f32) (h2 : a2.IsWhole) (a3 : Memref sig .tc .vmem S1x64 .f32) (h3 : a3.IsWhole) (hc : ¬cond1 i) (x : Vec F S20000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz1]
  simp only [View.readAt_eq_ld, h1.read_unread, h2.read_unread, h3.read_unread, View.ld_unit_zero (S := S20000x64) hz1, View.ld_unit_zero (S := S1x64) hz1]
theorem out_B_2 (c : Dev nD) (i : grid1.Coords) (a1 : Memref sig .tc .vmem S20000x64 .f32) (h1 : a1.IsWhole) (a2 : Memref sig .tc .vmem S1x64 .f32) (h2 : a2.IsWhole) (a3 : Memref sig .tc .vmem S1x64 .f32) (h3 : a3.IsWhole) (hc : ¬cond1 i) (x : Vec F S20000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz1]
  simp only [View.readAt_eq_ld, h1.read_unread, h2.read_unread, h3.read_unread, View.ld_unit_zero (S := S20000x64) hz1, View.ld_unit_zero (S := S1x64) hz1]

/-- The FIRST point's values: the zero row is stored, read back, and the block's sums are added to it. -/
theorem out_A_1 (c : Dev nD) (i : grid1.Coords) (a1 : Memref sig .tc .vmem S20000x64 .f32) (h1 : a1.IsWhole) (a2 : Memref sig .tc .vmem S1x64 .f32) (h2 : a2.IsWhole) (a3 : Memref sig .tc .vmem S1x64 .f32) (h3 : a3.IsWhole) (hc : cond1 i) (x : Vec F S20000x64 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz1, View.readCov_unit_zero (S := S1x64) _ hz1]
  simp only [View.readAt_eq_ld, h1.read_unread, View.ld_unit_zero (S := S20000x64) hz1, View.ld_unit_zero (S := S1x64) hz1]
theorem out_A_2 (c : Dev nD) (i : grid1.Coords) (a1 : Memref sig .tc .vmem S20000x64 .f32) (h1 : a1.IsWhole) (a2 : Memref sig .tc .vmem S1x64 .f32) (h2 : a2.IsWhole) (a3 : Memref sig .tc .vmem S1x64 .f32) (h3 : a3.IsWhole) (hc : cond1 i) (x : Vec F S20000x64 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz1, View.readCov_unit_zero (S := S1x64) _ hz1]
  simp only [View.readAt_eq_ld, h1.read_unread, View.ld_unit_zero (S := S20000x64) hz1, View.ld_unit_zero (S := S1x64) hz1]

variable (V : (c : Dev nD) → (b : Ref sig .tc) → Buf (Elt F) ((c : Thread nD τ).loc b))

/-- The running contents of the two buffers after point `n`: from the zero rows, one step per block. -/
def chain1 (c : Dev nD) : (n : ℕ) → n < cfg1.N → Vec F S1x64 .f32 × Vec F S1x64 .f32
  | 0, h => (k1_pay4 (iblk1 V c 0 ⟨0, h⟩) (k1_pay1 (F := F)), k1_pay5 (iblk1 V c 0 ⟨0, h⟩) (k1_pay2 (F := F)))
  | n + 1, h => (k1_pay4 (iblk1 V c 0 ⟨n + 1, h⟩) (chain1 c n (Nat.lt_of_succ_lt h)).1,
                 k1_pay5 (iblk1 V c 0 ⟨n + 1, h⟩) (chain1 c n (Nat.lt_of_succ_lt h)).2)

/-- What the buffers hold after point `n` IS the running contents: by induction on the point. -/
theorem outsAt_eq (c : Dev nD) : ∀ (n : ℕ) (h : n < cfg1.N), outsAt1 V c n h = chain1 V c n h
  | 0, h => by
    rw [outsAt1_A V c ⟨0, h⟩ rfl, out_A_1, out_A_2]
    rfl
  | n + 1, h => by
    have hN : cfg1.N = 20 := N_1
    have hB : ¬(⟨n + 1, h⟩ : Fin cfg1.N).val % 20 = 0 := by dsimp only; omega
    rw [outsAt1_B V c ⟨n + 1, h⟩ hB, out_B_1, out_B_2]
    show (k1_pay4 _ (outsAt1 V c n _).1, k1_pay5 _ (outsAt1 V c n _).2) = _
    rw [outsAt_eq c n]
    rfl

/-- The last point. -/
abbrev t19 : Fin cfg1.N := ⟨19, by rw [show cfg1.N = 20 from N_1]; decide⟩

/-- The two results: the running contents after the last point. -/
abbrev res1 (c : Dev nD) : Buf (Elt F) ((c : Thread nD τ).loc main_v127_0) := (chain1 V c 19 t19.isLt).1
abbrev res2 (c : Dev nD) : Buf (Elt F) ((c : Thread nD τ).loc main_v127_1) := (chain1 V c 19 t19.isLt).2

/-- The one write-back of each output, after the last point, writes the result: block (0, 0) of a 1 by 64 array read
    through zero offsets is the array. -/
theorem flushed1_1_eq (c : Dev nD) (t : Fin cfg1.N) (hf : (cfg1.win 1).flush t = true) :
    (dat1 V c).flushed 1 t = ((cfg1.win 1).blk t).view.read (Elt F) (res1 V c) := by
  have hN : cfg1.N = 20 := N_1
  have h3 : t.val = 19 := by have := (flush1_1 t).mp hf; have := t.isLt; omega
  obtain rfl : t = t19 := Fin.ext h3
  show (cfg1.win 1).cut (grid1.coords t19) ((dat1 V c).after 1 t19) = _
  rw [after1_1, outsAt_eq]
  have hz' : (fun a => win1_1.index t19 a * main_v127_0.ty.shape.size a) = fun _ => 0 := funext fun a => by fin_cases a <;> decide +kernel
  exact (Memref.read_access_unit_zero (Elt F) main_v127_0 hz' (fun a => by rw [congrFun hz' a]; simp) (res1 V c)).symm
theorem flushed1_2_eq (c : Dev nD) (t : Fin cfg1.N) (hf : (cfg1.win 2).flush t = true) :
    (dat1 V c).flushed 2 t = ((cfg1.win 2).blk t).view.read (Elt F) (res2 V c) := by
  have hN : cfg1.N = 20 := N_1
  have h3 : t.val = 19 := by have := (flush1_2 t).mp hf; have := t.isLt; omega
  obtain rfl : t = t19 := Fin.ext h3
  show (cfg1.win 2).cut (grid1.coords t19) ((dat1 V c).after 2 t19) = _
  rw [after1_2, outsAt_eq]
  have hz' : (fun a => win1_2.index t19 a * main_v127_1.ty.shape.size a) = fun _ => 0 := funext fun a => by fin_cases a <;> decide +kernel
  exact (Memref.read_access_unit_zero (Elt F) main_v127_1 hz' (fun a => by rw [congrFun hz' a]; simp) (res2 V c)).symm

/-- So each output array ends holding the running contents after the last point. -/
theorem final1_1 (c : Dev nD) : (dat1 V c).arrAt 1 cfg1.N = res1 V c :=
  (dat1 V c).arrAt_eq_of_cover 1 (res1 V c) (flushed1_1_eq V c) fun i =>
    ⟨t19, (flush1_1 t19).mpr rfl, by
      show i ∈ ((View.whole main_v127_0).slice (win1_1.rect t19)).set
      rw [View.set_slice_whole, Rect.mem_set_unit]
      intro a
      have h0 : (i 0 : Nat) < 1 := (i 0).isLt
      have h1 : (i 1 : Nat) < 64 := (i 1).isLt
      match a with
      | ⟨0, _⟩ => show win1_1.index t19 0 * win1_1.size 0 ≤ (i 0 : Nat) ∧ (i 0 : Nat) < win1_1.index t19 0 * win1_1.size 0 + win1_1.xsize (grid1.coords t19) 0
                  rw [show win1_1.index t19 0 * win1_1.size 0 = 0 from by decide +kernel, show win1_1.xsize (grid1.coords t19) 0 = 1 from by decide +kernel]; omega
      | ⟨1, _⟩ => show win1_1.index t19 1 * win1_1.size 1 ≤ (i 1 : Nat) ∧ (i 1 : Nat) < win1_1.index t19 1 * win1_1.size 1 + win1_1.xsize (grid1.coords t19) 1
                  rw [show win1_1.index t19 1 * win1_1.size 1 = 0 from by decide +kernel, show win1_1.xsize (grid1.coords t19) 1 = 64 from by decide +kernel]; omega⟩
theorem final1_2 (c : Dev nD) : (dat1 V c).arrAt 2 cfg1.N = res2 V c :=
  (dat1 V c).arrAt_eq_of_cover 2 (res2 V c) (flushed1_2_eq V c) fun i =>
    ⟨t19, (flush1_2 t19).mpr rfl, by
      show i ∈ ((View.whole main_v127_1).slice (win1_2.rect t19)).set
      rw [View.set_slice_whole, Rect.mem_set_unit]
      intro a
      have h0 : (i 0 : Nat) < 1 := (i 0).isLt
      have h1 : (i 1 : Nat) < 64 := (i 1).isLt
      match a with
      | ⟨0, _⟩ => show win1_2.index t19 0 * win1_2.size 0 ≤ (i 0 : Nat) ∧ (i 0 : Nat) < win1_2.index t19 0 * win1_2.size 0 + win1_2.xsize (grid1.coords t19) 0
                  rw [show win1_2.index t19 0 * win1_2.size 0 = 0 from by decide +kernel, show win1_2.xsize (grid1.coords t19) 0 = 1 from by decide +kernel]; omega
      | ⟨1, _⟩ => show win1_2.index t19 1 * win1_2.size 1 ≤ (i 1 : Nat) ∧ (i 1 : Nat) < win1_2.index t19 1 * win1_2.size 1 + win1_2.xsize (grid1.coords t19) 1
                  rw [show win1_2.index t19 1 * win1_2.size 1 = 0 from by decide +kernel, show win1_2.xsize (grid1.coords t19) 1 = 64 from by decide +kernel]; omega⟩

end Generic

section AtIdeal
variable (V : (c : Dev nD) → (b : Ref sig .tc) → Buf (Elt Ideal) ((c : Thread nD τ).loc b))

/-- One step of the sum row at `(0, o)`: what was there plus the block's column sum. -/
theorem pay4_apply (x : Vec Ideal S20000x64 .f32) (a : Vec Ideal S1x64 .f32) (o : Fin 64) :
    k1_pay4 (F := Ideal) x a (ix2 (0 : Fin 1) o) = a (ix2 (0 : Fin 1) o) + ∑ r : Fin 20000, x (ix2 r o) := by
  unfold k1_pay4 k1_pay3
  rw [addf_apply, shapeCast_self, shapeCast_a_1a_apply]
  refine congrArg₂ (· + ·) rfl ?_
  refine (Cert.LibColSum.colSum_apply (a := 20000) (b := 64) _ 0x00000000#32 reduces_S20000x64_S64 (.inl rfl) rfl o).trans ?_
  rw [shapeCast_self]

/-- One step of the sum-of-squares row at `(0, o)`. -/
theorem pay5_apply (x : Vec Ideal S20000x64 .f32) (a : Vec Ideal S1x64 .f32) (o : Fin 64) :
    k1_pay5 (F := Ideal) x a (ix2 (0 : Fin 1) o) = a (ix2 (0 : Fin 1) o) + ∑ r : Fin 20000, x (ix2 r o) * x (ix2 r o) := by
  unfold k1_pay5 k1_pay3
  rw [addf_apply, shapeCast_self, shapeCast_a_1a_apply]
  refine congrArg₂ (· + ·) rfl ?_
  refine (Cert.LibColSum.colSum_apply (a := 20000) (b := 64) _ 0x00000000#32 reduces_S20000x64_S64 (.inl rfl) rfl o).trans ?_
  refine Finset.sum_congr rfl fun r _ => ?_
  rw [mulf_apply, shapeCast_self]

/-- The input window's block index over the grid: row block `t`. -/
theorem idx_facts1 : ∀ t : Fin cfg1.N, win1_0.index t (0 : Fin 2) = t.val ∧ win1_0.index t (1 : Fin 2) = 0 :=
  (by decide +kernel : ∀ t : Fin grid1.N, _)

/-- Block `t` of y at `(r, o)` is y at row `20000 t + r`. -/
theorem iblk1_apply (c : Dev nD) (t : Fin cfg1.N) (r : Fin 20000) (o : Fin 64) :
    iblk1 V c 0 t (ix2 r o) = V c main_v126 (ix2 (⟨t.val * 20000 + r.val, by
      have := t.isLt; have hN : cfg1.N = 20 := N_1; have := r.isLt; omega⟩ : Fin 400000) o) := by
  obtain ⟨e0, e1⟩ := idx_facts1 t
  refine congrArg (V c main_v126) ?_
  funext a; apply Fin.ext
  match a with
  | ⟨0, _⟩ => show win1_0.index t (0 : Fin 2) * 20000 + 1 * r.val = t.val * 20000 + r.val; omega
  | ⟨1, _⟩ => show win1_0.index t (1 : Fin 2) * 64 + 1 * o.val = o.val; omega

/-- Column `o` of y as a sequence of 20 blocks of 20000 terms, and its squares. -/
def colF (y : S400000x64.Idx → EReal) (o : Fin 64) : Fin (20 * 20000) → EReal :=
  fun v => y (ix2 (⟨v.val, by have := v.isLt; omega⟩ : Fin 400000) o)
def colF2 (y : S400000x64.Idx → EReal) (o : Fin 64) : Fin (20 * 20000) → EReal :=
  fun v => y (ix2 (⟨v.val, by have := v.isLt; omega⟩ : Fin 400000) o) * y (ix2 (⟨v.val, by have := v.isLt; omega⟩ : Fin 400000) o)

/-- The running contents at `(0, o)` after point `n`: the zero word plus the left-nested total of blocks 0..n. -/
theorem chain_val (c : Dev nD) (o : Fin 64) : ∀ (n : ℕ) (h : n < cfg1.N),
    (chain1 V c n h).1 (ix2 (0 : Fin 1) o) = Ideal.ofBits .f32 0x00000000#32
        + Cert.BlockSum.accBlocks 20000 (colF (V c main_v126) o) (n + 1) (by rw [show cfg1.N = 20 from N_1] at h; omega)
      ∧ (chain1 V c n h).2 (ix2 (0 : Fin 1) o) = Ideal.ofBits .f32 0x00000000#32
        + Cert.BlockSum.accBlocks 20000 (colF2 (V c main_v126) o) (n + 1) (by rw [show cfg1.N = 20 from N_1] at h; omega)
  | 0, h => by
    constructor
    · refine (pay4_apply (iblk1 V c 0 ⟨0, h⟩) (k1_pay1 (F := Ideal)) o).trans ?_
      refine congrArg₂ (· + ·) rfl ?_
      show _ = (0 : EReal) + Cert.BlockSum.blockSum 20000 (colF (V c main_v126) o) ⟨0, _⟩
      rw [zero_add]
      exact Finset.sum_congr rfl fun r _ => iblk1_apply V c ⟨0, h⟩ r o
    · refine (pay5_apply (iblk1 V c 0 ⟨0, h⟩) (k1_pay2 (F := Ideal)) o).trans ?_
      refine congrArg₂ (· + ·) rfl ?_
      show _ = (0 : EReal) + Cert.BlockSum.blockSum 20000 (colF2 (V c main_v126) o) ⟨0, _⟩
      rw [zero_add]
      exact Finset.sum_congr rfl fun r _ => by rw [iblk1_apply V c ⟨0, h⟩ r o]; rfl
  | n + 1, h => by
    obtain ⟨ih1, ih2⟩ := chain_val c o n (Nat.lt_of_succ_lt h)
    constructor
    · refine (pay4_apply (iblk1 V c 0 ⟨n + 1, h⟩) (chain1 V c n (Nat.lt_of_succ_lt h)).1 o).trans ?_
      rw [ih1, add_assoc]
      refine congrArg₂ (· + ·) rfl ?_
      show _ = Cert.BlockSum.accBlocks 20000 (colF (V c main_v126) o) (n + 1) _ + Cert.BlockSum.blockSum 20000 (colF (V c main_v126) o) ⟨n + 1, _⟩
      refine congrArg₂ (· + ·) rfl ?_
      exact Finset.sum_congr rfl fun r _ => iblk1_apply V c ⟨n + 1, h⟩ r o
    · refine (pay5_apply (iblk1 V c 0 ⟨n + 1, h⟩) (chain1 V c n (Nat.lt_of_succ_lt h)).2 o).trans ?_
      rw [ih2, add_assoc]
      refine congrArg₂ (· + ·) rfl ?_
      show _ = Cert.BlockSum.accBlocks 20000 (colF2 (V c main_v126) o) (n + 1) _ + Cert.BlockSum.blockSum 20000 (colF2 (V c main_v126) o) ⟨n + 1, _⟩
      refine congrArg₂ (· + ·) rfl ?_
      exact Finset.sum_congr rfl fun r _ => by rw [iblk1_apply V c ⟨n + 1, h⟩ r o]; rfl

/-- The array y the call was entered with, as a function into the extended reals. -/
abbrev yOf (c : Dev nD) : S400000x64.Idx → EReal := V c main_v126

/-- The sum over the twenty blocks' positions is the sum over the 400000 rows. -/
theorem sum_colF (y : S400000x64.Idx → EReal) (o : Fin 64) : ∑ t : Fin (20 * 20000), colF y o t = ∑ v : Fin 400000, y (ix2 v o) :=
  Fintype.sum_equiv (finCongr (by norm_num)) _ _ (fun t => rfl)
theorem sum_colF2 (y : S400000x64.Idx → EReal) (o : Fin 64) : ∑ t : Fin (20 * 20000), colF2 y o t = ∑ v : Fin 400000, y (ix2 v o) * y (ix2 v o) :=
  Fintype.sum_equiv (finCongr (by norm_num)) _ _ (fun t => rfl)

/-- THE TWO RESULTS at `(0, o)`: the zero word plus the sum of column `o` of y, resp. of its squares, over all rows. -/
theorem res1_apply (c : Dev nD) (o : Fin 64) :
    res1 V c (ix2 (0 : Fin 1) o) = Ideal.ofBits .f32 0x00000000#32 + ∑ v : Fin 400000, yOf V c (ix2 v o) := by
  refine (chain_val V c o 19 t19.isLt).1.trans ?_
  refine congrArg₂ (· + ·) rfl ?_
  exact (Cert.BlockSum.accBlocks_all 20000 (n := 20) (colF (V c main_v126) o)).trans (sum_colF (yOf V c) o)
theorem res2_apply (c : Dev nD) (o : Fin 64) :
    res2 V c (ix2 (0 : Fin 1) o) = Ideal.ofBits .f32 0x00000000#32 + ∑ v : Fin 400000, yOf V c (ix2 v o) * yOf V c (ix2 v o) := by
  refine (chain_val V c o 19 t19.isLt).2.trans ?_
  refine congrArg₂ (· + ·) rfl ?_
  exact (Cert.BlockSum.accBlocks_all 20000 (n := 20) (colF2 (V c main_v126) o)).trans (sum_colF2 (yOf V c) o)

end AtIdeal

end Cert.KernelIdeal.HandV

end
-- ==== Proof.KV.Val2.lean ====
/-
  The third pallas_call's output array, on the extended reals, as one function of the arrays it was entered with.
  Point t works on rows 10000 t .. 10000 t + 9999: entry (v, o) of the output is
    sum over j of max (y (v, j) * scale (0, j) + shift (0, j), 0) * wy (j, o)  +  sum over j of skip (v, j) * ws (j, o).
  The forty blocks tile the output, so this is the whole output array.
-/
import proofs.«119201_j83674552861285_2_alg».proof.Proof.KI.Region2
import proofs.«119201_j83674552861285_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl

/-- The fused value at `(v, o)`. -/
def Fuse (y skip : S400000x64.Idx → EReal) (sc sh : S1x64.Idx → EReal) (wy ws : S64x64.Idx → EReal) : S400000x64.Idx → EReal :=
  fun i => (∑ j : Fin 64, max (y (ix2 (i 0) j) * sc (ix2 (0 : Fin 1) j) + sh (ix2 (0 : Fin 1) j)) (Ideal.ofBits .f32 0x00000000#32) * wy (ix2 j (i 1)))
    + ∑ j : Fin 64, skip (ix2 (i 0) j) * ws (ix2 j (i 1))

theorem Fuse_apply (y skip : S400000x64.Idx → EReal) (sc sh : S1x64.Idx → EReal) (wy ws : S64x64.Idx → EReal) (v : Fin 400000) (o : Fin 64) :
    Fuse y skip sc sh wy ws (ix2 v o)
      = (∑ j : Fin 64, max (y (ix2 v j) * sc (ix2 (0 : Fin 1) j) + sh (ix2 (0 : Fin 1) j)) (Ideal.ofBits .f32 0x00000000#32) * wy (ix2 j o))
        + ∑ j : Fin 64, skip (ix2 v j) * ws (ix2 j o) := rfl

/-- A row `[1, 64]` repeated along 10000 rows, at `(p, j)`. -/
theorem bcastRow_apply [hF : Cert.KernelIdeal.Facts₀] (x : Vec Ideal S1x64 .f32) (p : Fin 10000) (j : Fin 64) :
    broadcastTo S10000x64 (shapeCast S1x64 x shapeCasts_S1x64_S1x64) broadcasts_S1x64_S10000x64 (ix2 p j) = x (ix2 (0 : Fin 1) j) := by
  rw [shapeCast_self]
  exact broadcastTo_1b_ab_apply x broadcasts_S1x64_S10000x64 p j

/-- The body's payload at `(p, q)`. -/
theorem pay2_apply [hF : Cert.KernelIdeal.Facts₀] (x0 x1 : Vec Ideal S10000x64 .f32) (x2 x3 : Vec Ideal S1x64 .f32) (x4 x5 : Vec Ideal S64x64 .f32) (p : Fin 10000) (q : Fin 64) :
    k2_pay1 (F := Ideal) x0 x2 x3 x4 x1 x5 (ix2 p q)
      = (∑ j : Fin 64, max (x0 (ix2 p j) * x2 (ix2 (0 : Fin 1) j) + x3 (ix2 (0 : Fin 1) j)) (Ideal.ofBits .f32 0x00000000#32) * x4 (ix2 j q))
        + ∑ j : Fin 64, x1 (ix2 p j) * x5 (ix2 j q) := by
  unfold k2_pay1
  rw [addf_apply]
  refine congrArg₂ (· + ·) ?_ ?_
  · refine (Cert.LibMatmulPlain.matmul_plain_zero_apply (M := 10000) (K := 64) (N := 64) none _ _ p q).trans ?_
    refine Finset.sum_congr rfl fun j _ => ?_
    rw [shapeCast_self, maximumf_apply, addf_apply, mulf_apply, bcastRow_apply, bcastRow_apply, shapeCast_self]
    rfl
  · refine (Cert.LibMatmulPlain.matmul_plain_zero_apply (M := 10000) (K := 64) (N := 64) none _ _ p q).trans ?_
    refine Finset.sum_congr rfl fun j _ => ?_
    rw [shapeCast_self]

/-- The printed index maps over the grid: the two row-block inputs and the output are row block `t`; the four small
    operands are whole. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- WHAT POINT `t` WRITES BACK is block `t` of the fused value of the arrays the call was entered with. -/
theorem flushed2_eq (c : Dev nD) (t : Fin cfg2.N) :
    (dat2 V c).flushed 6 t = ((cfg2.win 6).blk t).view.read (Elt Ideal)
      (Fuse (V c main_v126) (V c main_arg1) (V c main_v138) (V c main_v141) (V c main_v142) (V c main_v143)) := by
  show (cfg2.win 6).cut (grid2.coords t) ((dat2 V c).after 6 t) = _
  rw [after2_6]
  unfold out2_6
  rw [View.canon_unit_zero hz2]
  simp only [View.ld_unit_zero (S := S10000x64) hz2, View.ld_unit_zero (S := S1x64) hz2, View.ld_unit_zero (S := S64x64) hz2]
  obtain ⟨a0, a1, b0, b1, c0, c1, d0, d1, e0, e1, f0, f1, g0, g1⟩ := idx_facts2 t
  funext j
  obtain ⟨p, q, rfl⟩ : ∃ (p : Fin 10000) (q : Fin 64), j = ix2 p q := ⟨j 0, j 1, eq_ix2 j⟩
  refine (pay2_apply (iblk2 V c 0 t) (iblk2 V c 1 t) (iblk2 V c 2 t) (iblk2 V c 3 t) (iblk2 V c 4 t) (iblk2 V c 5 t) p q).trans ?_
  show _ = Fuse (V c main_v126) (V c main_arg1) (V c main_v138) (V c main_v141) (V c main_v142) (V c main_v143) (((cfg2.win 6).blk t).view.emb (ix2 p q))
  unfold Fuse
  have hy : ∀ k : Fin 64, iblk2 V c 0 t (ix2 p k) = V c main_v126 (ix2 ((((cfg2.win 6).blk t).view.emb (ix2 p q)) 0) k) := fun k =>
    congrArg (V c main_v126) (by
      funext a; apply Fin.ext
      match a with
      | ⟨0, _⟩ => show win2_0.index t (0 : Fin 2) * 10000 + 1 * p.val = win2_6.index t (0 : Fin 2) * 10000 + 1 * p.val; omega
      | ⟨1, _⟩ => show win2_0.index t (1 : Fin 2) * 64 + 1 * k.val = k.val; omega)
  have hs : ∀ k : Fin 64, iblk2 V c 1 t (ix2 p k) = V c main_arg1 (ix2 ((((cfg2.win 6).blk t).view.emb (ix2 p q)) 0) k) := fun k =>
    congrArg (V c main_arg1) (by
      funext a; apply Fin.ext
      match a with
      | ⟨0, _⟩ => show win2_1.index t (0 : Fin 2) * 10000 + 1 * p.val = win2_6.index t (0 : Fin 2) * 10000 + 1 * p.val; omega
      | ⟨1, _⟩ => show win2_1.index t (1 : Fin 2) * 64 + 1 * k.val = k.val; omega)
  have hsc : ∀ k : Fin 64, iblk2 V c 2 t (ix2 (0 : Fin 1) k) = V c main_v138 (ix2 (0 : Fin 1) k) := fun k =>
    congrArg (V c main_v138) (by
      funext a; apply Fin.ext
      match a with
      | ⟨0, _⟩ => show win2_2.index t (0 : Fin 2) * 1 + 1 * 0 = 0; omega
      | ⟨1, _⟩ => show win2_2.index t (1 : Fin 2) * 64 + 1 * k.val = k.val; omega)
  have hsh : ∀ k : Fin 64, iblk2 V c 3 t (ix2 (0 : Fin 1) k) = V c main_v141 (ix2 (0 : Fin 1) k) := fun k =>
    congrArg (V c main_v141) (by
      funext a; apply Fin.ext
      match a with
      | ⟨0, _⟩ => show win2_3.index t (0 : Fin 2) * 1 + 1 * 0 = 0; omega
      | ⟨1, _⟩ => show win2_3.index t (1 : Fin 2) * 64 + 1 * k.val = k.val; omega)
  have hwy : ∀ k : Fin 64, iblk2 V c 4 t (ix2 k q) = V c main_v142 (ix2 k ((((cfg2.win 6).blk t).view.emb (ix2 p q)) 1)) := fun k =>
    congrArg (V c main_v142) (by
      funext a; apply Fin.ext
      match a with
      | ⟨0, _⟩ => show win2_4.index t (0 : Fin 2) * 64 + 1 * k.val = k.val; omega
      | ⟨1, _⟩ => show win2_4.index t (1 : Fin 2) * 64 + 1 * q.val = win2_6.index t (1 : Fin 2) * 64 + 1 * q.val; omega)
  have hws : ∀ k : Fin 64, iblk2 V c 5 t (ix2 k q) = V c main_v143 (ix2 k ((((cfg2.win 6).blk t).view.emb (ix2 p q)) 1)) := fun k =>
    congrArg (V c main_v143) (by
      funext a; apply Fin.ext
      match a with
      | ⟨0, _⟩ => show win2_5.index t (0 : Fin 2) * 64 + 1 * k.val = k.val; omega
      | ⟨1, _⟩ => show win2_5.index t (1 : Fin 2) * 64 + 1 * q.val = win2_6.index t (1 : Fin 2) * 64 + 1 * q.val; omega)
  refine congrArg₂ (· + ·) ?_ ?_
  · refine Finset.sum_congr rfl fun k _ => ?_
    rw [hy k, hsc k, hsh k, hwy k]
  · refine Finset.sum_congr rfl fun k _ => ?_
    rw [hs k, hws k]

/-- An index of the output array is in point `t`'s block iff each coordinate is in the block's range on its axis. -/
theorem mem_blk2 (t : Fin cfg2.N) (i : S400000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v144).slice (win2_6.rect t)).set ↔ _
  rw [View.set_slice_whole, Rect.mem_set_unit]
  exact Iff.rfl

/-- Every index of the output array lies in the block of the point its row selects. -/
theorem cover2 (i : S400000x64.Idx) : ∃ t : Fin cfg2.N, (cfg2.win 6).flush t = true ∧ i ∈ ((cfg2.win 6).blk t).view.set := by
  have hi0 : (i 0).val < 400000 := (i 0).isLt
  have hi1 : (i 1).val < 64 := (i 1).isLt
  have hN : cfg2.N = 40 := N_2
  refine ⟨⟨(i 0).val / 10000, by rw [hN]; omega⟩, flush2_6 _, ?_⟩
  rw [mem_blk2]
  obtain ⟨-, -, -, -, -, -, -, -, -, -, -, -, g0, g1⟩ := idx_facts2 ⟨(i 0).val / 10000, by rw [hN]; omega⟩
  intro a
  match a with
  | ⟨0, _⟩ =>
    show win2_6.index _ (0 : Fin 2) * 10000 ≤ (i 0).val ∧ (i 0).val < win2_6.index _ (0 : Fin 2) * 10000 + 10000
    rw [g0]; dsimp only; omega
  | ⟨1, _⟩ =>
    show win2_6.index _ (1 : Fin 2) * 64 ≤ (i 1).val ∧ (i 1).val < win2_6.index _ (1 : Fin 2) * 64 + 64
    rw [g1]; omega

/-- THE OUTPUT ARRAY after the call: the fused value of the arrays it was entered with. -/
theorem final2 (c : Dev nD) : (dat2 V c).arrAt 6 cfg2.N
    = Fuse (V c main_v126) (V c main_arg1) (V c main_v138) (V c main_v141) (V c main_v142) (V c main_v143) :=
  (dat2 V c).arrAt_eq_of_cover 6 _ (fun t _ => flushed2_eq V c t) cover2

end Cert.KernelIdeal.HandV

end
-- ==== Proof.LibBatchNormFold.lean ====
/-
  Batch normalisation followed by a rectifier, computed two ways, gives the same extended reals.

  For one channel, let y be the column of n real numbers indexed by a finite type, with sum s₁ and sum of squares s₂.
  The mean is μ = s₁ / n. The variance is computed either as the mean of the squared deviations, (∑ (y - μ)²) / n, or
  folded as s₂ / n - μ · μ; the two are equal real numbers and are non-negative, so adding a positive ε gives a positive
  number whose reciprocal square root is an ordinary real. One program normalises as ((y - μ) · r) · γ + β, the other as
  y · (γ · r) + (β - μ · (γ · r)); these agree by distributivity. Because every intermediate quantity is a real number,
  the operations of the extended reals (sum, difference, product, the quotient by a nonzero real, the reciprocal square
  root of a positive real, the maximum with zero) are the coercions of the real ones, and the identity lifts.
-/
import Idealize.ShloMosaic.PureOps.Ideal

namespace Cert.LibBatchNormFold

open Idealize.ShloMosaic
open scoped BigOperators

noncomputable section

variable {ι : Type*} [Fintype ι]

/-! ## The real quantities -/

/-- The mean of the column: the sum divided by n. -/
def mean (y : ι → ℝ) (n : ℝ) : ℝ := (∑ v, y v) / n

/-- The folded variance: the mean of the squares minus the square of the mean. -/
def varFold (y : ι → ℝ) (n : ℝ) : ℝ := (∑ v, y v * y v) / n - mean y n * mean y n

/-- The two-pass variance: the mean of the squared deviations from the mean. -/
def varTwoPass (y : ι → ℝ) (n : ℝ) : ℝ := (∑ v, (y v - mean y n) * (y v - mean y n)) / n

/-- The reciprocal standard deviation: one over the square root of the folded variance plus ε. -/
def rstd (y : ι → ℝ) (n e : ℝ) : ℝ := (Real.sqrt (varFold y n + e))⁻¹

/-! ## Part 1: the variance identity over the reals -/

/-- The mean of the squared deviations equals the mean of the squares minus the square of the mean, when n is the
    (nonzero) number of entries: expand the square and use ∑ y = n · μ. Stated with squares written as powers. -/
theorem var_identity_sq (y : ι → ℝ) (n : ℝ) (hn : (Fintype.card ι : ℝ) = n) (hn0 : 0 < n) :
    (∑ v, (y v - (∑ w, y w) / n) ^ 2) / n = (∑ v, y v ^ 2) / n - ((∑ w, y w) / n) * ((∑ w, y w) / n) := by
  have hne : n ≠ 0 := hn0.ne'
  have h : ∑ v, (y v - (∑ w, y w) / n) ^ 2
      = ∑ v, y v ^ 2 - 2 * ((∑ w, y w) / n) * ∑ v, y v + n * ((∑ w, y w) / n) ^ 2 := by
    have : ∀ v, (y v - (∑ w, y w) / n) ^ 2 = y v ^ 2 - 2 * ((∑ w, y w) / n) * y v + ((∑ w, y w) / n) ^ 2 := by
      intro v; ring
    simp only [this, Finset.sum_add_distrib, Finset.sum_sub_distrib, ← Finset.mul_sum, Finset.sum_const,
      Finset.card_univ, nsmul_eq_mul, hn]
  rw [h]
  field_simp
  ring

/-- The two-pass variance equals the folded variance. -/
theorem varTwoPass_eq_varFold (y : ι → ℝ) (n : ℝ) (hn : (Fintype.card ι : ℝ) = n) (hn0 : 0 < n) :
    varTwoPass y n = varFold y n := by
  have h := var_identity_sq y n hn hn0
  simp only [varTwoPass, varFold, mean]
  simpa only [pow_two] using h

/-- The two-pass variance is non-negative: it is a sum of squares divided by a positive number. -/
theorem varTwoPass_nonneg (y : ι → ℝ) (n : ℝ) (hn0 : 0 < n) : 0 ≤ varTwoPass y n :=
  div_nonneg (Finset.sum_nonneg fun v _ => mul_self_nonneg _) hn0.le

/-- The folded variance is non-negative. -/
theorem varFold_nonneg (y : ι → ℝ) (n : ℝ) (hn : (Fintype.card ι : ℝ) = n) (hn0 : 0 < n) : 0 ≤ varFold y n :=
  varTwoPass_eq_varFold y n hn hn0 ▸ varTwoPass_nonneg y n hn0

/-- The folded variance plus a positive ε is positive. -/
theorem varFold_add_pos (y : ι → ℝ) (n e : ℝ) (hn : (Fintype.card ι : ℝ) = n) (hn0 : 0 < n) (he : 0 < e) :
    0 < varFold y n + e :=
  add_pos_of_nonneg_of_pos (varFold_nonneg y n hn hn0) he

/-- The two-pass variance plus a positive ε is positive. -/
theorem varTwoPass_add_pos (y : ι → ℝ) (n e : ℝ) (hn0 : 0 < n) (he : 0 < e) : 0 < varTwoPass y n + e :=
  add_pos_of_nonneg_of_pos (varTwoPass_nonneg y n hn0) he

/-! ## Building blocks on the extended reals -/

/-- A finite sum of coerced reals is the coercion of the real sum (over any finite set). -/
theorem coe_finset_sum {κ : Type*} (s : Finset κ) (f : κ → ℝ) :
    (∑ v ∈ s, (f v : EReal)) = ((∑ v ∈ s, f v : ℝ) : EReal) := by
  classical
  induction s using Finset.induction_on with
  | empty => simp
  | insert k s hk ih => rw [Finset.sum_insert hk, Finset.sum_insert hk, ih, EReal.coe_add]

/-- The sum of the coerced entries is the coercion of their sum. -/
theorem coe_sum (y : ι → ℝ) : (∑ v, (y v : EReal)) = ((∑ v, y v : ℝ) : EReal) :=
  coe_finset_sum Finset.univ y

/-- The sum of the products of the coerced entries with themselves is the coercion of the sum of squares. -/
theorem coe_sum_mul_self (y : ι → ℝ) :
    (∑ v, (y v : EReal) * (y v : EReal)) = ((∑ v, y v * y v : ℝ) : EReal) := by
  rw [← coe_sum]; exact Finset.sum_congr rfl fun v _ => (EReal.coe_mul _ _).symm

/-- The sum of the squared deviations from a real m, formed on the extended reals, is the coercion of the real sum. -/
theorem coe_sum_dev_mul_self (y : ι → ℝ) (m : ℝ) :
    (∑ v, ((y v : EReal) - (m : EReal)) * ((y v : EReal) - (m : EReal)))
      = ((∑ v, (y v - m) * (y v - m) : ℝ) : EReal) := by
  rw [← coe_sum]; exact Finset.sum_congr rfl fun v _ => by rw [← EReal.coe_sub, ← EReal.coe_mul]

/-- The quotient of a real by a nonzero real, formed on the extended reals, is the coercion of the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The reciprocal square root of a positive real is the coercion of one over its real square root. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The maximum of a coerced real with zero is the coercion of the real maximum with zero. -/
theorem max_coe_zero (a : ℝ) : max (a : EReal) 0 = ((max a 0 : ℝ) : EReal) := by
  rw [← EReal.coe_zero]; exact (EReal.coe_strictMono.monotone.map_max).symm

/-! ## Part 2: the two computations on the extended reals, in their exact operation order

The quantities below are reducible abbreviations: each unfolds to the displayed expression. -/

/-- The sum of the entries, on the extended reals. -/
abbrev eS1 (y : ι → ℝ) : EReal := ∑ v, (y v : EReal)

/-- The sum of the entries' squares (each a product of the entry with itself), on the extended reals. -/
abbrev eS2 (y : ι → ℝ) : EReal := ∑ v, (y v : EReal) * (y v : EReal)

/-- The mean on the extended reals: the sum divided by n. Both computations form it this way. -/
abbrev eMean (y : ι → ℝ) (n : ℝ) : EReal := Ideal.div (eS1 y) (n : EReal)

/-- The folded variance on the extended reals: the mean of the squares minus the product of the mean with itself. -/
abbrev eVarK (y : ι → ℝ) (n : ℝ) : EReal := Ideal.div (eS2 y) (n : EReal) - eMean y n * eMean y n

/-- The folded computation's reciprocal standard deviation. -/
abbrev eRK (y : ι → ℝ) (n e : ℝ) : EReal := Ideal.rsqrt (eVarK y n + (e : EReal))

/-- The folded computation's scale: γ times the reciprocal standard deviation. -/
abbrev eScale (y : ι → ℝ) (n e g : ℝ) : EReal := (g : EReal) * eRK y n e

/-- The folded computation's shift: β minus the mean times the scale. -/
abbrev eShift (y : ι → ℝ) (n e g b : ℝ) : EReal := (b : EReal) - eMean y n * eScale y n e g

/-- The folded computation's result at an entry: the maximum of y · scale + shift and zero. -/
abbrev eKernel (y : ι → ℝ) (n e g b : ℝ) (v : ι) : EReal :=
  max ((y v : EReal) * eScale y n e g + eShift y n e g b) 0

/-- The two-pass variance on the extended reals: the sum of the deviations' squares divided by n. -/
abbrev eVarR (y : ι → ℝ) (n : ℝ) : EReal :=
  Ideal.div (∑ w, ((y w : EReal) - eMean y n) * ((y w : EReal) - eMean y n)) (n : EReal)

/-- The two-pass computation's reciprocal standard deviation. -/
abbrev eRR (y : ι → ℝ) (n e : ℝ) : EReal := Ideal.rsqrt (eVarR y n + (e : EReal))

/-- The two-pass computation's result at an entry: the maximum of ((y - mean) · r) · γ + β and zero. -/
abbrev eReference (y : ι → ℝ) (n e g b : ℝ) (v : ι) : EReal :=
  max ((((y v : EReal) - eMean y n) * eRR y n e) * (g : EReal) + (b : EReal)) 0

/-- The extended-real mean is the coercion of the real mean. -/
theorem eMean_eq (y : ι → ℝ) {n : ℝ} (hn0 : n ≠ 0) : eMean y n = (mean y n : EReal) := by
  rw [eMean, eS1, coe_sum, div_coe_coe _ hn0, mean]

/-- The extended-real folded variance is the coercion of the real folded variance. -/
theorem eVarK_eq (y : ι → ℝ) {n : ℝ} (hn0 : n ≠ 0) : eVarK y n = (varFold y n : EReal) := by
  rw [eVarK, eMean_eq y hn0, eS2, coe_sum_mul_self, div_coe_coe _ hn0, ← EReal.coe_mul, ← EReal.coe_sub, varFold]

/-- The extended-real two-pass variance is the coercion of the real two-pass variance. -/
theorem eVarR_eq (y : ι → ℝ) {n : ℝ} (hn0 : n ≠ 0) : eVarR y n = (varTwoPass y n : EReal) := by
  rw [eVarR, eMean_eq y hn0, coe_sum_dev_mul_self, div_coe_coe _ hn0, varTwoPass]

/-- The two variances agree on the extended reals. -/
theorem eVarK_eq_eVarR (y : ι → ℝ) (n : ℝ) (hn : (Fintype.card ι : ℝ) = n) (hn0 : 0 < n) : eVarK y n = eVarR y n := by
  rw [eVarK_eq y hn0.ne', eVarR_eq y hn0.ne', varTwoPass_eq_varFold y n hn hn0]

/-- The folded computation's reciprocal standard deviation is the real number one over the square root of the folded
    variance plus ε. -/
theorem eRK_eq (y : ι → ℝ) (n e : ℝ) (hn : (Fintype.card ι : ℝ) = n) (hn0 : 0 < n) (he : 0 < e) :
    eRK y n e = (rstd y n e : EReal) := by
  rw [eRK, eVarK_eq y hn0.ne', ← EReal.coe_add, rsqrt_coe_pos (varFold_add_pos y n e hn hn0 he), rstd]

/-- The two-pass computation's reciprocal standard deviation is the same real number. -/
theorem eRR_eq (y : ι → ℝ) (n e : ℝ) (hn : (Fintype.card ι : ℝ) = n) (hn0 : 0 < n) (he : 0 < e) :
    eRR y n e = (rstd y n e : EReal) := by
  rw [eRR, ← eVarK_eq_eVarR y n hn hn0]; exact eRK_eq y n e hn hn0 he

/-- The scale is the real number γ times the reciprocal standard deviation. -/
theorem eScale_eq (y : ι → ℝ) (n e g : ℝ) (hn : (Fintype.card ι : ℝ) = n) (hn0 : 0 < n) (he : 0 < e) :
    eScale y n e g = ((g * rstd y n e : ℝ) : EReal) := by
  rw [eScale, eRK_eq y n e hn hn0 he, ← EReal.coe_mul]

/-- The shift is the real number β minus the mean times the scale. -/
theorem eShift_eq (y : ι → ℝ) (n e g b : ℝ) (hn : (Fintype.card ι : ℝ) = n) (hn0 : 0 < n) (he : 0 < e) :
    eShift y n e g b = ((b - mean y n * (g * rstd y n e) : ℝ) : EReal) := by
  rw [eShift, eScale_eq y n e g hn hn0 he, eMean_eq y hn0.ne', ← EReal.coe_mul, ← EReal.coe_sub]

/-- Finiteness: the folded computation's result at an entry is a real number, namely the displayed one. -/
theorem eKernel_eq (y : ι → ℝ) (n e g b : ℝ) (hn : (Fintype.card ι : ℝ) = n) (hn0 : 0 < n) (he : 0 < e) (v : ι) :
    eKernel y n e g b v = ((max (y v * (g * rstd y n e) + (b - mean y n * (g * rstd y n e))) 0 : ℝ) : EReal) := by
  rw [eKernel, eScale_eq y n e g hn hn0 he, eShift_eq y n e g b hn hn0 he, ← EReal.coe_mul, ← EReal.coe_add,
    max_coe_zero]

/-- Finiteness: the two-pass computation's result at an entry is a real number, namely the displayed one. -/
theorem eReference_eq (y : ι → ℝ) (n e g b : ℝ) (hn : (Fintype.card ι : ℝ) = n) (hn0 : 0 < n) (he : 0 < e) (v : ι) :
    eReference y n e g b v = ((max (((y v - mean y n) * rstd y n e) * g + b) 0 : ℝ) : EReal) := by
  rw [eReference, eRR_eq y n e hn hn0 he, eMean_eq y hn0.ne', ← EReal.coe_sub, ← EReal.coe_mul, ← EReal.coe_mul,
    ← EReal.coe_add, max_coe_zero]

/-- The folded computation's result at an entry is some real number. -/
theorem eKernel_real (y : ι → ℝ) (n e g b : ℝ) (hn : (Fintype.card ι : ℝ) = n) (hn0 : 0 < n) (he : 0 < e) (v : ι) :
    ∃ r : ℝ, eKernel y n e g b v = (r : EReal) :=
  ⟨_, eKernel_eq y n e g b hn hn0 he v⟩

/-- The two-pass computation's result at an entry is some real number. -/
theorem eReference_real (y : ι → ℝ) (n e g b : ℝ) (hn : (Fintype.card ι : ℝ) = n) (hn0 : 0 < n) (he : 0 < e) (v : ι) :
    ∃ r : ℝ, eReference y n e g b v = (r : EReal) :=
  ⟨_, eReference_eq y n e g b hn hn0 he v⟩

/-- The two computations give the same extended real at every entry: after both are read as real numbers the two
    normalisations differ by distributivity only. -/
theorem eKernel_eq_eReference (y : ι → ℝ) (n e g b : ℝ) (hn : (Fintype.card ι : ℝ) = n) (hn0 : 0 < n) (he : 0 < e)
    (v : ι) : eKernel y n e g b v = eReference y n e g b v := by
  rw [eKernel_eq y n e g b hn hn0 he, eReference_eq y n e g b hn hn0 he]
  congr 2
  ring

/-- The same statement with every abbreviation written out: the folded computation, in its operation order, equals the
    two-pass computation, in its operation order. -/
theorem kernel_eq_reference (y : ι → ℝ) (n e g b : ℝ) (hn : (Fintype.card ι : ℝ) = n) (hn0 : 0 < n) (he : 0 < e)
    (v : ι) :
    max ((y v : EReal)
          * ((g : EReal) * Ideal.rsqrt
              (Ideal.div (∑ w, (y w : EReal) * (y w : EReal)) (n : EReal)
                - Ideal.div (∑ w, (y w : EReal)) (n : EReal) * Ideal.div (∑ w, (y w : EReal)) (n : EReal)
                + (e : EReal)))
          + ((b : EReal) - Ideal.div (∑ w, (y w : EReal)) (n : EReal)
              * ((g : EReal) * Ideal.rsqrt
                (Ideal.div (∑ w, (y w : EReal) * (y w : EReal)) (n : EReal)
                  - Ideal.div (∑ w, (y w : EReal)) (n : EReal) * Ideal.div (∑ w, (y w : EReal)) (n : EReal)
                  + (e : EReal))))) 0
      = max ((((y v : EReal) - Ideal.div (∑ w, (y w : EReal)) (n : EReal))
            * Ideal.rsqrt
              (Ideal.div (∑ w, ((y w : EReal) - Ideal.div (∑ u, (y u : EReal)) (n : EReal))
                  * ((y w : EReal) - Ideal.div (∑ u, (y u : EReal)) (n : EReal))) (n : EReal)
                + (e : EReal)))
          * (g : EReal) + (b : EReal)) 0 :=
  eKernel_eq_eReference y n e g b hn hn0 he v

end

end Cert.LibBatchNormFold
-- ==== Proof.LibSumSplit.lean ====
/-
  A sum over 128 indices splits into the sum over the first 64 and the sum over the last 64.
-/
import Mathlib.Algebra.BigOperators.Fin

namespace Cert.LibSumSplit

open scoped BigOperators

/-- In an additive commutative monoid, the sum of f over the 128 indices is the sum of f over the indices 0..63 plus the
    sum of f over the indices 64..127, the latter written as 64 + j for j in 0..63. -/
theorem sum_fin128_split {M : Type*} [AddCommMonoid M] (f : Fin 128 → M) :
    ∑ j : Fin 128, f j
      = ∑ j : Fin 64, f ⟨j.val, by omega⟩ + ∑ j : Fin 64, f ⟨64 + j.val, by omega⟩ :=
  Fin.sum_univ_add (a := 64) (b := 64) (f : Fin (64 + 64) → M)

end Cert.LibSumSplit
-- ==== Proof.LibLiterals.lean ====
/-
  The three float literals of the normalisation, as the extended reals their binary patterns denote: the row count
  400000, the small positive constant added to the variance, and zero.
-/
import Idealize.ShloMosaic.PureOps.Ideal
import Idealize.ShloMosaic.PureOps.Ideal.Laws

noncomputable section

namespace Cert.LibLiterals

open Idealize.ShloMosaic

/-- The pattern with exponent field 145 and significand field 0x435000 denotes (2^23 + 0x435000) · 2^(145 - 127 - 23),
    which is the real number 400000. -/
theorem ofBits_400000 : Ideal.ofBits .f32 0x48C35000#32 = ((400000 : ℝ) : EReal) := by
  simp [Ideal.ofBits, Ideal.ieee, -EReal.coe_mul]; norm_num

/-- The small constant added to the variance: (2^23 + 0x27C5AC) · 2^(110 - 127 - 23) = 10995116 / 2^40, the binary
    single-precision number nearest to one hundred-thousandth. -/
def eps : ℝ := 10995116 / 2 ^ 40

/-- The small constant is positive. -/
theorem eps_pos : 0 < eps := by unfold eps; positivity

/-- The pattern with exponent field 110 and significand field 0x27C5AC denotes the small constant. -/
theorem ofBits_eps : Ideal.ofBits .f32 0x3727C5AC#32 = ((eps : ℝ) : EReal) := by
  unfold eps
  simp [Ideal.ofBits, Ideal.ieee, -EReal.coe_mul]; norm_num

/-- The pattern of the small constant denotes a positive real number. -/
theorem ofBits_eps_pos : ∃ e : ℝ, 0 < e ∧ Ideal.ofBits .f32 0x3727C5AC#32 = (e : EReal) :=
  ⟨eps, eps_pos, ofBits_eps⟩

/-- The all-zero pattern denotes zero. -/
theorem ofBits_zero : Ideal.ofBits .f32 0x00000000#32 = 0 := Ideal.ofBits_zero_f32

end Cert.LibLiterals

end
-- ==== Proof.KTail.lean ====
/-
  The folded normalisation followed by the split final product is the specification's head.

  One program computes, for each of the 64 columns, the sum and the sum of squares of the segment sum `y` (each from a
  zero initial value), the mean as the sum over 400000, the variance as the mean of the squares minus the square of
  the mean, a scale `gamma · rsqrt (var + ε)` and a shift `beta − mean · scale`; its result row is the clipped
  `y · scale + shift` times the first 64 rows of the final weight matrix plus the skip row times the last 64 rows.
  The specification normalises with the two-pass variance in the order `((y − mean) · rsqrt (var + ε)) · gamma + beta`
  and multiplies the 128 joined columns by the whole final weight matrix. When every entry of `y`, `gamma` and `beta`
  is a real number the two normalised entries are the same extended real (the variance identity and distributivity,
  over the reals, lifted through the coercion), and a sum over 128 columns is the sum over the first 64 plus the sum
  over the last 64, so the two results agree entry by entry. Nothing is asked of the skip array or of the final
  weight matrix: both sides multiply the same factors.
-/
import Idealize.ShloMosaic.PureOps.Ideal
import Idealize.ShloMosaic.PureOps.Ideal.Laws
import Idealize.ShloMosaic.Lib.ValueIdx
import proofs.«119201_j83674552861285_2_alg».proof.Proof.Spec
import proofs.«119201_j83674552861285_2_alg».proof.Proof.LibBatchNormFold
import proofs.«119201_j83674552861285_2_alg».proof.Proof.LibSumSplit
import proofs.«119201_j83674552861285_2_alg».proof.Proof.LibLiterals

noncomputable section

open scoped BigOperators

namespace Cert.KTail

open Idealize.ShloMosaic Idealize.ShloMosaic.ValueIdx

/-! ## The folded computation, in its operation order -/

/-- Zero, as the all-zero pattern. -/
abbrev Z : EReal := Ideal.ofBits .f32 0x00000000#32
/-- The row count 400000, as its pattern. -/
abbrev NN : EReal := Ideal.ofBits .f32 0x48C35000#32
/-- The small constant added to the variance, as its pattern. -/
abbrev EE : EReal := Ideal.ofBits .f32 0x3727C5AC#32

/-- The sum of column `j`, from a zero initial value. -/
def s1 (y : FVec Ideal ⟨2, ![400000, 64]⟩ .f32) (j : Fin 64) : EReal := Z + ∑ v : Fin 400000, y (ix2 v j)

/-- The sum of the squares of column `j`, from a zero initial value. -/
def s2 (y : FVec Ideal ⟨2, ![400000, 64]⟩ .f32) (j : Fin 64) : EReal :=
  Z + ∑ v : Fin 400000, y (ix2 v j) * y (ix2 v j)

/-- The mean of column `j`. -/
def mean (y : FVec Ideal ⟨2, ![400000, 64]⟩ .f32) (j : Fin 64) : EReal := Ideal.div (s1 y j) NN

/-- The folded variance of column `j`: the mean of the squares minus the square of the mean. -/
def var (y : FVec Ideal ⟨2, ![400000, 64]⟩ .f32) (j : Fin 64) : EReal :=
  Ideal.div (s2 y j) NN - mean y j * mean y j

/-- The scale of column `j`. -/
def scale (y : FVec Ideal ⟨2, ![400000, 64]⟩ .f32) (gamma : FVec Ideal ⟨1, ![64]⟩ .f32) (j : Fin 64) : EReal :=
  gamma (ix1 j) * Ideal.rsqrt (var y j + EE)

/-- The shift of column `j`. -/
def shift (y : FVec Ideal ⟨2, ![400000, 64]⟩ .f32) (gamma beta : FVec Ideal ⟨1, ![64]⟩ .f32) (j : Fin 64) : EReal :=
  beta (ix1 j) - mean y j * scale y gamma j

/-- The result: the clipped `y · scale + shift` times the first 64 rows of the final weight matrix, plus the skip
    array times its last 64 rows. -/
def tail (y skip : FVec Ideal ⟨2, ![400000, 64]⟩ .f32) (gamma beta : FVec Ideal ⟨1, ![64]⟩ .f32)
    (Wf : FVec Ideal ⟨2, ![128, 64]⟩ .f32) : FVec Ideal ⟨2, ![400000, 64]⟩ .f32 := fun i =>
  (∑ j : Fin 64, max (y (ix2 (i 0) j) * scale y gamma j + shift y gamma beta j) Z
      * Wf (ix2 (⟨j.val, by omega⟩ : Fin 128) (i 1)))
  + ∑ j : Fin 64, skip (ix2 (i 0) j) * Wf (ix2 (⟨64 + j.val, by omega⟩ : Fin 128) (i 1))

theorem tail_apply (y skip : FVec Ideal ⟨2, ![400000, 64]⟩ .f32) (gamma beta : FVec Ideal ⟨1, ![64]⟩ .f32)
    (Wf : FVec Ideal ⟨2, ![128, 64]⟩ .f32) (v : Fin 400000) (o : Fin 64) :
    tail y skip gamma beta Wf (ix2 v o)
      = (∑ j : Fin 64, max (y (ix2 v j) * scale y gamma j + shift y gamma beta j) Z
            * Wf (ix2 (⟨j.val, by omega⟩ : Fin 128) o))
        + ∑ j : Fin 64, skip (ix2 v j) * Wf (ix2 (⟨64 + j.val, by omega⟩ : Fin 128) o) := rfl

/-! ## The normalised entry -/

/-- The folded normalisation of a real column is the two-pass one: with every entry of `y`, `gamma` and `beta` a real
    number, the clipped `y · scale + shift` at `(v, j)` is the specification's normalised entry. The zero initial
    values add nothing, the row count is the real 400000 and the small constant a positive real, so this is the
    identity between the two computations over a finite real column, read on the extended reals. -/
theorem clip_eq_bn (y : FVec Ideal ⟨2, ![400000, 64]⟩ .f32) (gamma beta : FVec Ideal ⟨1, ![64]⟩ .f32)
    (hy : ∀ i, ∃ r : ℝ, y i = (r : EReal)) (hg : ∀ i, ∃ r : ℝ, gamma i = (r : EReal))
    (hb : ∀ i, ∃ r : ℝ, beta i = (r : EReal)) (v : Fin 400000) (j : Fin 64) :
    max (y (ix2 v j) * scale y gamma j + shift y gamma beta j) Z = Cert.Spec.bn y gamma beta v j := by
  choose yr hyr using hy
  obtain ⟨g, hg'⟩ := hg (ix1 j)
  obtain ⟨b, hb'⟩ := hb (ix1 j)
  have hn : ((Fintype.card (Fin 400000) : ℕ) : ℝ) = 400000 := by simp [Fintype.card_fin]
  have key := Cert.LibBatchNormFold.kernel_eq_reference (fun w : Fin 400000 => yr (ix2 w j)) 400000
    Cert.LibLiterals.eps g b hn (by norm_num) Cert.LibLiterals.eps_pos v
  unfold shift scale var mean s1 s2 Cert.Spec.bn Cert.Spec.colVar Cert.Spec.colMean
  simp only [Ideal.ofBits_zero_f32, zero_add, Cert.LibLiterals.ofBits_400000, Cert.LibLiterals.ofBits_eps, hyr,
    hg', hb']
  exact key

/-! ## The two results agree -/

/-- A column below 64 of the joined array is the normalised entry. -/
theorem joined_left (y skip : FVec Ideal ⟨2, ![400000, 64]⟩ .f32) (gamma beta : FVec Ideal ⟨1, ![64]⟩ .f32)
    (v : Fin 400000) (j : Fin 64) :
    Cert.Spec.joined y skip gamma beta v (⟨j.val, by omega⟩ : Fin 128) = Cert.Spec.bn y gamma beta v j := by
  unfold Cert.Spec.joined
  rw [dif_pos (show (⟨j.val, by omega⟩ : Fin 128).val < 64 from j.isLt)]

/-- A column from 64 on of the joined array is the skip array's column 64 less. -/
theorem joined_right (y skip : FVec Ideal ⟨2, ![400000, 64]⟩ .f32) (gamma beta : FVec Ideal ⟨1, ![64]⟩ .f32)
    (v : Fin 400000) (j : Fin 64) :
    Cert.Spec.joined y skip gamma beta v (⟨64 + j.val, by omega⟩ : Fin 128) = skip (ix2 v j) := by
  unfold Cert.Spec.joined
  rw [dif_neg (show ¬ (⟨64 + j.val, by omega⟩ : Fin 128).val < 64 from by show ¬ 64 + j.val < 64; omega)]
  exact congrArg (fun c : Fin 64 => skip (ix2 v c)) (Fin.ext (by show 64 + j.val - 64 = j.val; omega))

/-- The pointwise statement: at row `v`, column `o`. -/
theorem tail_eq_head_apply (y skip : FVec Ideal ⟨2, ![400000, 64]⟩ .f32) (gamma beta : FVec Ideal ⟨1, ![64]⟩ .f32)
    (Wf : FVec Ideal ⟨2, ![128, 64]⟩ .f32)
    (hy : ∀ i, ∃ r : ℝ, y i = (r : EReal)) (hg : ∀ i, ∃ r : ℝ, gamma i = (r : EReal))
    (hb : ∀ i, ∃ r : ℝ, beta i = (r : EReal)) (v : Fin 400000) (o : Fin 64) :
    tail y skip gamma beta Wf (ix2 v o) = Cert.Spec.head y skip gamma beta Wf (ix2 v o) := by
  rw [tail_apply, Cert.Spec.head_apply,
    Cert.LibSumSplit.sum_fin128_split (fun c : Fin 128 => Cert.Spec.joined y skip gamma beta v c * Wf (ix2 c o))]
  have h1 : (∑ j : Fin 64, max (y (ix2 v j) * scale y gamma j + shift y gamma beta j) Z
        * Wf (ix2 (⟨j.val, by omega⟩ : Fin 128) o))
      = ∑ j : Fin 64, Cert.Spec.joined y skip gamma beta v (⟨j.val, by omega⟩ : Fin 128)
        * Wf (ix2 (⟨j.val, by omega⟩ : Fin 128) o) :=
    Finset.sum_congr rfl fun j _ => by rw [joined_left, clip_eq_bn y gamma beta hy hg hb v j]
  have h2 : (∑ j : Fin 64, skip (ix2 v j) * Wf (ix2 (⟨64 + j.val, by omega⟩ : Fin 128) o))
      = ∑ j : Fin 64, Cert.Spec.joined y skip gamma beta v (⟨64 + j.val, by omega⟩ : Fin 128)
        * Wf (ix2 (⟨64 + j.val, by omega⟩ : Fin 128) o) :=
    Finset.sum_congr rfl fun j _ => by rw [joined_right]
  rw [h1, h2]

/-- THE FOLDED COMPUTATION IS THE SPECIFICATION'S HEAD, when every entry of the segment sum, of `gamma` and of `beta`
    is a real number. -/
theorem tail_eq_head (y skip : FVec Ideal ⟨2, ![400000, 64]⟩ .f32) (gamma beta : FVec Ideal ⟨1, ![64]⟩ .f32)
    (Wf : FVec Ideal ⟨2, ![128, 64]⟩ .f32)
    (hy : ∀ i, ∃ r : ℝ, y i = (r : EReal)) (hg : ∀ i, ∃ r : ℝ, gamma i = (r : EReal))
    (hb : ∀ i, ∃ r : ℝ, beta i = (r : EReal)) :
    tail y skip gamma beta Wf = Cert.Spec.head y skip gamma beta Wf := by
  funext i
  obtain ⟨v, o, rfl⟩ : ∃ (v : Fin 400000) (o : Fin 64), i = ix2 v o := ⟨i 0, i 1, eq_ix2 i⟩
  exact tail_eq_head_apply y skip gamma beta Wf hy hg hb v o

end Cert.KTail

end
-- ==== Proof.LibFinite.lean ====
/-
  Finite inputs as real numbers. A precondition "every entry's magnitude is below plus infinity", read on the extended
  reals, says every entry is a real number: the one-operand reduction by `and` of the entrywise comparisons is 1 exactly
  when each comparison is, and an extended real whose magnitude is below the top element is neither infinity. Also: a
  finite sum of products of real entries is a real number.
-/
import Idealize.ShloMosaic.Lib.ReduceAll
import Idealize.ShloMosaic.Lib.ValueIdx
import Idealize.ShloMosaic.PureOps.Ideal.Laws

namespace Cert.LibFinite

open Idealize.ShloMosaic

/-- An extended real whose magnitude compares below the pattern of plus infinity is a real number. -/
theorem real_of_abs_lt (x : EReal) (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  unfold Ideal.cmp at h
  have hlt : max x (-x) < ⊤ := by
    by_contra hc
    simp only [hc, decide_false] at h
    exact absurd h (by decide)
  induction x using EReal.rec with
  | bot => simp at hlt
  | coe r => exact ⟨r, rfl⟩
  | top => simp at hlt

instance : Subsingleton (⟨0, ![]⟩ : Shape).Idx := ⟨fun a b => funext fun d => d.elim0⟩

/-- `jnp.all (abs x < inf)` equal to 1 gives every entry real. -/
theorem all_real {s : Shape} {axes : List (Fin s.rank)} (x : FVec Ideal s .f32)
    (bc : (⟨0, ![]⟩ : Shape).BroadcastsInDim s (![] : Fin 0 → Fin s.rank)) (hr : s.ReducesTo axes ⟨0, ![]⟩) (hu : 0 < (⟨0, ![]⟩ : Shape).numel)
    (e : Host.reduce IntOp.andi (cmpf .olt (Host.absf x) (broadcastInDim s ![] bc (constant (⟨0, ![]⟩ : Shape) .f32 0x7F800000#32)))
          (constantI (⟨0, ![]⟩ : Shape) 1 1#1) hr hu ValueIdx.ix0 = 1#1) (i : s.Idx) : ∃ r : ℝ, x i = (r : EReal) := by
  have h := Host.reduce_andi_all _ _ hr hu ValueIdx.ix0 e i
  exact real_of_abs_lt (x i) h

/-- A finite sum of products of real entries is a real number. -/
theorem sum_mul_real {ι : Type} [Fintype ι] (f g : ι → EReal) (hf : ∀ k, ∃ r : ℝ, f k = (r : EReal)) (hg : ∀ k, ∃ r : ℝ, g k = (r : EReal)) :
    ∃ r : ℝ, (∑ k, f k * g k) = (r : EReal) := by
  choose a ha using hf
  choose b hb using hg
  refine ⟨∑ k, a k * b k, ?_⟩
  have : ∀ s : Finset ι, (∑ k ∈ s, f k * g k) = ((∑ k ∈ s, a k * b k : ℝ) : EReal) := by
    intro s
    classical
    induction s using Finset.induction_on with
    | empty => simp
    | insert k s hk ih => rw [Finset.sum_insert hk, Finset.sum_insert hk, ih, ha, hb, EReal.coe_add, EReal.coe_mul]
  exact this Finset.univ

end Cert.LibFinite
-- ==== Proof.SpecFacts.lean ====
/-
  Every entry of the contributions and of their segment sum is a real number when every entry of the inputs is.

  A contribution is a finite sum of products of real entries. The segment sum at a row and column is the zero of the
  operand plus the sum, over the contributions whose index word names that row, of the contribution's entry in that
  column: a finite sum of real numbers and zeros.
-/
import proofs.«119201_j83674552861285_2_alg».proof.Proof.Spec
import proofs.«119201_j83674552861285_2_alg».proof.Proof.LibRowScatterAdd
import proofs.«119201_j83674552861285_2_alg».proof.Proof.LibFinite
import proofs.«119201_j83674552861285_2_alg».proof.Proof.LibBatchNormFold
import Idealize.ShloMosaic.PureOps.Ideal.Laws
import Idealize.ShloMosaic.Lib.ValueIdx

noncomputable section

open scoped BigOperators

namespace Cert.SpecFacts

open Idealize.ShloMosaic Idealize.ShloMosaic.ValueIdx

/-- A finite sum whose terms are each either a real number or zero is a real number. -/
theorem sum_ite_real {κ : Type*} [Fintype κ] (p : κ → Prop) [DecidablePred p] (f : κ → EReal)
    (hf : ∀ k, ∃ r : ℝ, f k = (r : EReal)) : ∃ r : ℝ, (∑ k, if p k then f k else 0) = (r : EReal) := by
  choose a ha using hf
  refine ⟨∑ k, if p k then a k else 0, ?_⟩
  rw [← Cert.LibBatchNormFold.coe_finset_sum]
  refine Finset.sum_congr rfl fun k _ => ?_
  by_cases hk : p k
  · rw [if_pos hk, if_pos hk, ha]
  · rw [if_neg hk, if_neg hk, EReal.coe_zero]

/-- Zero plus a finite sum whose terms are each either a real number or zero is a real number. -/
theorem add_sum_ite_real {κ : Type*} [Fintype κ] (z : EReal) (p : κ → Prop) [DecidablePred p] (f : κ → EReal)
    (hz : z = 0) (hf : ∀ k, ∃ r : ℝ, f k = (r : EReal)) : ∃ r : ℝ, (z + ∑ k, if p k then f k else 0) = (r : EReal) := by
  obtain ⟨r, hr⟩ := sum_ite_real p f hf
  exact ⟨r, by rw [hz, zero_add, hr]⟩

/-- Every entry of the contributions is a real number when every entry of the features and of the weights is: an entry
    is a sum over 128 indices of products of such entries. -/
theorem contrib_real (x : FVec Ideal ⟨2, ![100000, 128]⟩ .f32) (W : FVec Ideal ⟨3, ![8, 128, 64]⟩ .f32)
    (idx : IVec ⟨2, ![8, 100000]⟩ 32) (hx : ∀ i, ∃ r : ℝ, x i = (r : EReal)) (hW : ∀ i, ∃ r : ℝ, W i = (r : EReal))
    (j : (⟨3, ![8, 100000, 64]⟩ : Shape).Idx) : ∃ r : ℝ, Cert.Spec.contrib x W idx j = (r : EReal) := by
  show ∃ r : ℝ, (∑ i : Fin 128, x (ix2 (Cert.Spec.srcRow idx (j 0) (j 1)) i) * W (ix3 (j 0) i (j 2))) = (r : EReal)
  exact Cert.LibFinite.sum_mul_real _ _ (fun i => hx _) (fun i => hW _)

/-- The same, at an index written by its coordinates. -/
theorem contrib_real_at (x : FVec Ideal ⟨2, ![100000, 128]⟩ .f32) (W : FVec Ideal ⟨3, ![8, 128, 64]⟩ .f32)
    (idx : IVec ⟨2, ![8, 100000]⟩ 32) (hx : ∀ i, ∃ r : ℝ, x i = (r : EReal)) (hW : ∀ i, ∃ r : ℝ, W i = (r : EReal))
    (k : Fin 8) (p : Fin 100000) (o : Fin 64) : ∃ r : ℝ, Cert.Spec.contrib x W idx (ix3 k p o) = (r : EReal) :=
  contrib_real x W idx hx hW (ix3 k p o)

/-- The segment sum at row v and column o is a real number when every contribution entry is: it is zero plus a sum of
    terms that are each a contribution entry or zero. -/
theorem scatterStage_real_at (C : FVec Ideal ⟨3, ![8, 100000, 64]⟩ .f32) (oidx : IVec ⟨2, ![8, 100000]⟩ 32)
    (hC : ∀ j, ∃ r : ℝ, C j = (r : EReal)) (v : Fin 400000) (o : Fin 64) :
    ∃ r : ℝ, Cert.Spec.scatterStage C oidx (ix2 v o) = (r : EReal) := by
  unfold Cert.Spec.scatterStage
  rw [Cert.LibRowScatterAdd.rowScatterAdd_apply]
  -- the operand is the zero array; every update entry is an entry of the contributions, laid out as 800000 rows
  apply add_sum_ite_real
  · exact Ideal.ofBits_zero_f32
  · intro e; exact hC _

/-- Every entry of the segment sum is a real number when every contribution entry is. -/
theorem scatterStage_real (C : FVec Ideal ⟨3, ![8, 100000, 64]⟩ .f32) (oidx : IVec ⟨2, ![8, 100000]⟩ 32)
    (hC : ∀ j, ∃ r : ℝ, C j = (r : EReal)) (j : (⟨2, ![400000, 64]⟩ : Shape).Idx) :
    ∃ r : ℝ, Cert.Spec.scatterStage C oidx j = (r : EReal) := by
  rw [eq_ix2 j]
  exact scatterStage_real_at C oidx hC (j 0) (j 1)

/-- Every entry of the segment sum of the contributions is a real number when every entry of the features and of the
    weights is. -/
theorem y_real (x : FVec Ideal ⟨2, ![100000, 128]⟩ .f32) (W : FVec Ideal ⟨3, ![8, 128, 64]⟩ .f32)
    (idx oidx : IVec ⟨2, ![8, 100000]⟩ 32) (hx : ∀ i, ∃ r : ℝ, x i = (r : EReal)) (hW : ∀ i, ∃ r : ℝ, W i = (r : EReal))
    (j : (⟨2, ![400000, 64]⟩ : Shape).Idx) :
    ∃ r : ℝ, Cert.Spec.scatterStage (Cert.Spec.contrib x W idx) oidx j = (r : EReal) :=
  scatterStage_real _ oidx (contrib_real x W idx hx hW) j

/-- The same, at row v and column o. -/
theorem y_real_at (x : FVec Ideal ⟨2, ![100000, 128]⟩ .f32) (W : FVec Ideal ⟨3, ![8, 128, 64]⟩ .f32)
    (idx oidx : IVec ⟨2, ![8, 100000]⟩ 32) (hx : ∀ i, ∃ r : ℝ, x i = (r : EReal)) (hW : ∀ i, ∃ r : ℝ, W i = (r : EReal))
    (v : Fin 400000) (o : Fin 64) :
    ∃ r : ℝ, Cert.Spec.scatterStage (Cert.Spec.contrib x W idx) oidx (ix2 v o) = (r : EReal) :=
  y_real x W idx oidx hx hW (ix2 v o)

end Cert.SpecFacts

end
-- ==== Proof.KV.ValB.lean ====
/-
  The program's result array, on the extended reals, as the specification's function of the arguments.
  The second call's two outputs are the zero word plus the column sums of y and of y*y; the third host stretch
  turns them into the scale and shift rows; the third call's output is the fused value of y, the skip features,
  those two rows and the two halves of the fusing matrix. Read column by column these are the closed forms of the
  kernel's tail, which equals the reference's normalise-then-multiply for real y, gamma, beta.
-/
import proofs.«119201_j83674552861285_2_alg».proof.Proof.KV.ValA
import proofs.«119201_j83674552861285_2_alg».proof.Proof.KV.Val1
import proofs.«119201_j83674552861285_2_alg».proof.Proof.KV.Val2
import proofs.«119201_j83674552861285_2_alg».proof.Proof.KTail
import proofs.«119201_j83674552861285_2_alg».proof.Proof.SpecFacts
import proofs.«119201_j83674552861285_2_alg».proof.Proof.LibWeightLayouts

set_option maxRecDepth 16384

noncomputable section

namespace Cert.KernelIdeal.HandV

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

open Idealize.ShloMosaic.StableHlo
variable (m : (ℓ : Loc nD τ sig) → Buf (Elt Ideal) ℓ) (ρ : Dev nD → PrngReg) (c : Dev nD)

/-- The array y as a function of the arguments. -/
abbrev yK : FVec Ideal S400000x64 .f32 :=
  Cert.Spec.scatterStage (Cert.Spec.contrib (aX m c) (aW m c) (aIdx m c)) (aOidx m c)

theorem V3_y : V3 m ρ c main_v126 = yK m c := W3_y m ρ c
theorem W4_y : W4 m ρ c (Proc.devRef .tc main_v126) = yK m c :=
  (W4_arr m ρ c 0).trans (((dat1 (V3 m ρ) c).arrAt_in 0 rfl _).trans ((A_eq1 (V3 m ρ) c 0).trans (W3_y m ρ c)))
theorem V5_y : V5 m ρ c main_v126 = yK m c := (keep2 _ main_v126 (by decide)).trans (W4_y m ρ c)
theorem V5_skip : V5 m ρ c main_arg1 = aSkip m c := at5 m ρ c main_arg1 (by decide) (by decide) (by decide) (by decide) (by decide)

/-- The two sum rows at column `j`. -/
theorem W4_s1 (j : Fin 64) : W4 m ρ c (Proc.devRef .tc main_v127_0) (ix2 (0 : Fin 1) j) = Cert.KTail.s1 (yK m c) j := by
  refine (congrFun ((W4_arr m ρ c 1).trans (final1_1 (V3 m ρ) c)) (ix2 (0 : Fin 1) j)).trans ((res1_apply (V3 m ρ) c j).trans ?_)
  rw [show yOf (V3 m ρ) c = yK m c from W3_y m ρ c]
  rfl
theorem W4_s2 (j : Fin 64) : W4 m ρ c (Proc.devRef .tc main_v127_1) (ix2 (0 : Fin 1) j) = Cert.KTail.s2 (yK m c) j := by
  refine (congrFun ((W4_arr m ρ c 2).trans (final1_2 (V3 m ρ) c)) (ix2 (0 : Fin 1) j)).trans ((res2_apply (V3 m ρ) c j).trans ?_)
  rw [show yOf (V3 m ρ) c = yK m c from W3_y m ρ c]
  rfl

/-- The scale and shift rows at column `j`, and the two halves of the fusing matrix. -/
theorem V5_scale (j : Fin 64) : V5 m ρ c main_v138 (ix2 (0 : Fin 1) j) = Cert.KTail.scale (yK m c) (aGamma m c) j := by
  show W5 m ρ c (Proc.devRef .tc main_v138) (ix2 (0 : Fin 1) j) = _
  rw [W5_v138, scaleRow_apply, varRow_apply, W4_s1, W4_s2, at4 m ρ c main_arg3 (by decide) (by decide) (by decide) (by decide)]
  rfl
theorem V5_shift (j : Fin 64) : V5 m ρ c main_v141 (ix2 (0 : Fin 1) j) = Cert.KTail.shift (yK m c) (aGamma m c) (aBeta m c) j := by
  show W5 m ρ c (Proc.devRef .tc main_v141) (ix2 (0 : Fin 1) j) = _
  rw [W5_v141, shiftRow_apply, meanRow_apply, scaleRow_apply, varRow_apply, W4_s1, W4_s2,
    at4 m ρ c main_arg3 (by decide) (by decide) (by decide) (by decide), at4 m ρ c main_arg4 (by decide) (by decide) (by decide) (by decide)]
  rfl
theorem V5_wy (a b : Fin 64) : V5 m ρ c main_v142 (ix2 a b) = aWf m c (ix2 (⟨a.val, by omega⟩ : Fin 128) b) := by
  show W5 m ρ c (Proc.devRef .tc main_v142) (ix2 a b) = _
  rw [W5_v142, at4 m ρ c main_arg5 (by decide) (by decide) (by decide) (by decide)]
  exact Cert.LibWeightLayouts.rows_lo_apply (aWf m c) slices_S128x64_S64x64_0_0 a b
theorem V5_ws (a b : Fin 64) : V5 m ρ c main_v143 (ix2 a b) = aWf m c (ix2 (⟨64 + a.val, by omega⟩ : Fin 128) b) := by
  show W5 m ρ c (Proc.devRef .tc main_v143) (ix2 a b) = _
  rw [W5_v143, at4 m ρ c main_arg5 (by decide) (by decide) (by decide) (by decide)]
  exact Cert.LibWeightLayouts.rows_hi_apply (aWf m c) slices_S128x64_S64x64_64_0 a b

/-- THE RESULT ARRAY is the specification's function of the arguments, when x, the weights, gamma and beta hold reals. -/
theorem W6_result (hx : ∀ i, ∃ r : ℝ, aX m c i = (r : EReal)) (hW : ∀ i, ∃ r : ℝ, aW m c i = (r : EReal))
    (hg : ∀ i, ∃ r : ℝ, aGamma m c i = (r : EReal)) (hb : ∀ i, ∃ r : ℝ, aBeta m c i = (r : EReal)) :
    W6 m ρ c (Proc.devRef .tc main_v144)
      = Cert.Spec.G (aX m c) (aSkip m c) (aW m c) (aGamma m c) (aBeta m c) (aWf m c) (aIdx m c) (aOidx m c) := by
  have hy := Cert.SpecFacts.y_real (aX m c) (aW m c) (aIdx m c) (aOidx m c) hx hW
  refine (W6_arr m ρ c 6).trans ((final2 (V5 m ρ) c).trans ?_)
  rw [V5_y, V5_skip]
  refine Eq.trans ?_ (Cert.KTail.tail_eq_head (yK m c) (aSkip m c) (aGamma m c) (aBeta m c) (aWf m c) hy hg hb)
  funext i
  obtain ⟨v, o, rfl⟩ : ∃ (v : Fin 400000) (o : Fin 64), i = ix2 v o := ⟨i 0, i 1, eq_ix2 i⟩
  rw [Fuse_apply, Cert.KTail.tail_apply]
  refine congrArg₂ (· + ·) (Finset.sum_congr rfl fun j _ => ?_) (Finset.sum_congr rfl fun j _ => ?_)
  · rw [V5_scale, V5_shift, V5_wy]
  · rw [V5_ws]

end Cert.KernelIdeal.HandV

end
-- ==== Proof.RefValue.lean ====
/-
  The reference program computes the specification.

  The reference gathers rows of `x` at wrapped and clamped index words, multiplies each gathered row by the weight
  matrix of its kernel offset, adds the products into the output rows its second index array names, normalises each
  column with the batch mean and the two-pass batch variance, scales, shifts, clips at zero, joins the skip array on
  and multiplies by the final weight matrix. Read index by index, each of these stages is the corresponding
  definition of the specification:

  * the wrap of an index word (a signed comparison with zero, an addition, a selection) is `wrapWord`, and the gather
    of whole rows at a rank-2 array of row numbers reads `x` at the clamped row, so the gathered rows followed by the
    batched product are `contrib`;
  * the operations from the zero constant to the accumulating scatter are, one for one, those of `scatterStage`;
  * a column sum that starts from a zero initial value is the plain sum, so the column mean and variance are
    `colMean` and `colVar`, and the normalised entry is `bn`;
  * a column of the joined array below 64 is the normalised entry and one from 64 on the skip array's, which is
    `joined`, and the last product is the sum over the 128 joined columns.
-/
import proofs.«119201_j83674552861285_2_alg».proof.Proof.Gen.ReferenceIdeal.Read
import proofs.«119201_j83674552861285_2_alg».proof.Proof.Spec
import Idealize.ShloMosaic.Lib.Pipeline.Value

noncomputable section

open scoped BigOperators

namespace Cert.RefValue

open Cert.ReferenceIdeal Cert.ReferenceIdeal.Gen Cert.ReferenceIdeal.Read
open Idealize.ShloMosaic Idealize.ShloMosaic.ValueIdx Idealize.ShloMosaic.TcCoe Idealize.SL.Sem

/-! ## The gather of rows -/

/-- The dimension numbers of a row gather at a rank-2 array of row numbers: operand `[N, C]`, start indices
    `[K, E, 1]`, result `[K, E, C]`. Axis 0 of the operand is collapsed (a slice is one row) and is the one axis the
    start index names; axis 2 of the result is the offset axis and runs over the whole row. -/
abbrev rowDims3 (N K E C : Nat)
    (wf : GatherDims.WF ⟨2, ![N, C]⟩ ⟨3, ![K, E, 1]⟩ ⟨3, ![K, E, C]⟩ [2] [0] [] [0] [] 2 ![1, C]) :
    GatherDims ⟨2, ![N, C]⟩ ⟨3, ![K, E, 1]⟩ ⟨3, ![K, E, C]⟩ where
  offsetDims := [2]
  collapsedSliceDims := [0]
  operandBatchingDims := []
  startIndicesBatchingDims := []
  startIndexMap := [0]
  indexVectorDim := 2
  sliceSizes := ![1, C]
  wf := wf

/-- THE ROW GATHER READ AT `(k, e, q)`: the operand at the row that start index `idx[k, e, 0]` selects, column `q`.
    On operand axis 0 the index is the clamped start alone (no batching axis; a collapsed axis has offset `0`); on
    operand axis 1 the start is `0` (the start index does not name that axis) and the offset is the result's
    coordinate `q` on its one offset axis. -/
theorem rowGather3_apply {α : Type} {N K E C w : Nat} (hN : 0 < N)
    (wf : GatherDims.WF ⟨2, ![N, C]⟩ ⟨3, ![K, E, 1]⟩ ⟨3, ![K, E, C]⟩ [2] [0] [] [0] [] 2 ![1, C])
    (x : (⟨2, ![N, C]⟩ : Shape).Idx → α) (idx : IVec ⟨3, ![K, E, 1]⟩ w) (k : Fin K) (e : Fin E) (q : Fin C) :
    Host.gather (rowDims3 N K E C wf) x idx (ix3 k e q)
      = x (ix2 (Cert.LibRowGather.row N hN (idx (ix3 k e (0 : Fin 1)))) q) := by
  unfold Host.gather
  congr 1
  funext a
  refine Fin.ext ?_
  match a with
  | ⟨0, _⟩ =>
    -- axis 0: the clamped start, no batching coordinate, no offset
    show (rowDims3 N K E C wf).start (ix3 k e q) idx 0 + (rowDims3 N K E C wf).batchCoord (ix3 k e q) 0
      + (rowDims3 N K E C wf).offCoord (ix3 k e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N K E C wf).startIndexMap from List.mem_singleton.mpr rfl)]
    -- the start index of result index (k, e, q) is read at (k, e, 0)
    have hsi : (rowDims3 N K E C wf).siIdx (ix3 k e q) ⟨List.idxOf (0 : Fin 2) (rowDims3 N K E C wf).startIndexMap,
        List.idxOf_lt_length_iff.2 (List.mem_singleton.mpr rfl)⟩ = ix3 k e (0 : Fin 1) := by
      funext b; refine Fin.ext ?_
      match b with
      | ⟨0, _⟩ => rfl
      | ⟨1, _⟩ => rfl
      | ⟨2, _⟩ => rfl
    rw [hsi]
    rfl
  | ⟨1, _⟩ =>
    -- axis 1: start 0, no batching coordinate, offset the result's third coordinate
    show (rowDims3 N K E C wf).start (ix3 k e q) idx 1 + (rowDims3 N K E C wf).batchCoord (ix3 k e q) 1
      + (rowDims3 N K E C wf).offCoord (ix3 k e q) 1 = _
    have h1 : (1 : Fin 2) ∉ (rowDims3 N K E C wf).startIndexMap := by
      intro h; exact absurd (Fin.val_eq_of_eq (List.mem_singleton.mp h)) Nat.one_ne_zero
    have hk : (1 : Fin 2) ∈ (rowDims3 N K E C wf).sKept :=
      (GatherDims.mem_sKept _ _).mpr
        ⟨fun h => absurd (Fin.val_eq_of_eq (List.mem_singleton.mp h)) Nat.one_ne_zero, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-! ## The index words -/

/-- The lowering's wrap of one index word — a signed comparison with zero, an addition of the extent, a selection
    between the sum and the word — is the one-word map `wrapWord`. -/
theorem select_wrap (n w : BitVec 32) :
    Scalar.select (IntOp.cmpi .slt w 0#32) (IntOp.addi w n) w = Cert.LibWrapIndex.wrapWord n w := by
  by_cases h : w.slt 0#32 = true
  · rw [Cert.LibWrapIndex.wrapWord_neg n w h]
    show (if BitVec.ofBool (w.slt 0#32) = 1 then w + n else w) = w + n
    rw [h]; rfl
  · have h' : w.slt 0#32 = false := by simpa using h
    rw [Cert.LibWrapIndex.wrapWord_nonneg n w h']
    show (if BitVec.ofBool (w.slt 0#32) = 1 then w + n else w) = w
    rw [h']; rfl

/-- The wrapped index word the reference's gather reads at `(k, p, 0)`. -/
theorem v5_apply (x6 : IVec ⟨2, ![8, 100000]⟩ 32) (k : Fin 8) (p : Fin 100000) :
    val_main_v5 (F := Ideal) x6 (ix3 k p (0 : Fin 1)) = Cert.LibWrapIndex.wrapWord 100000#32 (x6 (ix2 k p)) := by
  have e5 : idx_main_v5 (ix3 k p (0 : Fin 1)) = ix2 k p :=
    funext fun a => Fin.ext (by match a with | ⟨0, _⟩ => rfl | ⟨1, _⟩ => rfl)
  rw [val_main_v5_apply, e5, val_main_v4_apply, val_main_v1_apply, val_main_v3_apply, val_main_v0_apply,
    val_main_v2_apply, val_main_c_apply, val_main_c_0_apply]
  exact select_wrap _ _

/-- The reference's gather record is the row gather's. -/
theorem gather_dims_eq :
    gather_S100000x128_S8x100000x1_S8x100000x128_2_0_n_n_0_2_1128 = rowDims3 100000 8 100000 128 (by decide) := rfl

/-- The gathered rows at `(k, p, i)`: `x` at the source row of `(k, p)`, column `i`. -/
theorem v6_apply (x0 : FVec Ideal ⟨2, ![100000, 128]⟩ .f32) (x6 : IVec ⟨2, ![8, 100000]⟩ 32)
    (k : Fin 8) (p : Fin 100000) (i : Fin 128) :
    val_main_v6 (F := Ideal) x0 x6 (ix3 k p i) = x0 (ix2 (Cert.Spec.srcRow x6 k p) i) := by
  unfold val_main_v6
  rw [gather_dims_eq]
  generalize hy : val_main_v5 (F := Ideal) x6 = y
  rw [rowGather3_apply (by decide) (by decide) x0 y k p i, ← hy, v5_apply]
  rfl

/-- THE CONTRIBUTIONS: the reference's gather followed by its batched product is `contrib`. -/
theorem v7_eq (x0 : FVec Ideal ⟨2, ![100000, 128]⟩ .f32) (x2 : FVec Ideal ⟨3, ![8, 128, 64]⟩ .f32)
    (x6 : IVec ⟨2, ![8, 100000]⟩ 32) :
    val_main_v7 (F := Ideal) x0 x2 x6 = Cert.Spec.contrib x0 x2 x6 := by
  funext j
  obtain ⟨k, p, o, rfl⟩ : ∃ (k : Fin 8) (p : Fin 100000) (o : Fin 64), j = ix3 k p o := ⟨j 0, j 1, j 2, eq_ix3 j⟩
  rw [val_main_v7_apply, Cert.Spec.contrib_apply]
  refine Finset.sum_congr rfl fun i _ => ?_
  have el : lidx_main_v7 (ix3 k p o) i = ix3 k p i :=
    funext fun a => Fin.ext (by match a with | ⟨0, _⟩ => rfl | ⟨1, _⟩ => rfl | ⟨2, _⟩ => rfl)
  have er : ridx_main_v7 (ix3 k p o) i = ix3 k i o :=
    funext fun a => Fin.ext (by match a with | ⟨0, _⟩ => rfl | ⟨1, _⟩ => rfl | ⟨2, _⟩ => rfl)
  rw [el, er, v6_apply]

/-! ## The segment sum -/

/-- The reference's scatter record is the row scatter's. -/
theorem scatter_dims_eq :
    scatter_S400000x64_S800000x1_S800000x64_1_0_0_1
      = Cert.LibRowScatterAdd.rowDims 400000 800000 64 (by decide) := rfl

/-- THE SEGMENT SUM: the reference's thirteen operations from the zero constant to the scatter are `scatterStage` of
    the contributions and the output index array, operation by operation. -/
theorem v17_eq (x0 : FVec Ideal ⟨2, ![100000, 128]⟩ .f32) (x2 : FVec Ideal ⟨3, ![8, 128, 64]⟩ .f32)
    (x6 x7 : IVec ⟨2, ![8, 100000]⟩ 32) :
    val_main_v17 (F := Ideal) x0 x2 x6 x7
      = Cert.Spec.scatterStage (val_main_v7 (F := Ideal) x0 x2 x6) x7 := by
  unfold val_main_v17 val_main_v10 val_main_v16 val_main_v15 val_main_v14 val_main_v12 val_main_v13 val_main_v11
    val_main_v9 val_main_v8 val_main_cst val_main_c_1 val_main_c_2 Cert.Spec.scatterStage
  generalize val_main_v7 (F := Ideal) x0 x2 x6 = C
  rw [scatter_dims_eq]

/-! ## The column statistics -/

section Tail

variable (x0 : FVec Ideal ⟨2, ![100000, 128]⟩ .f32) (x1 : FVec Ideal ⟨2, ![400000, 64]⟩ .f32)
  (x2 : FVec Ideal ⟨3, ![8, 128, 64]⟩ .f32) (x3 x4 : FVec Ideal ⟨1, ![64]⟩ .f32)
  (x5 : FVec Ideal ⟨2, ![128, 64]⟩ .f32) (x6 x7 : IVec ⟨2, ![8, 100000]⟩ 32)

/-- The reference's column mean (a sum from a zero initial value, divided by 400000) is `colMean` of its segment
    sum: the zero initial value adds nothing. -/
theorem v20_eq (o : Fin 64) :
    val_main_v20 (F := Ideal) x0 x2 x6 x7 (ix1 o)
      = Cert.Spec.colMean (val_main_v17 (F := Ideal) x0 x2 x6 x7) o := by
  rw [val_main_v20_apply, val_main_v18_apply, val_main_v19_apply, val_main_cst_4_apply, val_main_cst_3_apply]
  simp only [Ideal.hostDivf_def, Ideal.ofBits_def, Ideal.ofBits_zero_f32, zero_add]
  unfold Cert.Spec.colMean
  have hs : (∑ k : Fin 400000, val_main_v17 (F := Ideal) x0 x2 x6 x7 (idx_main_v18 (ix1 o) k))
      = ∑ v : Fin 400000, val_main_v17 (F := Ideal) x0 x2 x6 x7 (ix2 v o) :=
    Finset.sum_congr rfl fun k _ => congrArg (val_main_v17 (F := Ideal) x0 x2 x6 x7)
      (funext fun a => Fin.ext (by match a with | ⟨0, _⟩ => rfl | ⟨1, _⟩ => rfl))
  rw [hs]

/-- The column mean broadcast down the rows, as the deviations of the variance read it. -/
theorem v22_eq (v : Fin 400000) (o : Fin 64) :
    val_main_v22 (F := Ideal) x0 x2 x6 x7 (ix2 v o)
      = Cert.Spec.colMean (val_main_v17 (F := Ideal) x0 x2 x6 x7) o := by
  have e : idx_main_v21 (idx_main_v22 (ix2 v o)) = ix1 o :=
    funext fun a => Fin.ext (by match a with | ⟨0, _⟩ => rfl)
  rw [val_main_v22_apply, val_main_v21_apply, e, v20_eq]

/-- The column mean broadcast down the rows, as the normalisation reads it. -/
theorem v29_eq (v : Fin 400000) (o : Fin 64) :
    val_main_v29 (F := Ideal) x0 x2 x6 x7 (ix2 v o)
      = Cert.Spec.colMean (val_main_v17 (F := Ideal) x0 x2 x6 x7) o := by
  have e : idx_main_v28 (idx_main_v29 (ix2 v o)) = ix1 o :=
    funext fun a => Fin.ext (by match a with | ⟨0, _⟩ => rfl)
  rw [val_main_v29_apply, val_main_v28_apply, e, v20_eq]

/-- The reference's column variance (the squared deviations summed from a zero initial value, divided by 400000) is
    `colVar` of its segment sum. -/
theorem v27_eq (o : Fin 64) :
    val_main_v27 (F := Ideal) x0 x2 x6 x7 (ix1 o)
      = Cert.Spec.colVar (val_main_v17 (F := Ideal) x0 x2 x6 x7) o := by
  rw [val_main_v27_apply, val_main_v25_apply, val_main_v26_apply, val_main_cst_6_apply, val_main_cst_5_apply]
  simp only [Ideal.hostDivf_def, Ideal.ofBits_def, Ideal.ofBits_zero_f32, zero_add]
  unfold Cert.Spec.colVar
  have hs : (∑ k : Fin 400000, val_main_v24 (F := Ideal) x0 x2 x6 x7 (idx_main_v25 (ix1 o) k))
      = ∑ v : Fin 400000,
          (val_main_v17 (F := Ideal) x0 x2 x6 x7 (ix2 v o)
              - Cert.Spec.colMean (val_main_v17 (F := Ideal) x0 x2 x6 x7) o)
            * (val_main_v17 (F := Ideal) x0 x2 x6 x7 (ix2 v o)
              - Cert.Spec.colMean (val_main_v17 (F := Ideal) x0 x2 x6 x7) o) := by
    refine Finset.sum_congr rfl fun k _ => ?_
    have e : idx_main_v25 (ix1 o) k = ix2 k o :=
      funext fun a => Fin.ext (by match a with | ⟨0, _⟩ => rfl | ⟨1, _⟩ => rfl)
    rw [e, val_main_v24_apply, val_main_v23_apply, v22_eq]
    rfl
  rw [hs]

/-! ## The normalisation -/

/-- The reference's normalised, scaled, shifted and clipped entry at `(v, o)` is `bn` of its segment sum. -/
theorem v43_eq (v : Fin 400000) (o : Fin 64) :
    val_main_v43 (F := Ideal) x0 x2 x3 x4 x6 x7 (ix2 v o)
      = Cert.Spec.bn (val_main_v17 (F := Ideal) x0 x2 x6 x7) x3 x4 v o := by
  have e35 : idx_main_v34 (idx_main_v35 (ix2 v o)) = ix1 o :=
    funext fun a => Fin.ext (by match a with | ⟨0, _⟩ => rfl)
  have e38 : idx_main_v37 (idx_main_v38 (ix2 v o)) = ix1 o :=
    funext fun a => Fin.ext (by match a with | ⟨0, _⟩ => rfl)
  have e41 : idx_main_v40 (idx_main_v41 (ix2 v o)) = ix1 o :=
    funext fun a => Fin.ext (by match a with | ⟨0, _⟩ => rfl)
  rw [val_main_v43_apply, val_main_v42_apply, val_main_v39_apply, val_main_v36_apply, val_main_v30_apply, v29_eq,
    val_main_v35_apply, val_main_v34_apply, e35, val_main_v33_apply, val_main_v32_apply, v27_eq,
    val_main_v31_apply, val_main_cst_7_apply, val_main_v38_apply, val_main_v37_apply, e38,
    val_main_v41_apply, val_main_v40_apply, e41, val_main_call0_v0_apply, val_main_call0_cst_apply]
  rfl

/-! ## The joined array -/

/-- A column below 64 of the reference's joined array is the normalised entry. -/
theorem v44_left (v : Fin 400000) (c : Fin 128) (h : c.val < 64) :
    val_main_v44 (F := Ideal) x0 x1 x2 x3 x4 x6 x7 (ix2 v c)
      = val_main_v43 (F := Ideal) x0 x2 x3 x4 x6 x7 (ix2 v (⟨c.val, h⟩ : Fin 64)) := by
  unfold val_main_v44
  generalize val_main_v43 (F := Ideal) x0 x2 x3 x4 x6 x7 = y
  exact concatenate_pair_apply_left (1 : Fin 2) y x1 concatenates_S400000x64_S400000x64_S400000x128_d1 (ix2 v c) rfl
    (ix2 v (⟨c.val, h⟩ : Fin 64)) (fun b => by match b with | ⟨0, _⟩ => rfl | ⟨1, _⟩ => rfl)

/-- A column from 64 on of the reference's joined array is the skip array's column 64 less. -/
theorem v44_right (v : Fin 400000) (c : Fin 128) (h : ¬ c.val < 64) :
    val_main_v44 (F := Ideal) x0 x1 x2 x3 x4 x6 x7 (ix2 v c)
      = x1 (ix2 v (⟨c.val - 64, by have := c.isLt; omega⟩ : Fin 64)) := by
  unfold val_main_v44
  generalize val_main_v43 (F := Ideal) x0 x2 x3 x4 x6 x7 = y
  exact concatenate_pair_apply_right (1 : Fin 2) y x1 concatenates_S400000x64_S400000x64_S400000x128_d1 (ix2 v c) rfl rfl
    (ix2 v (⟨c.val - 64, by have := c.isLt; omega⟩ : Fin 64))
    (fun b hb => by
      match b, hb with
      | ⟨0, _⟩, _ => rfl
      | ⟨1, _⟩, hb => exact absurd rfl hb)
    (by show c.val - 64 + 64 = c.val; omega)

/-! ## The result -/

/-- THE REFERENCE IS THE SPECIFICATION: the last stage of the reference, as a function of the eight argument
    arrays, is `G`. -/
theorem val_eq_G :
    val_main_v45 (F := Ideal) x0 x1 x2 x3 x4 x5 x6 x7 = Cert.Spec.G x0 x1 x2 x3 x4 x5 x6 x7 := by
  funext j
  obtain ⟨v, o, rfl⟩ : ∃ (v : Fin 400000) (o : Fin 64), j = ix2 v o := ⟨j 0, j 1, eq_ix2 j⟩
  rw [val_main_v45_apply, Cert.Spec.G_apply, ← v7_eq, ← v17_eq]
  refine Finset.sum_congr rfl fun c _ => ?_
  have el : lidx_main_v45 (ix2 v o) c = ix2 v c :=
    funext fun a => Fin.ext (by match a with | ⟨0, _⟩ => rfl | ⟨1, _⟩ => rfl)
  have er : ridx_main_v45 (ix2 v o) c = ix2 c o :=
    funext fun a => Fin.ext (by match a with | ⟨0, _⟩ => rfl | ⟨1, _⟩ => rfl)
  rw [el, er]
  refine congrArg (fun t => t * x5 (ix2 c o)) ?_
  unfold Cert.Spec.joined
  by_cases h : c.val < 64
  · rw [dif_pos h, v44_left x0 x1 x2 x3 x4 x6 x7 v c h, v43_eq]
  · rw [dif_neg h, v44_right x0 x1 x2 x3 x4 x6 x7 v c h]

end Tail

/-- THE REFERENCE RUN'S RESULT: the term the reference's run leaves in its result buffer is the specification of the
    contents of the eight argument buffers. -/
theorem res_eq_G (m : (ℓ : Loc nD τ sig) → Buf (Elt Ideal) ℓ) (c : Dev nD) :
    Cert.ReferenceIdeal.Value.res_main_v45 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v45_eq m c).trans (val_eq_G _ _ _ _ _ _ _ _)

end Cert.RefValue

end
-- ==== Proof.PreFinite.lean ====
/-
  The precondition read at the exact reals: when the conjunction of the six tests "every entry's magnitude is below plus
  infinity" evaluates to true, every entry of each of the six float arrays is a real number.
-/
import proofs.«119201_j83674552861285_2_alg».proof.Pre_finite_inputs
import proofs.«119201_j83674552861285_2_alg».proof.Proof.Gen.Pre_finite_inputs
import proofs.«119201_j83674552861285_2_alg».proof.Proof.LibFinite
import Idealize.ShloMosaic.Lib.ReduceAll

namespace Cert.PreFinite

open Idealize.ShloMosaic
open Cert.Pre_finite_inputs

variable [Cert.Pre_finite_inputs.Facts]

/-- The precondition is the conjunction, by the one-bit "and", of six reductions; the conjunction is 1 exactly when each
    reduction is, and a reduction by "and" of the comparisons |a| < +∞ that is 1 makes every entry of a real. -/
theorem all_real
    (a0 : FVec Ideal S100000x128 .f32) (a1 : FVec Ideal S400000x64 .f32) (a2 : FVec Ideal S8x128x64 .f32)
    (a3 : FVec Ideal S64 .f32) (a4 : FVec Ideal S64 .f32) (a5 : FVec Ideal S128x64 .f32)
    (a6 a7 : IVec S8x100000 32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1, andi] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨Cert.LibFinite.all_real a0 _ _ _ h0', Cert.LibFinite.all_real a1 _ _ _ h1,
    Cert.LibFinite.all_real a2 _ _ _ h2, Cert.LibFinite.all_real a3 _ _ _ h3,
    Cert.LibFinite.all_real a4 _ _ _ h4, Cert.LibFinite.all_real a5 _ _ _ h5⟩

/-- Under the precondition every entry of the first float array is a real number. -/
theorem a0_real
    (a0 : FVec Ideal S100000x128 .f32) (a1 : FVec Ideal S400000x64 .f32) (a2 : FVec Ideal S8x128x64 .f32)
    (a3 : FVec Ideal S64 .f32) (a4 : FVec Ideal S64 .f32) (a5 : FVec Ideal S128x64 .f32)
    (a6 a7 : IVec S8x100000 32)
    (h : Cert.Pre_finite_inputs.fn (F := Ideal) a0 a1 a2 a3 a4 a5 a6 a7 = fun _ => 1#1) :
    ∀ i, ∃ r : ℝ, a0 i = (r : EReal) :=
  (all_real a0 a1 a2 a3 a4 a5 a6 a7 h).1

/-- Under the precondition every entry of the second float array is a real number. -/
theorem a1_real
    (a0 : FVec Ideal S100000x128 .f32) (a1 : FVec Ideal S400000x64 .f32) (a2 : FVec Ideal S8x128x64 .f32)
    (a3 : FVec Ideal S64 .f32) (a4 : FVec Ideal S64 .f32) (a5 : FVec Ideal S128x64 .f32)
    (a6 a7 : IVec S8x100000 32)
    (h : Cert.Pre_finite_inputs.fn (F := Ideal) a0 a1 a2 a3 a4 a5 a6 a7 = fun _ => 1#1) :
    ∀ i, ∃ r : ℝ, a1 i = (r : EReal) :=
  (all_real a0 a1 a2 a3 a4 a5 a6 a7 h).2.1

/-- Under the precondition every entry of the third float array is a real number. -/
theorem a2_real
    (a0 : FVec Ideal S100000x128 .f32) (a1 : FVec Ideal S400000x64 .f32) (a2 : FVec Ideal S8x128x64 .f32)
    (a3 : FVec Ideal S64 .f32) (a4 : FVec Ideal S64 .f32) (a5 : FVec Ideal S128x64 .f32)
    (a6 a7 : IVec S8x100000 32)
    (h : Cert.Pre_finite_inputs.fn (F := Ideal) a0 a1 a2 a3 a4 a5 a6 a7 = fun _ => 1#1) :
    ∀ i, ∃ r : ℝ, a2 i = (r : EReal) :=
  (all_real a0 a1 a2 a3 a4 a5 a6 a7 h).2.2.1

/-- Under the precondition every entry of the fourth float array is a real number. -/
theorem a3_real
    (a0 : FVec Ideal S100000x128 .f32) (a1 : FVec Ideal S400000x64 .f32) (a2 : FVec Ideal S8x128x64 .f32)
    (a3 : FVec Ideal S64 .f32) (a4 : FVec Ideal S64 .f32) (a5 : FVec Ideal S128x64 .f32)
    (a6 a7 : IVec S8x100000 32)
    (h : Cert.Pre_finite_inputs.fn (F := Ideal) a0 a1 a2 a3 a4 a5 a6 a7 = fun _ => 1#1) :
    ∀ i, ∃ r : ℝ, a3 i = (r : EReal) :=
  (all_real a0 a1 a2 a3 a4 a5 a6 a7 h).2.2.2.1

/-- Under the precondition every entry of the fifth float array is a real number. -/
theorem a4_real
    (a0 : FVec Ideal S100000x128 .f32) (a1 : FVec Ideal S400000x64 .f32) (a2 : FVec Ideal S8x128x64 .f32)
    (a3 : FVec Ideal S64 .f32) (a4 : FVec Ideal S64 .f32) (a5 : FVec Ideal S128x64 .f32)
    (a6 a7 : IVec S8x100000 32)
    (h : Cert.Pre_finite_inputs.fn (F := Ideal) a0 a1 a2 a3 a4 a5 a6 a7 = fun _ => 1#1) :
    ∀ i, ∃ r : ℝ, a4 i = (r : EReal) :=
  (all_real a0 a1 a2 a3 a4 a5 a6 a7 h).2.2.2.2.1

/-- Under the precondition every entry of the sixth float array is a real number. -/
theorem a5_real
    (a0 : FVec Ideal S100000x128 .f32) (a1 : FVec Ideal S400000x64 .f32) (a2 : FVec Ideal S8x128x64 .f32)
    (a3 : FVec Ideal S64 .f32) (a4 : FVec Ideal S64 .f32) (a5 : FVec Ideal S128x64 .f32)
    (a6 a7 : IVec S8x100000 32)
    (h : Cert.Pre_finite_inputs.fn (F := Ideal) a0 a1 a2 a3 a4 a5 a6 a7 = fun _ => 1#1) :
    ∀ i, ∃ r : ℝ, a5 i = (r : EReal) :=
  (all_real a0 a1 a2 a3 a4 a5 a6 a7 h).2.2.2.2.2

end Cert.PreFinite
-- ==== Proof.lean ====
/-
  The proof of the certificate's claim: a sparse inverse convolution (gather, matrix product, scatter-add), batch
  normalisation with batch statistics, ReLU, a channel concatenation with skip features and a final matrix product,
  computed by three pallas_calls and host operations, against its jnp reference.

  The three frames. The kernel program, as printed and as idealized, is two host operations, a call, 151 host
  operations, a call, 19 host operations, a call; its run is assembled in Proof/KB (word level) and Proof/KI
  (idealized) from the launch theorem for several regions, each call's body obligation proved from the body's
  triple (the second call, an accumulator reset at the first grid point, by cases on the point). No host operation
  and no output window writes an argument array. The reference's frame is its generated run with the result dropped.

  preserves: the ideal pass rewrote nothing.

  algebraic. On the extended reals both programs end with the same array G of the arguments (Proof/Spec.lean):
  the reference by reading its run operation by operation (Proof/RefValue.lean); the kernel by reading each
  call's output array as one function of the arrays the call was entered with and each host stretch as the
  composition of its operations (Proof/KV). The two differ in three places. The kernel multiplies x by the
  flattened weights first and gathers rows of the product, the reference gathers rows of x first: entry (k, p, o)
  is the same sum over i of x (row (k, p), i) * W (k, i, o), with the same row, the index word wrapped and clamped.
  The kernel computes the variance as the mean of squares minus the squared mean and folds the normalisation into
  a scale and a shift, the reference takes the mean of squared deviations and normalises step by step: equal for
  real y, gamma and beta, and y is real because the inputs are (the precondition) and a scatter-add of real updates
  into zeros is real. The kernel multiplies the normalised block and the skip block by the two halves of the fusing
  matrix and adds, the reference concatenates and multiplies once: a sum over 128 columns split at 64.
-/
import proofs.«119201_j83674552861285_2_alg».proof.Defs
import proofs.«119201_j83674552861285_2_alg».proof.Proof.Gen.Kernel
import proofs.«119201_j83674552861285_2_alg».proof.Proof.Gen.KernelIdeal
import proofs.«119201_j83674552861285_2_alg».proof.Proof.Gen.ReferenceIdeal
import proofs.«119201_j83674552861285_2_alg».proof.Proof.Gen.Pre_finite_inputs
import proofs.«119201_j83674552861285_2_alg».proof.Proof.Gen.ReferenceIdeal.Read
import proofs.«119201_j83674552861285_2_alg».proof.Proof.KB.Run
import proofs.«119201_j83674552861285_2_alg».proof.Proof.KI.Run
import proofs.«119201_j83674552861285_2_alg».proof.Proof.KV.ValB
import proofs.«119201_j83674552861285_2_alg».proof.Proof.RefValue
import proofs.«119201_j83674552861285_2_alg».proof.Proof.PreFinite
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the array `G` of the arguments: the kernel's run with its result array read as
    that function (the inputs real by the precondition), the reference's generated run with its term read as it, the
    two memories agreeing on the arguments. -/
theorem algebraic : Cert.algebraic_KernelIdeal_ReferenceIdeal := by
  intro m ρ m' ρ' hpre hagree
  have hreal := fun c : Dev Cert.KernelIdeal.nD => Cert.PreFinite.all_real _ _ _ _ _ _ _ _ (hpre c)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨?_, ?_, ?_, ?_, ?_, ?_, ?_, ?_, ?_⟩) (Cert.KernelIdeal.Hand.run_main m ρ)
    · exact (h c _ (Cert.KernelIdeal.Hand.mem_uc Cert.KernelIdeal.main_v144 (by decide))).trans
        (Cert.KernelIdeal.HandV.W6_result m ρ c (hreal c).1 (hreal c).2.2.1 (hreal c).2.2.2.1 (hreal c).2.2.2.2.1)
    · exact (h c _ (Cert.KernelIdeal.Hand.mem_uc Cert.KernelIdeal.main_arg0 (by decide))).trans (Cert.KernelIdeal.Hand.W6_main_arg0 m ρ c)
    · exact (h c _ (Cert.KernelIdeal.Hand.mem_uc Cert.KernelIdeal.main_arg1 (by decide))).trans (Cert.KernelIdeal.Hand.W6_main_arg1 m ρ c)
    · exact (h c _ (Cert.KernelIdeal.Hand.mem_uc Cert.KernelIdeal.main_arg2 (by decide))).trans (Cert.KernelIdeal.Hand.W6_main_arg2 m ρ c)
    · exact (h c _ (Cert.KernelIdeal.Hand.mem_uc Cert.KernelIdeal.main_arg3 (by decide))).trans (Cert.KernelIdeal.Hand.W6_main_arg3 m ρ c)
    · exact (h c _ (Cert.KernelIdeal.Hand.mem_uc Cert.KernelIdeal.main_arg4 (by decide))).trans (Cert.KernelIdeal.Hand.W6_main_arg4 m ρ c)
    · exact (h c _ (Cert.KernelIdeal.Hand.mem_uc Cert.KernelIdeal.main_arg5 (by decide))).trans (Cert.KernelIdeal.Hand.W6_main_arg5 m ρ c)
    · exact (h c _ (Cert.KernelIdeal.Hand.mem_uc Cert.KernelIdeal.main_arg6 (by decide))).trans (Cert.KernelIdeal.Hand.W6_main_arg6 m ρ c)
    · exact (h c _ (Cert.KernelIdeal.Hand.mem_uc Cert.KernelIdeal.main_arg7 (by decide))).trans (Cert.KernelIdeal.Hand.W6_main_arg7 m ρ c)
  · refine (θ_run Cert.ReferenceIdeal.defs _ _).mono (fun _ h c => ⟨(h c).1.trans ((Cert.RefValue.res_eq_G m' c).trans ?_), (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
